-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1000000 : Shape := ⟨2, ![2, 1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64 .f32) (main_arg6 : FVec F S64 .f32) (main_arg7 : IVec S2x1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1000000x64 : Shape := ⟨2, ![1000000, 64]⟩
abbrev S1x64 : Shape := ⟨2, ![1, 64]⟩
abbrev S4000 : Shape := ⟨1, ![4000]⟩

abbrev nBuf : Space → Nat
  | .hbm => 84
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S2x1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S100000x1, .f32⟩
  | .hbm, ⟨41, _⟩ => ⟨S100000x64, .f32⟩
  | .hbm, ⟨42, _⟩ => ⟨S100000x1, .f32⟩
  | .hbm, ⟨43, _⟩ => ⟨S100000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .i1⟩
  | .hbm, ⟨58, _⟩ => ⟨S100000, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .bf16⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .bf16⟩
  | .hbm, ⟨75, _⟩ => ⟨S1000000x64, .f32⟩
  | .hbm, ⟨76, _⟩ => ⟨S_, .f32⟩
  | .hbm, ⟨77, _⟩ => ⟨S100000x64, .f32⟩
  | .hbm, ⟨78, _⟩ => ⟨S1000000x1, .i32⟩
  | .hbm, ⟨79, _⟩ => ⟨S100000x64, .f32⟩
  | .hbm, ⟨80, _⟩ => ⟨S1x64, .f32⟩
  | .hbm, ⟨81, _⟩ => ⟨S100000x1, .f32⟩
  | .hbm, ⟨82, _⟩ => ⟨S100000x1, .f32⟩
  | .hbm, ⟨83, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | .local _ .vmem, ⟨22, _⟩ => ⟨S64x64, .f32⟩
  | .local _ .vmem, ⟨23, _⟩ => ⟨S4000x1, .f32⟩
  | .local _ .vmem, ⟨24, _⟩ => ⟨S4000x1, .f32⟩
  | .local _ .vmem, ⟨25, _⟩ => ⟨S4000x64, .bf16⟩
  | .local _ .vmem, ⟨26, _⟩ => ⟨S4000x64, .bf16⟩
  | .local _ .vmem, ⟨27, _⟩ => ⟨S4000x64, .f32⟩
  | .local _ .vmem, ⟨28, _⟩ => ⟨S4000x64, .f32⟩
  | .local _ .vmem, ⟨29, _⟩ => ⟨S4000x64, .bf16⟩
  | .local _ .vmem, ⟨30, _⟩ => ⟨S4000x64, .bf16⟩
  | .local _ .vmem, ⟨31, _⟩ => ⟨S4000x1, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S1x64, .f32⟩
  | .local _ .vmem, ⟨36, _⟩ => ⟨S4000x64, .f32⟩
  | .local _ .vmem, ⟨37, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  shapeCasts_S100000x1_S100000 : S100000x1.ShapeCasts S100000
  reducesTo_S100000_S_d0 : S100000.ReducesTo [0] S_
  h_S_ : 0 < S_.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S4000x64_S4000x64_0_0 : (Rect.unit (s := S4000x64) ![0, 0] S4000x64.size inb_S4000x64_S4000x64_0_0).PackedRows (EltTy.packing .bf16)
  scatter_S100000_S1000000x1_S1000000_n_0_0_1_wf : ScatterDims.WF S100000 S1000000x1 S1000000 [] [0] [0] 1
  dot_S4000x128_S128x64_S4000x64_1_0_0_1_n_n_wf : DotDims.WF S4000x128 S128x64 S4000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S100000x1.size a
  hwx1_7 : ∀ i : grid1.Coords, EltTy.bits .f32 = 32 ∨ (Rect.block (s := S100000x1) S4000x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .bf16 = 32 ∨ (Rect.block (s := S100000x64) S4000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .bf16 = 32 ∨ (Rect.block (s := S100000x64) S4000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .f32 = 32 ∨ (Rect.block (s := S100000x1) S4000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S4000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S100000x64 : Shape := ⟨2, ![100000, 64]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64, .f32⟩
  | 6 => ⟨S64, .f32⟩
  | 7 => ⟨S2x1000000, .i32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S100000x64, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S1000000, .f32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x64, .f32⟩
  | 52 => ⟨S1000000x1, .f32⟩
  | 53 => ⟨S1000000x64, .f32⟩
  | 54 => ⟨S1000000x64, .f32⟩
  | 55 => ⟨S_, .f32⟩
  | 56 => ⟨S100000x64, .f32⟩
  | 57 => ⟨S1000000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x64, .f32⟩
  | 74 => ⟨S100000x64, .f32⟩
  | 75 => ⟨S100000x64, .f32⟩
  | 76 => ⟨S_, .f32⟩
  | 77 => ⟨S100000, .f32⟩
  | 78 => ⟨S100000x1, .f32⟩
  | 79 => ⟨S_, .f32⟩
  | 80 => ⟨S100000x1, .f32⟩
  | 81 => ⟨S100000x1, .f32⟩
  | 82 => ⟨S100000x64, .f32⟩
  | 83 => ⟨S100000x64, .f32⟩
  | 84 => ⟨S_, .f32⟩
  | 85 => ⟨S100000x1, .f32⟩
  | 86 => ⟨S100000x1, .f32⟩
  | 87 => ⟨S100000x1, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .f32⟩
  | 101 => ⟨S100000, .f32⟩
  | 102 => ⟨S100000, .f32⟩
  | 103 => ⟨S_, .f32⟩
  | 104 => ⟨S_, .f32⟩
  | 105 => ⟨S100000, .f32⟩
  | 106 => ⟨S100000, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S100000, .f32⟩
  | 115 => ⟨S100000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000, .f32⟩
  | 125 => ⟨S_, .f32⟩
  | 126 => ⟨S1000000, .f32⟩
  | 127 => ⟨S1000000, .i1⟩
  | _ => ⟨S100000x128, .f32⟩

abbrev hbmTy0_1 (i : Nat) : BufTy := match i % 128 with
  | 0 => ⟨S1000000, .f32⟩
  | 1 => ⟨S100000x64, .f32⟩
  | 2 => ⟨S_, .f32⟩
  | 3 => ⟨S100000, .f32⟩
  | 4 => ⟨S1000000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000, .f32⟩
  | 28 => ⟨S1000000, .f32⟩
  | 29 => ⟨S1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S1000000x1, .f32⟩
  | 40 => ⟨S1000000x64, .f32⟩
  | 41 => ⟨S1000000x64, .f32⟩
  | 42 => ⟨S_, .f32⟩
  | 43 => ⟨S100000x64, .f32⟩
  | 44 => ⟨S1000000x1, .i32⟩
  | 45 => ⟨S100000x64, .f32⟩
  | 46 => ⟨S100000, .f32⟩
  | 47 => ⟨S100000x1, .f32⟩
  | 48 => ⟨S100000x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S_, .f32⟩
  | 64 => ⟨S100000, .f32⟩
  | 65 => ⟨S100000x1, .f32⟩
  | 66 => ⟨S100000x1, .f32⟩
  | 67 => ⟨S100000x64, .f32⟩
  | 68 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call0_cst : Ref sig .tc := ⟨.hbm, 96, rfl⟩
abbrev main_call0_v0 : Ref sig .tc := ⟨.hbm, 97, rfl⟩
abbrev main_v73 : Ref sig .tc := ⟨.hbm, 98, rfl⟩
abbrev main_call1_v0 : Ref sig .tc := ⟨.hbm, 99, rfl⟩
abbrev main_call1_cst : Ref sig .tc := ⟨.hbm, 100, rfl⟩
abbrev main_call1_v1 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_22 : Ref sig .tc := ⟨.hbm, 138, rfl⟩
abbrev main_v101 : Ref sig .tc := ⟨.hbm, 139, rfl⟩
abbrev main_v102 : Ref sig .tc := ⟨.hbm, 140, rfl⟩
abbrev main_c_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_24 : Ref sig .tc := ⟨.hbm, 147, rfl⟩
abbrev main_v108 : Ref sig .tc := ⟨.hbm, 148, rfl⟩
abbrev main_v109 : Ref sig .tc := ⟨.hbm, 149, rfl⟩
abbrev main_c_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_26 : Ref sig .tc := ⟨.hbm, 158, rfl⟩
abbrev main_v117 : Ref sig .tc := ⟨.hbm, 159, rfl⟩
abbrev main_v118 : Ref sig .tc := ⟨.hbm, 160, rfl⟩
abbrev main_c_27 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_28 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call2_cst : Ref sig .tc := ⟨.hbm, 182, rfl⟩
abbrev main_call2_v0 : Ref sig .tc := ⟨.hbm, 183, rfl⟩
abbrev main_call2_cst_0 : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_cst_1 : Ref sig .tc := ⟨.hbm, 191, rfl⟩
abbrev main_call2_v7 : Ref sig .tc := ⟨.hbm, 192, rfl⟩
abbrev main_call2_v8 : Ref sig .tc := ⟨.hbm, 193, rfl⟩
abbrev main_call2_v9 : Ref sig .tc := ⟨.hbm, 194, rfl⟩
abbrev main_call2_v10 : Ref sig .tc := ⟨.hbm, 195, rfl⟩
abbrev main_v138 : Ref sig .tc := ⟨.hbm, 196, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  reducesTo_S100000_S_d0 : S100000.ReducesTo [0] S_
  dot_S100000x128_S128x64_S100000x64_1_0_0_1_n_n_wf : DotDims.WF S100000x128 S128x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RefRunB.lean ====
/-
  The reference program's run, read back in segments.

  The program is a straight line of 189 host operations. Its result, written out as one term of the arguments,
  repeats every shared intermediate and is too large to handle; so the line is cut at seven places where few
  buffers are still needed, and for each piece the buffers it hands on are shown to hold the stage functions of
  the Read module, GIVEN that the buffers it was handed hold theirs. Each such step only unfolds the stages of
  its own piece: the values handed in are variables. The pieces compose to the whole line.
-/
import proofs.«122454_j84129819394303_2_alg».proof.Proof.RefRunP
import proofs.«122454_j84129819394303_2_alg».proof.Proof.RefReadP
import Idealize.ShloMosaic.Lib.StableHlo.Run

noncomputable section

namespace Cert.ReferenceIdeal.RunB

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-! ## The line, in seven pieces -/

/-- Operations 0 to 58. -/
abbrev seg1 : List (HloOp τ sig (Elt F)) :=
  [ unary main_arg7 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg7 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    binary main_arg0 main_arg1 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1000000x1 ![0] bcast_S1000000_S1000000x1_0 : (⟨S1000000, .i32⟩ : BufTy).Contents (Elt F) → (⟨S1000000x1, .i32⟩ : BufTy).Contents (Elt F)),
    ternary main_v6 main_v7 main_v4 main_v8 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1000000 ![] bcast_S_S1000000 : (⟨S_, .i32⟩ : BufTy).Contents (Elt F) → (⟨S1000000, .i32⟩ : BufTy).Contents (Elt F)),
    binary main_v1 main_v12 main_v13 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 100000#32),
    unary main_c_2 main_v14 (broadcastInDim S1000000 ![] bcast_S_S1000000 : (⟨S_, .i32⟩ : BufTy).Contents (Elt F) → (⟨S1000000, .i32⟩ : BufTy).Contents (Elt F)),
    binary main_v1 main_v14 main_v15 (addi : (⟨S1000000, .i32⟩ : BufTy).Contents (Elt F) → (⟨S1000000, .i32⟩ : BufTy).Contents (Elt F) → (⟨S1000000, .i32⟩ : BufTy).Contents (Elt F)),
    ternary main_v13 main_v15 main_v1 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v16 main_v17 (broadcastInDim S1000000x1 ![0] bcast_S1000000_S1000000x1_0 : (⟨S1000000, .i32⟩ : BufTy).Contents (Elt F) → (⟨S1000000x1, .i32⟩ : BufTy).Contents (Elt F)),
    binary main_v11 main_v17 main_v18 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_3 (constantI S_ 32 0#32),
    unary main_c_3 main_v19 (broadcastInDim S1000000 ![] bcast_S_S1000000 : (⟨S_, .i32⟩ : BufTy).Contents (Elt F) → (⟨S1000000, .i32⟩ : BufTy).Contents (Elt F)),
    binary main_v3 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v21 (broadcastInDim S1000000 ![] bcast_S_S1000000 : (⟨S_, .i32⟩ : BufTy).Contents (Elt F) → (⟨S1000000, .i32⟩ : BufTy).Contents (Elt F)),
    binary main_v3 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_v3 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_v11 main_v24 main_v25 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v18 main_v25 main_v26 (mulf : (⟨S1000000, .f32⟩ : BufTy).Contents (Elt F) → (⟨S1000000, .f32⟩ : BufTy).Contents (Elt F) → (⟨S1000000, .f32⟩ : BufTy).Contents (Elt F)),
    binary main_v26 main_v4 main_v27 (mulf : (⟨S1000000, .f32⟩ : BufTy).Contents (Elt F) → (⟨S1000000, .f32⟩ : BufTy).Contents (Elt F) → (⟨S1000000, .f32⟩ : BufTy).Contents (Elt F)),
    nullary main_c_5 (constantI S_ 32 0#32),
    unary main_c_5 main_v28 (broadcastInDim S1000000 ![] bcast_S_S1000000 : (⟨S_, .i32⟩ : BufTy).Contents (Elt F) → (⟨S1000000, .i32⟩ : BufTy).Contents (Elt F)),
    binary main_v1 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 100000#32),
    unary main_c_6 main_v30 (broadcastInDim S1000000 ![] bcast_S_S1000000 : (⟨S_, .i32⟩ : BufTy).Contents (Elt F) → (⟨S1000000, .i32⟩ : BufTy).Contents (Elt F)),
    binary main_v1 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v5 main_v33 main_v34 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v27 main_v35 (broadcastInDim S1000000x1 ![0] bcast_S1000000_S1000000x1_0 : (⟨S1000000, .f32⟩ : BufTy).Contents (Elt F) → (⟨S1000000x1, .f32⟩ : BufTy).Contents (Elt F)),
    unary main_v35 main_v36 (broadcastInDim S1000000x64 ![0, 1] bcast_S1000000x1_S1000000x64_0_1 : (⟨S1000000x1, .f32⟩ : BufTy).Contents (Elt F) → (⟨S1000000x64, .f32⟩ : BufTy).Contents (Elt F)),
    binary main_v34 main_v36 main_v37 (mulf : (⟨S1000000x64, .f32⟩ : BufTy).Contents (Elt F) → (⟨S1000000x64, .f32⟩ : BufTy).Contents (Elt F) → (⟨S1000000x64, .f32⟩ : BufTy).Contents (Elt F)),
    nullary main_cst_7 (constant S_ .f32 0x00000000#32),
    unary main_cst_7 main_v38 (broadcastInDim S100000x64 ![] bcast_S_S100000x64 : (⟨S_, .f32⟩ : BufTy).Contents (Elt F) → (⟨S100000x64, .f32⟩ : BufTy).Contents (Elt F)),
    unary main_v3 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v11 main_v11 main_v41 (mulf : (⟨S100000, .f32⟩ : BufTy).Contents (Elt F) → (⟨S100000, .f32⟩ : BufTy).Contents (Elt F) → (⟨S100000, .f32⟩ : BufTy).Contents (Elt F)),
    unary main_v41 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x64 ![0, 1] bcast_S100000x1_S100000x64_0_1 : (⟨S100000x1, .f32⟩ : BufTy).Contents (Elt F) → (⟨S100000x64, .f32⟩ : BufTy).Contents (Elt F)),
    binary main_v5 main_v43 main_v44 (mulf : (⟨S100000x64, .f32⟩ : BufTy).Contents (Elt F) → (⟨S100000x64, .f32⟩ : BufTy).Contents (Elt F) → (⟨S100000x64, .f32⟩ : BufTy).Contents (Elt F)),
    binary main_v40 main_v44 main_v45 (addf : (⟨S100000x64, .f32⟩ : BufTy).Contents (Elt F) → (⟨S100000x64, .f32⟩ : BufTy).Contents (Elt F) → (⟨S100000x64, .f32⟩ : BufTy).Contents (Elt F)),
    unary main_arg2 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)) ]

/-- Operations 59 to 94. -/
abbrev seg2 : List (HloOp τ sig (Elt F)) :=
  [ nullary main_cst_8 (constant S_ .f32 0x00000000#32),
    binary main_v48 main_cst_8 main_v49 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_9 (constant S_ .f32 0x42800000#32),
    unary main_cst_9 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v52 main_v53 (broadcastInDim S100000x64 ![0, 1] bcast_S100000x1_S100000x64_0_1 : (⟨S100000x1, .f32⟩ : BufTy).Contents (Elt F) → (⟨S100000x64, .f32⟩ : BufTy).Contents (Elt F)),
    binary main_v48 main_v53 main_v54 (subf : (⟨S100000x64, .f32⟩ : BufTy).Contents (Elt F) → (⟨S100000x64, .f32⟩ : BufTy).Contents (Elt F) → (⟨S100000x64, .f32⟩ : BufTy).Contents (Elt F)),
    binary main_v54 main_v54 main_v55 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v55 main_cst_10 main_v56 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_11 (constant S_ .f32 0x42800000#32),
    unary main_cst_11 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v52 main_v60 (broadcastInDim S100000x64 ![0, 1] bcast_S100000x1_S100000x64_0_1 : (⟨S100000x1, .f32⟩ : BufTy).Contents (Elt F) → (⟨S100000x64, .f32⟩ : BufTy).Contents (Elt F)),
    binary main_v48 main_v60 main_v61 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v62 (broadcastInDim S100000x1 ![] bcast_S_S100000x1 : (⟨S_, .f32⟩ : BufTy).Contents (Elt F) → (⟨S100000x1, .f32⟩ : BufTy).Contents (Elt F)),
    binary main_v59 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.rsqrt : (⟨S100000x1, .f32⟩ : BufTy).Contents (Elt F) → (⟨S100000x1, .f32⟩ : BufTy).Contents (Elt F)),
    unary main_v64 main_v65 (broadcastInDim S100000x64 ![0, 1] bcast_S100000x1_S100000x64_0_1 : (⟨S100000x1, .f32⟩ : BufTy).Contents (Elt F) → (⟨S100000x64, .f32⟩ : BufTy).Contents (Elt F)),
    binary main_v61 main_v65 main_v66 (mulf : (⟨S100000x64, .f32⟩ : BufTy).Contents (Elt F) → (⟨S100000x64, .f32⟩ : BufTy).Contents (Elt F) → (⟨S100000x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v72) (TRef.of (T := ⟨S100000x64, .f32⟩) main_call0_v0) (TRef.of (T := ⟨S100000x64, .f32⟩) main_v73) maximumf,
    TRef.binary (TRef.of (T := ⟨S100000x64, .f32⟩) main_v73) (TRef.of (T := ⟨S100000x64, .f32⟩) main_v73) (TRef.of (T := ⟨S100000x64, .f32⟩) main_call1_v0) mulf,
    TRef.nullary (TRef.of (T := ⟨S_, .f32⟩) main_call1_cst) (constant S_ .f32 0x00000000#32),
    TRef.binary (TRef.of (T := ⟨S100000x64, .f32⟩) main_call1_v0) (TRef.of (T := ⟨S_, .f32⟩) main_call1_cst) (TRef.of (T := ⟨S100000, .f32⟩) main_call1_v1) (fun x v => Host.reduceAdd x v reducesTo_S100000x64_S100000_d1 h_S_),
    TRef.unary (TRef.of (T := ⟨S100000, .f32⟩) main_call1_v1) (TRef.of (T := ⟨S100000, .f32⟩) main_v74) Host.sqrt ]

/-- Operations 95 to 107. -/
abbrev seg3 : List (HloOp τ sig (Elt F)) :=
  [ nullary main_cst_13 (constant S_ .f32 0x7F800000#32),
    binary main_v74 main_cst_13 main_v75 ((fun x v => Host.reduce FloatOps.minimumf x v reducesTo_S100000_S_d0 h_S_) : (⟨S100000, .f32⟩ : BufTy).Contents (Elt F) → (⟨S_, .f32⟩ : BufTy).Contents (Elt F) → (⟨S_, .f32⟩ : BufTy).Contents (Elt F)),
    unary main_v75 main_v76 (broadcastInDim S100000 ![] bcast_S_S100000 : (⟨S_, .f32⟩ : BufTy).Contents (Elt F) → (⟨S100000, .f32⟩ : BufTy).Contents (Elt F)),
    binary main_v74 main_v76 main_v77 (subf : (⟨S100000, .f32⟩ : BufTy).Contents (Elt F) → (⟨S100000, .f32⟩ : BufTy).Contents (Elt F) → (⟨S100000, .f32⟩ : BufTy).Contents (Elt F)),
    nullary main_cst_14 (constant S_ .f32 0xFF800000#32),
    binary main_v74 main_cst_14 main_v78 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    nullary main_cst_15 (constant S_ .f32 0x7F800000#32),
    binary main_v74 main_cst_15 main_v79 ((fun x v => Host.reduce FloatOps.minimumf x v reducesTo_S100000_S_d0 h_S_) : (⟨S100000, .f32⟩ : BufTy).Contents (Elt F) → (⟨S_, .f32⟩ : BufTy).Contents (Elt F) → (⟨S_, .f32⟩ : BufTy).Contents (Elt F)),
    binary main_v78 main_v79 main_v80 (subf : (⟨S_, .f32⟩ : BufTy).Contents (Elt F) → (⟨S_, .f32⟩ : BufTy).Contents (Elt F) → (⟨S_, .f32⟩ : BufTy).Contents (Elt F)),
    nullary main_cst_16 (constant S_ .f32 0x322BCC77#32),
    binary main_v80 main_cst_16 main_v81 (addf : (⟨S_, .f32⟩ : BufTy).Contents (Elt F) → (⟨S_, .f32⟩ : BufTy).Contents (Elt F) → (⟨S_, .f32⟩ : BufTy).Contents (Elt F)),
    unary main_v81 main_v82 (broadcastInDim S100000 ![] bcast_S_S100000 : (⟨S_, .f32⟩ : BufTy).Contents (Elt F) → (⟨S100000, .f32⟩ : BufTy).Contents (Elt F)),
    binary main_v77 main_v82 main_v83 (Host.divf : (⟨S100000, .f32⟩ : BufTy).Contents (Elt F) → (⟨S100000, .f32⟩ : BufTy).Contents (Elt F) → (⟨S100000, .f32⟩ : BufTy).Contents (Elt F)) ]

/-- Operations 108 to 121. -/
abbrev seg4 : List (HloOp τ sig (Elt F)) :=
  [ nullary main_c_17 (constantI S_ 32 0#32),
    unary main_c_17 main_v84 (broadcastInDim S1000000 ![] bcast_S_S1000000 : (⟨S_, .i32⟩ : BufTy).Contents (Elt F) → (⟨S1000000, .i32⟩ : BufTy).Contents (Elt F)),
    binary main_v3 main_v84 main_v85 (cmpi .slt : (⟨S1000000, .i32⟩ : BufTy).Contents (Elt F) → (⟨S1000000, .i32⟩ : BufTy).Contents (Elt F) → (⟨S1000000, .i1⟩ : BufTy).Contents (Elt F)),
    nullary main_c_18 (constantI S_ 32 100000#32),
    unary main_c_18 main_v86 (broadcastInDim S1000000 ![] bcast_S_S1000000 : (⟨S_, .i32⟩ : BufTy).Contents (Elt F) → (⟨S1000000, .i32⟩ : BufTy).Contents (Elt F)),
    binary main_v3 main_v86 main_v87 (addi : (⟨S1000000, .i32⟩ : BufTy).Contents (Elt F) → (⟨S1000000, .i32⟩ : BufTy).Contents (Elt F) → (⟨S1000000, .i32⟩ : BufTy).Contents (Elt F)),
    ternary main_v85 main_v87 main_v3 main_v88 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v88 main_v89 (broadcastInDim S1000000x1 ![0] bcast_S1000000_S1000000x1_0 : (⟨S1000000, .i32⟩ : BufTy).Contents (Elt F) → (⟨S1000000x1, .i32⟩ : BufTy).Contents (Elt F)),
    binary main_v83 main_v89 main_v90 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_cst_19 (constant S_ .f32 0x3DCCCCCD#32),
    unary main_cst_19 main_v91 (broadcastInDim S1000000 ![] bcast_S_S1000000 : (⟨S_, .f32⟩ : BufTy).Contents (Elt F) → (⟨S1000000, .f32⟩ : BufTy).Contents (Elt F)),
    binary main_v90 main_v91 main_v92 (cmpf .ogt : (⟨S1000000, .f32⟩ : BufTy).Contents (Elt F) → (⟨S1000000, .f32⟩ : BufTy).Contents (Elt F) → (⟨S1000000, .i1⟩ : BufTy).Contents (Elt F)),
    unary main_v92 main_v93 (uitofp .f32 : (⟨S1000000, .i1⟩ : BufTy).Contents (Elt F) → (⟨S1000000, .f32⟩ : BufTy).Contents (Elt F)),
    binary main_v73 main_arg3 main_v94 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 122 to 129. -/
abbrev seg5 : List (HloOp τ sig (Elt F)) :=
  [ nullary main_cst_20 (constant S_ .f32 0x00000000#32),
    unary main_cst_20 main_v95 (broadcastInDim S100000 ![] bcast_S_S100000 : (⟨S_, .f32⟩ : BufTy).Contents (Elt F) → (⟨S100000, .f32⟩ : BufTy).Contents (Elt F)),
    unary main_v3 main_v96 (broadcastInDim S1000000x1 ![0] bcast_S1000000_S1000000x1_0 : (⟨S1000000, .i32⟩ : BufTy).Contents (Elt F) → (⟨S1000000x1, .i32⟩ : BufTy).Contents (Elt F)),
    ternary main_v95 main_v96 main_v93 main_v97 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_21 (constant S_ .f32 0x3F800000#32),
    unary main_cst_21 main_v98 (broadcastInDim S100000 ![] bcast_S_S100000 : (⟨S_, .f32⟩ : BufTy).Contents (Elt F) → (⟨S100000, .f32⟩ : BufTy).Contents (Elt F)),
    binary main_v97 main_v98 main_v99 (addf : (⟨S100000, .f32⟩ : BufTy).Contents (Elt F) → (⟨S100000, .f32⟩ : BufTy).Contents (Elt F) → (⟨S100000, .f32⟩ : BufTy).Contents (Elt F)),
    unary main_v99 main_v100 (Host.rsqrt : (⟨S100000, .f32⟩ : BufTy).Contents (Elt F) → (⟨S100000, .f32⟩ : BufTy).Contents (Elt F)) ]

/-- Operations 130 to 173. -/
abbrev seg6 : List (HloOp τ sig (Elt F)) :=
  [ nullary main_c_22 (constantI S_ 32 0#32),
    unary main_c_22 main_v101 (broadcastInDim S1000000 ![] bcast_S_S1000000 : (⟨S_, .i32⟩ : BufTy).Contents (Elt F) → (⟨S1000000, .i32⟩ : BufTy).Contents (Elt F)),
    binary main_v1 main_v101 main_v102 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 100000#32),
    unary main_c_23 main_v103 (broadcastInDim S1000000 ![] bcast_S_S1000000 : (⟨S_, .i32⟩ : BufTy).Contents (Elt F) → (⟨S1000000, .i32⟩ : BufTy).Contents (Elt F)),
    binary main_v1 main_v103 main_v104 (addi : (⟨S1000000, .i32⟩ : BufTy).Contents (Elt F) → (⟨S1000000, .i32⟩ : BufTy).Contents (Elt F) → (⟨S1000000, .i32⟩ : BufTy).Contents (Elt F)),
    ternary main_v102 main_v104 main_v1 main_v105 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v105 main_v106 (broadcastInDim S1000000x1 ![0] bcast_S1000000_S1000000x1_0 : (⟨S1000000, .i32⟩ : BufTy).Contents (Elt F) → (⟨S1000000x1, .i32⟩ : BufTy).Contents (Elt F)),
    binary main_v100 main_v106 main_v107 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_24 (constantI S_ 32 0#32),
    unary main_c_24 main_v108 (broadcastInDim S1000000 ![] bcast_S_S1000000 : (⟨S_, .i32⟩ : BufTy).Contents (Elt F) → (⟨S1000000, .i32⟩ : BufTy).Contents (Elt F)),
    binary main_v3 main_v108 main_v109 (cmpi .slt : (⟨S1000000, .i32⟩ : BufTy).Contents (Elt F) → (⟨S1000000, .i32⟩ : BufTy).Contents (Elt F) → (⟨S1000000, .i1⟩ : BufTy).Contents (Elt F)),
    nullary main_c_25 (constantI S_ 32 100000#32),
    unary main_c_25 main_v110 (broadcastInDim S1000000 ![] bcast_S_S1000000 : (⟨S_, .i32⟩ : BufTy).Contents (Elt F) → (⟨S1000000, .i32⟩ : BufTy).Contents (Elt F)),
    binary main_v3 main_v110 main_v111 (addi : (⟨S1000000, .i32⟩ : BufTy).Contents (Elt F) → (⟨S1000000, .i32⟩ : BufTy).Contents (Elt F) → (⟨S1000000, .i32⟩ : BufTy).Contents (Elt F)),
    ternary main_v109 main_v111 main_v3 main_v112 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v112 main_v113 (broadcastInDim S1000000x1 ![0] bcast_S1000000_S1000000x1_0 : (⟨S1000000, .i32⟩ : BufTy).Contents (Elt F) → (⟨S1000000x1, .i32⟩ : BufTy).Contents (Elt F)),
    binary main_v100 main_v113 main_v114 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v107 main_v114 main_v115 (mulf : (⟨S1000000, .f32⟩ : BufTy).Contents (Elt F) → (⟨S1000000, .f32⟩ : BufTy).Contents (Elt F) → (⟨S1000000, .f32⟩ : BufTy).Contents (Elt F)),
    binary main_v115 main_v93 main_v116 (mulf : (⟨S1000000, .f32⟩ : BufTy).Contents (Elt F) → (⟨S1000000, .f32⟩ : BufTy).Contents (Elt F) → (⟨S1000000, .f32⟩ : BufTy).Contents (Elt F)),
    nullary main_c_26 (constantI S_ 32 0#32),
    unary main_c_26 main_v117 (broadcastInDim S1000000 ![] bcast_S_S1000000 : (⟨S_, .i32⟩ : BufTy).Contents (Elt F) → (⟨S1000000, .i32⟩ : BufTy).Contents (Elt F)),
    binary main_v1 main_v117 main_v118 (cmpi .slt : (⟨S1000000, .i32⟩ : BufTy).Contents (Elt F) → (⟨S1000000, .i32⟩ : BufTy).Contents (Elt F) → (⟨S1000000, .i1⟩ : BufTy).Contents (Elt F)),
    nullary main_c_27 (constantI S_ 32 100000#32),
    unary main_c_27 main_v119 (broadcastInDim S1000000 ![] bcast_S_S1000000 : (⟨S_, .i32⟩ : BufTy).Contents (Elt F) → (⟨S1000000, .i32⟩ : BufTy).Contents (Elt F)),
    binary main_v1 main_v119 main_v120 (addi : (⟨S1000000, .i32⟩ : BufTy).Contents (Elt F) → (⟨S1000000, .i32⟩ : BufTy).Contents (Elt F) → (⟨S1000000, .i32⟩ : BufTy).Contents (Elt F)),
    ternary main_v118 main_v120 main_v1 main_v121 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v121 main_v122 (broadcastInDim S1000000x1 ![0] bcast_S1000000_S1000000x1_0 : (⟨S1000000, .i32⟩ : BufTy).Contents (Elt F) → (⟨S1000000x1, .i32⟩ : BufTy).Contents (Elt F)),
    binary main_v94 main_v122 main_v123 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v116 main_v124 (broadcastInDim S1000000x1 ![0] bcast_S1000000_S1000000x1_0 : (⟨S1000000, .f32⟩ : BufTy).Contents (Elt F) → (⟨S1000000x1, .f32⟩ : BufTy).Contents (Elt F)),
    unary main_v124 main_v125 (broadcastInDim S1000000x64 ![0, 1] bcast_S1000000x1_S1000000x64_0_1 : (⟨S1000000x1, .f32⟩ : BufTy).Contents (Elt F) → (⟨S1000000x64, .f32⟩ : BufTy).Contents (Elt F)),
    binary main_v123 main_v125 main_v126 (mulf : (⟨S1000000x64, .f32⟩ : BufTy).Contents (Elt F) → (⟨S1000000x64, .f32⟩ : BufTy).Contents (Elt F) → (⟨S1000000x64, .f32⟩ : BufTy).Contents (Elt F)),
    nullary main_cst_28 (constant S_ .f32 0x00000000#32),
    unary main_cst_28 main_v127 (broadcastInDim S100000x64 ![] bcast_S_S100000x64 : (⟨S_, .f32⟩ : BufTy).Contents (Elt F) → (⟨S100000x64, .f32⟩ : BufTy).Contents (Elt F)),
    unary main_v3 main_v128 (broadcastInDim S1000000x1 ![0] bcast_S1000000_S1000000x1_0 : (⟨S1000000, .i32⟩ : BufTy).Contents (Elt F) → (⟨S1000000x1, .i32⟩ : BufTy).Contents (Elt F)),
    ternary main_v127 main_v128 main_v126 main_v129 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v100 main_v100 main_v130 (mulf : (⟨S100000, .f32⟩ : BufTy).Contents (Elt F) → (⟨S100000, .f32⟩ : BufTy).Contents (Elt F) → (⟨S100000, .f32⟩ : BufTy).Contents (Elt F)),
    unary main_v130 main_v131 (broadcastInDim S100000x1 ![0] bcast_S100000_S100000x1_0 : (⟨S100000, .f32⟩ : BufTy).Contents (Elt F) → (⟨S100000x1, .f32⟩ : BufTy).Contents (Elt F)),
    unary main_v131 main_v132 (broadcastInDim S100000x64 ![0, 1] bcast_S100000x1_S100000x64_0_1 : (⟨S100000x1, .f32⟩ : BufTy).Contents (Elt F) → (⟨S100000x64, .f32⟩ : BufTy).Contents (Elt F)),
    binary main_v94 main_v132 main_v133 (mulf : (⟨S100000x64, .f32⟩ : BufTy).Contents (Elt F) → (⟨S100000x64, .f32⟩ : BufTy).Contents (Elt F) → (⟨S100000x64, .f32⟩ : BufTy).Contents (Elt F)),
    binary main_v129 main_v133 main_v134 (addf : (⟨S100000x64, .f32⟩ : BufTy).Contents (Elt F) → (⟨S100000x64, .f32⟩ : BufTy).Contents (Elt F) → (⟨S100000x64, .f32⟩ : BufTy).Contents (Elt F)),
    unary main_arg4 main_v135 (broadcastInDim S1x64 ![1] bcast_S64_S1x64_1 : (⟨S64, .f32⟩ : BufTy).Contents (Elt F) → (⟨S1x64, .f32⟩ : BufTy).Contents (Elt F)),
    unary main_v135 main_v136 (broadcastInDim S100000x64 ![0, 1] bcast_S1x64_S100000x64_0_1 : (⟨S1x64, .f32⟩ : BufTy).Contents (Elt F) → (⟨S100000x64, .f32⟩ : BufTy).Contents (Elt F)),
    binary main_v134 main_v136 main_v137 (addf : (⟨S100000x64, .f32⟩ : BufTy).Contents (Elt F) → (⟨S100000x64, .f32⟩ : BufTy).Contents (Elt F) → (⟨S100000x64, .f32⟩ : BufTy).Contents (Elt F)) ]

/-- Operations 174 to 188. -/
abbrev seg7 : List (HloOp τ sig (Elt F)) :=
  [ TRef.nullary (TRef.of (T := ⟨S_, .f32⟩) main_call2_cst) (constant S_ .f32 0xFF800000#32),
    TRef.binary (TRef.of (T := ⟨S100000x64, .f32⟩) main_v137) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v137) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v138) subf ]

/-! ## The typed references' transports -/

/-- Contents moved to a typed reference's buffer type and back are the contents. -/
theorem ofBuf_toBuf {T : BufTy} (x : TRef sig T) (v : T.Contents (Elt F)) : x.ofBuf (x.toBuf v) = v := by
  obtain ⟨r, h, a, b⟩ := x
  subst h
  rfl

/-- Contents moved to a typed reference's buffer type are what they were. -/
theorem toBuf_eq_of_heq {T : BufTy} (x : TRef sig T) (X : T.Contents (Elt F)) (Y : x.ref.ty.Contents (Elt F)) (h : HEq X Y) :
    x.toBuf X = Y := by
  obtain ⟨r, e, a, b⟩ := x
  subst e
  exact eq_of_heq h

/-- Contents read at a typed reference's value type are what they were. -/
theorem ofBuf_eq_of_heq {T : BufTy} (x : TRef sig T) (v : x.ref.ty.Contents (Elt F)) (v' : T.Contents (Elt F)) (h : HEq v v') :
    x.ofBuf v = v' := by
  obtain ⟨r, e, a, b⟩ := x
  subst e
  exact eq_of_heq h

set_option maxRecDepth 8192 in
set_option maxHeartbeats 4000000 in
/-- The seven pieces, one after the other, are the whole line. -/
theorem ops_eq : (ops : List (HloOp τ sig (Elt F))) = seg1 ++ (seg2 ++ (seg3 ++ (seg4 ++ (seg5 ++ (seg6 ++ seg7))))) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Piece by piece -/

section Pieces

variable (x0 : (⟨S100000x128, .f32⟩ : BufTy).Contents (Elt F)) (x1 : (⟨S128x64, .f32⟩ : BufTy).Contents (Elt F)) (x2 : (⟨S64, .f32⟩ : BufTy).Contents (Elt F)) (x3 : (⟨S64x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S2x1000000, .i32⟩ : BufTy).Contents (Elt F))
variable (W : Valuation τ sig (Elt F))

set_option maxRecDepth 8192 in
set_option maxHeartbeats 4000000 in
/-- Piece 1 leaves `main_v48` at its stage, given the buffers it reads at theirs. -/
theorem s1_v48 (h_arg0 : W (Proc.devRef .tc main_arg0) = x0) (h_arg1 : W (Proc.devRef .tc main_arg1) = x1) (h_arg2 : W (Proc.devRef .tc main_arg2) = x2) (h_arg7 : W (Proc.devRef .tc main_arg7) = x7) :
    after seg1 W (Proc.devRef .tc main_v48) = ReadP.val_main_v48 (F := F) x0 x1 x2 x7 := by
  after_results_simp
  rw [h_arg0, h_arg1, h_arg2, h_arg7]
  rfl

set_option maxRecDepth 8192 in
set_option maxHeartbeats 4000000 in
/-- Piece 1 leaves `main_v1` at its stage, given the buffers it reads at theirs. -/
theorem s1_v1 (h_arg7 : W (Proc.devRef .tc main_arg7) = x7) :
    after seg1 W (Proc.devRef .tc main_v1) = ReadP.val_main_v1 (F := F) x7 := by
  after_results_simp
  rw [h_arg7]
  rfl

set_option maxRecDepth 8192 in
set_option maxHeartbeats 4000000 in
/-- Piece 1 leaves `main_v3` at its stage, given the buffers it reads at theirs. -/
theorem s1_v3 (h_arg7 : W (Proc.devRef .tc main_arg7) = x7) :
    after seg1 W (Proc.devRef .tc main_v3) = ReadP.val_main_v3 (F := F) x7 := by
  after_results_simp
  rw [h_arg7]
  rfl

set_option maxRecDepth 8192 in
set_option maxHeartbeats 4000000 in
/-- Piece 1 does not write `main_arg3`. -/
theorem s1_keep_arg3 : after seg1 W (Proc.devRef .tc main_arg3) = W (Proc.devRef .tc main_arg3) := by
  after_results_simp

set_option maxRecDepth 8192 in
set_option maxHeartbeats 4000000 in
/-- Piece 1 does not write `main_arg4`. -/
theorem s1_keep_arg4 : after seg1 W (Proc.devRef .tc main_arg4) = W (Proc.devRef .tc main_arg4) := by
  after_results_simp

set_option maxRecDepth 8192 in
set_option maxHeartbeats 4000000 in
/-- Piece 1 does not write `main_arg5`. -/
theorem s1_keep_arg5 : after seg1 W (Proc.devRef .tc main_arg5) = W (Proc.devRef .tc main_arg5) := by
  after_results_simp

set_option maxRecDepth 8192 in
set_option maxHeartbeats 4000000 in
/-- Piece 1 does not write `main_arg6`. -/
theorem s1_keep_arg6 : after seg1 W (Proc.devRef .tc main_arg6) = W (Proc.devRef .tc main_arg6) := by
  after_results_simp

set_option maxRecDepth 8192 in
set_option maxHeartbeats 4000000 in
/-- Piece 2 leaves `main_v73` at its stage, given the buffers it reads at theirs. -/
theorem s2_v73 (h_v48 : W (Proc.devRef .tc main_v48) = ReadP.val_main_v48 (F := F) x0 x1 x2 x7) (h_arg5 : W (Proc.devRef .tc main_arg5) = x5) (h_arg6 : W (Proc.devRef .tc main_arg6) = x6) :
    after seg2 W (Proc.devRef .tc main_v73) = ReadP.val_main_v73 (F := F) x0 x1 x2 x5 x6 x7 := by
  after_results_simp
  rw [h_v48, h_arg5, h_arg6]
  rfl

set_option maxRecDepth 8192 in
set_option maxHeartbeats 4000000 in
/-- Piece 2 leaves `main_v74` at its stage, given the buffers it reads at theirs. -/
theorem s2_v74 (h_v48 : W (Proc.devRef .tc main_v48) = ReadP.val_main_v48 (F := F) x0 x1 x2 x7) (h_arg5 : W (Proc.devRef .tc main_arg5) = x5) (h_arg6 : W (Proc.devRef .tc main_arg6) = x6) :
    after seg2 W (Proc.devRef .tc main_v74) = ReadP.val_main_v74 (F := F) x0 x1 x2 x5 x6 x7 := by
  after_results_simp
  rw [h_v48, h_arg5, h_arg6]
  rfl

set_option maxRecDepth 8192 in
set_option maxHeartbeats 4000000 in
/-- Piece 2 does not write `main_v1`. -/
theorem s2_keep_v1 : after seg2 W (Proc.devRef .tc main_v1) = W (Proc.devRef .tc main_v1) := by
  after_results_simp

set_option maxRecDepth 8192 in
set_option maxHeartbeats 4000000 in
/-- Piece 2 does not write `main_v3`. -/
theorem s2_keep_v3 : after seg2 W (Proc.devRef .tc main_v3) = W (Proc.devRef .tc main_v3) := by
  after_results_simp

set_option maxRecDepth 8192 in
set_option maxHeartbeats 4000000 in
/-- Piece 2 does not write `main_arg3`. -/
theorem s2_keep_arg3 : after seg2 W (Proc.devRef .tc main_arg3) = W (Proc.devRef .tc main_arg3) := by
  after_results_simp

set_option maxRecDepth 8192 in
set_option maxHeartbeats 4000000 in
/-- Piece 2 does not write `main_arg4`. -/
theorem s2_keep_arg4 : after seg2 W (Proc.devRef .tc main_arg4) = W (Proc.devRef .tc main_arg4) := by
  after_results_simp

set_option maxRecDepth 8192 in
set_option maxHeartbeats 4000000 in
/-- Piece 3 leaves `main_v83` at its stage, given the buffers it reads at theirs. -/
theorem s3_v83 (h_v74 : W (Proc.devRef .tc main_v74) = ReadP.val_main_v74 (F := F) x0 x1 x2 x5 x6 x7) :
    after seg3 W (Proc.devRef .tc main_v83) = ReadP.val_main_v83 (F := F) x0 x1 x2 x5 x6 x7 := by
  after_results_simp
  rw [h_v74]
  rfl

set_option maxRecDepth 8192 in
set_option maxHeartbeats 4000000 in
/-- Piece 3 does not write `main_v73`. -/
theorem s3_keep_v73 : after seg3 W (Proc.devRef .tc main_v73) = W (Proc.devRef .tc main_v73) := by
  after_results_simp

set_option maxRecDepth 8192 in
set_option maxHeartbeats 4000000 in
/-- Piece 3 does not write `main_v1`. -/
theorem s3_keep_v1 : after seg3 W (Proc.devRef .tc main_v1) = W (Proc.devRef .tc main_v1) := by
  after_results_simp

set_option maxRecDepth 8192 in
set_option maxHeartbeats 4000000 in
/-- Piece 3 does not write `main_v3`. -/
theorem s3_keep_v3 : after seg3 W (Proc.devRef .tc main_v3) = W (Proc.devRef .tc main_v3) := by
  after_results_simp

set_option maxRecDepth 8192 in
set_option maxHeartbeats 4000000 in
/-- Piece 3 does not write `main_arg3`. -/
theorem s3_keep_arg3 : after seg3 W (Proc.devRef .tc main_arg3) = W (Proc.devRef .tc main_arg3) := by
  after_results_simp

set_option maxRecDepth 8192 in
set_option maxHeartbeats 4000000 in
/-- Piece 3 does not write `main_arg4`. -/
theorem s3_keep_arg4 : after seg3 W (Proc.devRef .tc main_arg4) = W (Proc.devRef .tc main_arg4) := by
  after_results_simp

set_option maxRecDepth 8192 in
set_option maxHeartbeats 4000000 in
/-- Piece 4 leaves `main_v93` at its stage, given the buffers it reads at theirs. -/
theorem s4_v93 (h_v3 : W (Proc.devRef .tc main_v3) = ReadP.val_main_v3 (F := F) x7) (h_v83 : W (Proc.devRef .tc main_v83) = ReadP.val_main_v83 (F := F) x0 x1 x2 x5 x6 x7) :
    after seg4 W (Proc.devRef .tc main_v93) = ReadP.val_main_v93 (F := F) x0 x1 x2 x5 x6 x7 := by
  after_results_simp
  rw [h_v3, h_v83]
  rfl

set_option maxRecDepth 8192 in
set_option maxHeartbeats 4000000 in
/-- Piece 4 leaves `main_v94` at its stage, given the buffers it reads at theirs. -/
theorem s4_v94 (h_v73 : W (Proc.devRef .tc main_v73) = ReadP.val_main_v73 (F := F) x0 x1 x2 x5 x6 x7) (h_arg3 : W (Proc.devRef .tc main_arg3) = x3) :
    after seg4 W (Proc.devRef .tc main_v94) = ReadP.val_main_v94 (F := F) x0 x1 x2 x3 x5 x6 x7 := by
  after_results_simp
  rw [h_v73, h_arg3]
  rfl

set_option maxRecDepth 8192 in
set_option maxHeartbeats 4000000 in
/-- Piece 4 does not write `main_v1`. -/
theorem s4_keep_v1 : after seg4 W (Proc.devRef .tc main_v1) = W (Proc.devRef .tc main_v1) := by
  after_results_simp

set_option maxRecDepth 8192 in
set_option maxHeartbeats 4000000 in
/-- Piece 4 does not write `main_v3`. -/
theorem s4_keep_v3 : after seg4 W (Proc.devRef .tc main_v3) = W (Proc.devRef .tc main_v3) := by
  after_results_simp

set_option maxRecDepth 8192 in
set_option maxHeartbeats 4000000 in
/-- Piece 4 does not write `main_arg4`. -/
theorem s4_keep_arg4 : after seg4 W (Proc.devRef .tc main_arg4) = W (Proc.devRef .tc main_arg4) := by
  after_results_simp

set_option maxRecDepth 8192 in
set_option maxHeartbeats 4000000 in
/-- Piece 5 leaves `main_v100` at its stage, given the buffers it reads at theirs. -/
theorem s5_v100 (h_v3 : W (Proc.devRef .tc main_v3) = ReadP.val_main_v3 (F := F) x7) (h_v93 : W (Proc.devRef .tc main_v93) = ReadP.val_main_v93 (F := F) x0 x1 x2 x5 x6 x7) :
    after seg5 W (Proc.devRef .tc main_v100) = ReadP.val_main_v100 (F := F) x0 x1 x2 x5 x6 x7 := by
  after_results_simp
  rw [h_v3, h_v93]
  rfl

set_option maxRecDepth 8192 in
set_option maxHeartbeats 4000000 in
/-- Piece 5 does not write `main_v94`. -/
theorem s5_keep_v94 : after seg5 W (Proc.devRef .tc main_v94) = W (Proc.devRef .tc main_v94) := by
  after_results_simp

set_option maxRecDepth 8192 in
set_option maxHeartbeats 4000000 in
/-- Piece 5 does not write `main_v93`. -/
theorem s5_keep_v93 : after seg5 W (Proc.devRef .tc main_v93) = W (Proc.devRef .tc main_v93) := by
  after_results_simp

set_option maxRecDepth 8192 in
set_option maxHeartbeats 4000000 in
/-- Piece 5 does not write `main_v1`. -/
theorem s5_keep_v1 : after seg5 W (Proc.devRef .tc main_v1) = W (Proc.devRef .tc main_v1) := by
  after_results_simp

set_option maxRecDepth 8192 in
set_option maxHeartbeats 4000000 in
/-- Piece 5 does not write `main_v3`. -/
theorem s5_keep_v3 : after seg5 W (Proc.devRef .tc main_v3) = W (Proc.devRef .tc main_v3) := by
  after_results_simp

set_option maxRecDepth 8192 in
set_option maxHeartbeats 4000000 in
/-- Piece 5 does not write `main_arg4`. -/
theorem s5_keep_arg4 : after seg5 W (Proc.devRef .tc main_arg4) = W (Proc.devRef .tc main_arg4) := by
  after_results_simp

set_option maxRecDepth 8192 in
set_option maxHeartbeats 4000000 in
/-- Piece 6 leaves `main_v137` at its stage, given the buffers it reads at theirs. -/
theorem s6_v137 (h_v1 : W (Proc.devRef .tc main_v1) = ReadP.val_main_v1 (F := F) x7) (h_v100 : W (Proc.devRef .tc main_v100) = ReadP.val_main_v100 (F := F) x0 x1 x2 x5 x6 x7) (h_v3 : W (Proc.devRef .tc main_v3) = ReadP.val_main_v3 (F := F) x7) (h_v93 : W (Proc.devRef .tc main_v93) = ReadP.val_main_v93 (F := F) x0 x1 x2 x5 x6 x7) (h_v94 : W (Proc.devRef .tc main_v94) = ReadP.val_main_v94 (F := F) x0 x1 x2 x3 x5 x6 x7) (h_arg4 : W (Proc.devRef .tc main_arg4) = x4) :
    after seg6 W (Proc.devRef .tc main_v137) = ReadP.val_main_v137 (F := F) x0 x1 x2 x3 x4 x5 x6 x7 := by
  after_results_simp
  rw [h_v1, h_v100, h_v3, h_v93, h_v94, h_arg4]
  rfl

set_option maxRecDepth 8192 in
set_option maxHeartbeats 4000000 in
/-- Piece 7 leaves `main_v138` at its stage, given the buffer it reads at its own. Its operations are a called
    function's, over typed references: the transports between a buffer's type and its value's type are removed
    first, so that the two sides are compared stage by stage. -/
theorem s7_v138 (h_v137 : W (Proc.devRef .tc main_v137) = ReadP.val_main_v137 (F := F) x0 x1 x2 x3 x4 x5 x6 x7) :
    after seg7 W (Proc.devRef .tc main_v138) = ReadP.val_main_v138 (F := F) x0 x1 x2 x3 x4 x5 x6 x7 := by
  after_results_simp
  rw [h_v137]
  simp only [ofBuf_toBuf]
  rw [ofBuf_eq_of_heq (TRef.of (T := ⟨S100000x64, .f32⟩) main_v137) _ (ReadP.val_main_v137 (F := F) x0 x1 x2 x3 x4 x5 x6 x7) HEq.rfl]
  refine toBuf_eq_of_heq _ _ _ (heq_of_eq ?_)
  rfl

end Pieces

/-! ## The whole line -/

section Whole

variable (m : (ℓ : Loc nD τ sig) → Buf (Elt F) ℓ) (c : Dev nD)

set_option maxRecDepth 8192 in
set_option maxHeartbeats 4000000 in
/-- After the whole line the result buffer holds the last stage of the launch contents of the arguments. -/
theorem value :
    after (ops : List (HloOp τ sig (Elt F))) (launchContents m c) (Proc.devRef .tc main_v138)
      = ReadP.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_eq]
  simp only [after_append]
  -- the arguments at the launch
  have a3_0 : launchContents m c (Proc.devRef .tc main_arg3) = (m ((c.tc : Thread nD τ).loc main_arg3)) := rfl
  have a4_0 : launchContents m c (Proc.devRef .tc main_arg4) = (m ((c.tc : Thread nD τ).loc main_arg4)) := rfl
  have a5_0 : launchContents m c (Proc.devRef .tc main_arg5) = (m ((c.tc : Thread nD τ).loc main_arg5)) := rfl
  have a6_0 : launchContents m c (Proc.devRef .tc main_arg6) = (m ((c.tc : Thread nD τ).loc main_arg6)) := rfl
  -- after piece 1
  have h48_1 := s1_v48 (m ((c.tc : Thread nD τ).loc main_arg0)) (m ((c.tc : Thread nD τ).loc main_arg1)) (m ((c.tc : Thread nD τ).loc main_arg2)) (m ((c.tc : Thread nD τ).loc main_arg7)) (launchContents m c) rfl rfl rfl rfl
  have h1_1 := s1_v1 (m ((c.tc : Thread nD τ).loc main_arg7)) (launchContents m c) rfl
  have h3_1 := s1_v3 (m ((c.tc : Thread nD τ).loc main_arg7)) (launchContents m c) rfl
  have a3_1 := (s1_keep_arg3 (launchContents m c)).trans a3_0
  have a4_1 := (s1_keep_arg4 (launchContents m c)).trans a4_0
  have a5_1 := (s1_keep_arg5 (launchContents m c)).trans a5_0
  have a6_1 := (s1_keep_arg6 (launchContents m c)).trans a6_0
  -- after piece 2
  have h73_2 := s2_v73 _ _ _ _ _ _ _ h48_1 a5_1 a6_1
  have h74_2 := s2_v74 _ _ _ _ _ _ _ h48_1 a5_1 a6_1
  have h1_2 := (s2_keep_v1 _).trans h1_1
  have h3_2 := (s2_keep_v3 _).trans h3_1
  have a3_2 := (s2_keep_arg3 _).trans a3_1
  have a4_2 := (s2_keep_arg4 _).trans a4_1
  -- after piece 3
  have h83_3 := s3_v83 _ _ _ _ _ _ _ h74_2
  have h73_3 := (s3_keep_v73 _).trans h73_2
  have h1_3 := (s3_keep_v1 _).trans h1_2
  have h3_3 := (s3_keep_v3 _).trans h3_2
  have a3_3 := (s3_keep_arg3 _).trans a3_2
  have a4_3 := (s3_keep_arg4 _).trans a4_2
  -- after piece 4
  have h93_4 := s4_v93 _ _ _ _ _ _ _ h3_3 h83_3
  have h94_4 := s4_v94 _ _ _ _ _ _ _ _ h73_3 a3_3
  have h1_4 := (s4_keep_v1 _).trans h1_3
  have h3_4 := (s4_keep_v3 _).trans h3_3
  have a4_4 := (s4_keep_arg4 _).trans a4_3
  -- after piece 5
  have h100_5 := s5_v100 _ _ _ _ _ _ _ h3_4 h93_4
  have h94_5 := (s5_keep_v94 _).trans h94_4
  have h93_5 := (s5_keep_v93 _).trans h93_4
  have h1_5 := (s5_keep_v1 _).trans h1_4
  have h3_5 := (s5_keep_v3 _).trans h3_4
  have a4_5 := (s5_keep_arg4 _).trans a4_4
  -- after piece 6, then piece 7
  have h137_6 := s6_v137 _ _ _ _ _ _ _ _ _ h1_5 h100_5 h3_5 h93_5 h94_5 a4_5
  exact s7_v138 _ _ _ _ _ _ _ _ _ h137_6

set_option maxRecDepth 8192 in
set_option maxHeartbeats 8000000 in
/-- On every device, for any float values, from any memory with zero counters: every weakly fair execution of the
    program terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138)
          = ReadP.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v138).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Whole

end Cert.ReferenceIdeal.RunB

end
-- ==== Proof.GcnSpec.lean ====
/-
  The mathematics of a two-layer graph convolution over a fixed edge list, as two arrangements of one function.

  The graph has 100000 nodes and 1000000 directed edges; edge e carries two 32-bit words, its source and its
  destination. An edge CONTRIBUTES TO node i exactly when its destination word, read as a signed integer, is i
  (an out-of-range destination contributes nowhere); it READS node gsel(word): a negative word is first moved up by
  100000, and the result is clamped into the node range. For an edge that contributes to i, the node its
  destination word reads is i itself (gsel_of_hit).

  One layer, with node weights d (the inverse square roots of the degrees, self loop included) and an edge mask:
  the FACTORED arrangement scales every row of h by d before the edges are summed and scales the sum by d afterwards,
  the EDGEWISE arrangement multiplies each edge's row by d(source) * d(destination) * mask(edge). The two agree
  because a nonnegative finite extended real distributes over a finite sum of extended reals, whatever the
  summands are (mul_sum_of_nonneg), and multiplication of extended reals is commutative and associative; no
  finiteness of h is used. The weights are nonnegative and finite because a degree is a natural number.

  Everything else (row normalisation, the positive part, the row's Euclidean norm, the min-max rescaling of the
  norms, the threshold, the row-wise log-softmax) is one function applied to equal arguments on both sides.
-/
import Idealize.ShloMosaic.PureOps.Ideal
import Idealize.ShloMosaic.PureOps.Ideal.Laws

noncomputable section

namespace Cert.Gcn

open Idealize.ShloMosaic

/-- Number of nodes and of edges. -/
abbrev NN : Nat := 100000
abbrev EE : Nat := 1000000

/-! ## The literals, as the extended reals their words denote -/

def one : EReal := Ideal.ofBits .f32 0x3F800000#32
def c64 : EReal := Ideal.ofBits .f32 0x42800000#32
def ceps : EReal := Ideal.ofBits .f32 0x3727C5AC#32
def ceps8 : EReal := Ideal.ofBits .f32 0x322BCC77#32
def cthr : EReal := Ideal.ofBits .f32 0x3DCCCCCD#32
def cninf : EReal := Ideal.ofBits .f32 0xFF800000#32
def cpinf : EReal := Ideal.ofBits .f32 0x7F800000#32

theorem one_eq : one = 1 := by
  unfold one; simp [Ideal.ofBits, Ideal.ieee, -EReal.coe_mul]; norm_num
theorem cninf_eq : cninf = ⊥ := by
  unfold cninf; simp [Ideal.ofBits, Ideal.ieee]

/-! ## Edges -/

/-- The edges whose destination word is node i. -/
def hits (dst : Fin EE → BitVec 32) (i : Fin NN) : Finset (Fin EE) :=
  Finset.univ.filter fun e => (dst e).toInt = (i.val : Int)

/-- A negative word moved up by the node count. -/
def norm32 (v : BitVec 32) : BitVec 32 := if v.slt 0#32 then v + 100000#32 else v

/-- A word clamped into the node range. -/
def pick (v : BitVec 32) : Fin NN := ⟨min v.toInt.toNat 99999, by show min v.toInt.toNat 99999 < 100000; omega⟩

/-- The node a word reads. -/
def gsel (v : BitVec 32) : Fin NN := pick (norm32 v)

/-! ## Rows -/

/-- A matrix product, entry (i, k). -/
def mm {J : Nat} (a : Fin NN → Fin J → EReal) (w : Fin J → Fin 64 → EReal) (i : Fin NN) (k : Fin 64) : EReal :=
  ∑ j : Fin J, a i j * w j k

/-- A row normalised to mean zero and variance one (plus the small constant), scaled, shifted, its positive part. -/
def lnrelu (v g b : Fin 64 → EReal) (k : Fin 64) : EReal :=
  max (((v k - Ideal.div (∑ q : Fin 64, v q) c64)
        * Ideal.rsqrt (Ideal.div (∑ q : Fin 64, (v q - Ideal.div (∑ q' : Fin 64, v q') c64) * (v q - Ideal.div (∑ q' : Fin 64, v q') c64)) c64 + ceps))
        * g k + b k) 0

/-- A row's Euclidean norm. -/
def rownorm (r : Fin 64 → EReal) : EReal := Ideal.sqrt (∑ q : Fin 64, r q * r q)

/-- A row's log-softmax: the row less its maximum, less the logarithm of the sum of the exponentials of that. -/
def lsm (v : Fin 64 → EReal) (k : Fin 64) : EReal :=
  (v k - (Finset.univ : Finset (Fin 64)).fold max cninf v)
    - Ideal.log (∑ q : Fin 64, Ideal.exp (v q - (Finset.univ : Finset (Fin 64)).fold max cninf v))

/-- The same with the maximum taken once more against minus infinity, as one of the two programs writes it. -/
def lsm' (v : Fin 64 → EReal) (k : Fin 64) : EReal :=
  (v k - max cninf ((Finset.univ : Finset (Fin 64)).fold max cninf v))
    - Ideal.log (∑ q : Fin 64, Ideal.exp (v q - max cninf ((Finset.univ : Finset (Fin 64)).fold max cninf v)))

theorem lsm'_eq (v : Fin 64 → EReal) : lsm' v = lsm v := by
  funext k; unfold lsm' lsm; rw [cninf_eq, max_eq_right bot_le]

/-- The minimum and the maximum of one value per node, from plus and minus infinity. -/
def rminF (s : Fin NN → EReal) : EReal := (Finset.univ : Finset (Fin NN)).fold min cpinf s
def rmaxF (s : Fin NN → EReal) : EReal := (Finset.univ : Finset (Fin NN)).fold max cninf s

/-! ## The data both arrangements share -/

section
variable (x : Fin NN → Fin 128 → EReal) (W1 : Fin 128 → Fin 64 → EReal) (b1 g bt : Fin 64 → EReal)
  (W2 : Fin 64 → Fin 64 → EReal) (b2 : Fin 64 → EReal) (src dst : Fin EE → BitVec 32)
  (rmin rmax : (Fin NN → EReal) → EReal)

/-- The in-degree: one per contributing edge. -/
def indeg (i : Fin NN) : EReal := ∑ _e ∈ hits dst i, one

/-- The first layer's node weight. -/
def dis0 (i : Fin NN) : EReal := Ideal.rsqrt (indeg dst i + one)

/-- The min-max rescaling of the row norms s, against its threshold: 1 above it, 0 otherwise. -/
def maskOf (s : Fin NN → EReal) (i : Fin NN) : EReal :=
  FloatOps.uitofp (F := Ideal) .f32 (Ideal.cmp .ogt (Ideal.div (s i - rmin s) ((rmax s - rmin s) + ceps8)) cthr)

/-! ## The factored arrangement -/

def hs0 (i : Fin NN) (k : Fin 64) : EReal := mm x W1 i k * dis0 dst i
def agg0K (i : Fin NN) (k : Fin 64) : EReal := ∑ e ∈ hits dst i, hs0 x W1 dst (gsel (src e)) k
def val0K (i : Fin NN) (k : Fin 64) : EReal := dis0 dst i * (agg0K x W1 src dst i k + hs0 x W1 dst i k) + b1 k
def h1K (i : Fin NN) : Fin 64 → EReal := lnrelu (val0K x W1 b1 src dst i) g bt
def sK (i : Fin NN) : EReal := rownorm (h1K x W1 b1 g bt src dst i)
def maskK (i : Fin NN) : EReal := maskOf rmin rmax (sK x W1 b1 g bt src dst) i
def dis1K (i : Fin NN) : EReal := Ideal.rsqrt (maskK x W1 b1 g bt src dst rmin rmax i * indeg dst i + one)
def hs1 (i : Fin NN) (k : Fin 64) : EReal := mm (h1K x W1 b1 g bt src dst) W2 i k * dis1K x W1 b1 g bt src dst rmin rmax i
def agg1K (i : Fin NN) (k : Fin 64) : EReal := ∑ e ∈ hits dst i, hs1 x W1 b1 g bt W2 src dst rmin rmax (gsel (src e)) k
def val1K (i : Fin NN) (k : Fin 64) : EReal :=
  (dis1K x W1 b1 g bt src dst rmin rmax i * maskK x W1 b1 g bt src dst rmin rmax i) * agg1K x W1 b1 g bt W2 src dst rmin rmax i k
    + hs1 x W1 b1 g bt W2 src dst rmin rmax i k * dis1K x W1 b1 g bt src dst rmin rmax i + b2 k
def outK (i : Fin NN) : Fin 64 → EReal := lsm (val1K x W1 b1 g bt W2 b2 src dst rmin rmax i)

/-! ## The edgewise arrangement -/

def nrm0 (e : Fin EE) : EReal := dis0 dst (gsel (src e)) * dis0 dst (gsel (dst e)) * one
def agg0R (i : Fin NN) (k : Fin 64) : EReal := ∑ e ∈ hits dst i, mm x W1 (gsel (src e)) k * nrm0 src dst e
def val0R (i : Fin NN) (k : Fin 64) : EReal := (agg0R x W1 src dst i k + mm x W1 i k * (dis0 dst i * dis0 dst i)) + b1 k
def h1R (i : Fin NN) : Fin 64 → EReal := lnrelu (val0R x W1 b1 src dst i) g bt
def sR (i : Fin NN) : EReal := rownorm (h1R x W1 b1 g bt src dst i)
def maskE (e : Fin EE) : EReal := maskOf rmin rmax (sR x W1 b1 g bt src dst) (gsel (dst e))
def deg1R (i : Fin NN) : EReal := ∑ e ∈ hits dst i, maskE x W1 b1 g bt src dst rmin rmax e
def dis1R (i : Fin NN) : EReal := Ideal.rsqrt (deg1R x W1 b1 g bt src dst rmin rmax i + one)
def nrm1 (e : Fin EE) : EReal :=
  dis1R x W1 b1 g bt src dst rmin rmax (gsel (src e)) * dis1R x W1 b1 g bt src dst rmin rmax (gsel (dst e)) * maskE x W1 b1 g bt src dst rmin rmax e
def agg1R (i : Fin NN) (k : Fin 64) : EReal :=
  ∑ e ∈ hits dst i, mm (h1R x W1 b1 g bt src dst) W2 (gsel (src e)) k * nrm1 x W1 b1 g bt src dst rmin rmax e
def val1R (i : Fin NN) (k : Fin 64) : EReal :=
  (agg1R x W1 b1 g bt W2 src dst rmin rmax i k
    + mm (h1R x W1 b1 g bt src dst) W2 i k * (dis1R x W1 b1 g bt src dst rmin rmax i * dis1R x W1 b1 g bt src dst rmin rmax i)) + b2 k
def outR (i : Fin NN) : Fin 64 → EReal := lsm (val1R x W1 b1 g bt W2 b2 src dst rmin rmax i)

end

end Cert.Gcn

end
-- ==== Proof.GcnAlgebra.lean ====
/-
  The two arrangements of the two-layer graph convolution are one function.

  Three facts carry the proof. (1) An edge that contributes to node i reads node i through its destination word
  (gsel_of_hit). (2) A degree is a natural number, a mask value is 0 or 1, so every node weight — the inverse square
  root of a natural number plus one — is a nonnegative finite extended real (dis_nonneg_fin). (3) A nonnegative finite
  extended real distributes over a finite sum of arbitrary extended reals (mul_sum_of_nonneg); with commutativity and
  associativity of the product this moves the weight of the receiving node from outside the edge sum onto each edge
  (layer0_eq, layer_eq). Nothing is assumed about the rows being summed.
-/
import proofs.«122454_j84129819394303_2_alg».proof.Proof.GcnSpec

noncomputable section

namespace Cert.Gcn

open Idealize.ShloMosaic

/-! ## Edges -/

/-- An edge whose destination word is node i reads node i through that word: the word is not negative, so it is not
    moved, and it is inside the node range, so it is not clamped. -/
theorem gsel_of_hit (v : BitVec 32) (i : Fin NN) (h : v.toInt = (i.val : Int)) : gsel v = i := by
  have hi : i.val < 100000 := i.isLt
  have hs : v.slt 0#32 = false := by
    simp only [BitVec.slt, h]
    simp
  unfold gsel norm32 pick
  rw [hs]
  apply Fin.ext
  show min (v.toInt.toNat) 99999 = i.val
  rw [h, Int.toNat_natCast]
  omega

theorem mem_hits {dst : Fin EE → BitVec 32} {i : Fin NN} {e : Fin EE} (he : e ∈ hits dst i) : (dst e).toInt = (i.val : Int) :=
  (Finset.mem_filter.mp he).2

/-! ## Natural numbers among the extended reals -/

/-- An extended real that is a natural number. -/
def IsNat (a : EReal) : Prop := ∃ n : ℕ, a = ((n : ℝ) : EReal)

theorem IsNat.nonneg {a : EReal} (h : IsNat a) : 0 ≤ a := by
  obtain ⟨n, rfl⟩ := h
  exact EReal.coe_nonneg.mpr (Nat.cast_nonneg n)

theorem IsNat.ne_top {a : EReal} (h : IsNat a) : a ≠ ⊤ := by
  obtain ⟨n, rfl⟩ := h
  exact EReal.coe_ne_top _

theorem isNat_one : IsNat one := ⟨1, by rw [one_eq]; simp⟩

theorem IsNat.add {a b : EReal} (ha : IsNat a) (hb : IsNat b) : IsNat (a + b) := by
  obtain ⟨n, rfl⟩ := ha
  obtain ⟨m, rfl⟩ := hb
  exact ⟨n + m, by rw [← EReal.coe_add, Nat.cast_add]⟩

theorem IsNat.mul {a b : EReal} (ha : IsNat a) (hb : IsNat b) : IsNat (a * b) := by
  obtain ⟨n, rfl⟩ := ha
  obtain ⟨m, rfl⟩ := hb
  exact ⟨n * m, by rw [← EReal.coe_mul, Nat.cast_mul]⟩

theorem isNat_sum {ι : Type} (s : Finset ι) (f : ι → EReal) (h : ∀ e ∈ s, IsNat (f e)) : IsNat (∑ e ∈ s, f e) := by
  classical
  induction s using Finset.induction_on with
  | empty => exact ⟨0, by simp⟩
  | insert a s ha ih =>
    rw [Finset.sum_insert ha]
    exact (h a (Finset.mem_insert_self a s)).add (ih fun e he => h e (Finset.mem_insert_of_mem he))

/-- A mask value is 0 or 1. -/
theorem isNat_maskOf (rmin rmax : (Fin NN → EReal) → EReal) (s : Fin NN → EReal) (i : Fin NN) : IsNat (maskOf rmin rmax s i) :=
  ⟨_, rfl⟩

theorem isNat_indeg (dst : Fin EE → BitVec 32) (i : Fin NN) : IsNat (indeg dst i) :=
  isNat_sum _ _ fun _ _ => isNat_one

/-- The inverse square root of a natural number plus one is a nonnegative finite extended real. -/
theorem dis_nonneg_fin {a : EReal} (h : IsNat a) : 0 ≤ Ideal.rsqrt (a + one) ∧ Ideal.rsqrt (a + one) ≠ ⊤ := by
  obtain ⟨n, hn⟩ := h.add isNat_one
  rw [hn, Ideal.rsqrt_coe]
  by_cases h0 : n = 0
  · -- a natural number plus one is not zero
    exfalso
    obtain ⟨k, rfl⟩ := h
    have : ((k : ℝ) : EReal) + one = (((k + 1 : ℕ) : ℝ) : EReal) := by
      rw [one_eq, Nat.cast_add, Nat.cast_one, EReal.coe_add]; rfl
    rw [this] at hn
    have := EReal.coe_eq_coe_iff.mp hn
    rw [h0] at this
    have : (k + 1 : ℕ) = 0 := by exact_mod_cast this
    omega
  · have hpos : (0 : ℝ) < n := Nat.cast_pos.mpr (Nat.pos_of_ne_zero h0)
    rw [if_neg (not_lt.mpr hpos.le), if_neg hpos.ne']
    exact ⟨EReal.coe_nonneg.mpr (inv_nonneg.mpr (Real.sqrt_nonneg _)), EReal.coe_ne_top _⟩

/-! ## A nonnegative finite factor and a finite sum -/

theorem mul_sum_of_nonneg {ι : Type} (s : Finset ι) (a : EReal) (ha0 : 0 ≤ a) (hat : a ≠ ⊤) (f : ι → EReal) :
    a * ∑ e ∈ s, f e = ∑ e ∈ s, a * f e := by
  classical
  induction s using Finset.induction_on with
  | empty => simp
  | insert b s hb ih =>
    rw [Finset.sum_insert hb, Finset.sum_insert hb, EReal.left_distrib_of_nonneg_of_ne_top ha0 hat, ih]

theorem mul_nonneg_fin {a b : EReal} (ha0 : 0 ≤ a) (hat : a ≠ ⊤) (hb0 : 0 ≤ b) (hbt : b ≠ ⊤) : 0 ≤ a * b ∧ a * b ≠ ⊤ := by
  refine ⟨mul_nonneg ha0 hb0, ?_⟩
  lift a to ℝ using ⟨hat, (lt_of_lt_of_le EReal.bot_lt_zero ha0).ne'⟩
  lift b to ℝ using ⟨hbt, (lt_of_lt_of_le EReal.bot_lt_zero hb0).ne'⟩
  rw [← EReal.coe_mul]; exact EReal.coe_ne_top _

/-- The first layer at one entry: the receiving node's weight outside the edge sum and the self term, or on every edge. -/
theorem layer0_eq {ι : Type} (H : Finset ι) (f d' : ι → EReal) (di hi b : EReal) (hd0 : 0 ≤ di) (hdt : di ≠ ⊤) :
    di * ((∑ e ∈ H, f e * d' e) + hi * di) + b = ((∑ e ∈ H, f e * (d' e * di * one)) + hi * (di * di)) + b := by
  rw [EReal.left_distrib_of_nonneg_of_ne_top hd0 hdt, mul_sum_of_nonneg H di hd0 hdt]
  congr 2
  · exact Finset.sum_congr rfl fun e _ => by rw [one_eq, mul_one, mul_comm di, mul_assoc]
  · exact mul_left_comm di hi di

/-- The second layer at one entry, with the receiving node's mask value. -/
theorem layer_eq {ι : Type} (H : Finset ι) (f d' : ι → EReal) (di mu hi b : EReal) (hd0 : 0 ≤ di) (hdt : di ≠ ⊤)
    (hm0 : 0 ≤ mu) (hmt : mu ≠ ⊤) :
    (di * mu) * (∑ e ∈ H, f e * d' e) + (hi * di) * di + b = ((∑ e ∈ H, f e * (d' e * di * mu)) + hi * (di * di)) + b := by
  obtain ⟨h0, ht⟩ := mul_nonneg_fin hd0 hdt hm0 hmt
  rw [mul_sum_of_nonneg H (di * mu) h0 ht]
  congr 2
  · exact Finset.sum_congr rfl fun e _ => by rw [mul_comm (di * mu), mul_assoc, mul_assoc]
  · exact mul_assoc hi di di

/-! ## The two arrangements agree, stage by stage -/

section
variable (x : Fin NN → Fin 128 → EReal) (W1 : Fin 128 → Fin 64 → EReal) (b1 g bt : Fin 64 → EReal)
  (W2 : Fin 64 → Fin 64 → EReal) (b2 : Fin 64 → EReal) (src dst : Fin EE → BitVec 32)
  (rmin rmax : (Fin NN → EReal) → EReal)

theorem dis0_nonneg_fin (i : Fin NN) : 0 ≤ dis0 dst i ∧ dis0 dst i ≠ ⊤ := dis_nonneg_fin (isNat_indeg dst i)

theorem val0_eq : val0K x W1 b1 src dst = val0R x W1 b1 src dst := by
  funext i k
  unfold val0K agg0K hs0 val0R agg0R nrm0
  obtain ⟨h0, ht⟩ := dis0_nonneg_fin dst i
  rw [layer0_eq (hits dst i) (fun e => mm x W1 (gsel (src e)) k) (fun e => dis0 dst (gsel (src e))) (dis0 dst i) (mm x W1 i k) (b1 k) h0 ht]
  refine congrArg (fun t => (t + mm x W1 i k * (dis0 dst i * dis0 dst i)) + b1 k) ?_
  exact Finset.sum_congr rfl fun e he => by rw [gsel_of_hit (dst e) i (mem_hits he)]

theorem h1_eq : h1K x W1 b1 g bt src dst = h1R x W1 b1 g bt src dst := by
  funext i; unfold h1K h1R; rw [val0_eq]

theorem s_eq : sK x W1 b1 g bt src dst = sR x W1 b1 g bt src dst := by
  funext i; unfold sK sR; rw [h1_eq]

theorem maskK_eq (i : Fin NN) : maskK x W1 b1 g bt src dst rmin rmax i = maskOf rmin rmax (sR x W1 b1 g bt src dst) i := by
  unfold maskK; rw [s_eq]

theorem maskE_of_hit (i : Fin NN) (e : Fin EE) (he : e ∈ hits dst i) :
    maskE x W1 b1 g bt src dst rmin rmax e = maskOf rmin rmax (sR x W1 b1 g bt src dst) i := by
  unfold maskE; rw [gsel_of_hit (dst e) i (mem_hits he)]

theorem deg1_eq (i : Fin NN) :
    deg1R x W1 b1 g bt src dst rmin rmax i = maskOf rmin rmax (sR x W1 b1 g bt src dst) i * indeg dst i := by
  unfold deg1R indeg
  rw [mul_sum_of_nonneg _ _ (isNat_maskOf rmin rmax _ i).nonneg (isNat_maskOf rmin rmax _ i).ne_top]
  exact Finset.sum_congr rfl fun e he => by rw [maskE_of_hit x W1 b1 g bt src dst rmin rmax i e he, one_eq, mul_one]

theorem dis1_eq : dis1K x W1 b1 g bt src dst rmin rmax = dis1R x W1 b1 g bt src dst rmin rmax := by
  funext i; unfold dis1K dis1R; rw [deg1_eq, maskK_eq]

theorem dis1R_nonneg_fin (i : Fin NN) :
    0 ≤ dis1R x W1 b1 g bt src dst rmin rmax i ∧ dis1R x W1 b1 g bt src dst rmin rmax i ≠ ⊤ := by
  unfold dis1R; rw [deg1_eq]
  exact dis_nonneg_fin ((isNat_maskOf rmin rmax _ i).mul (isNat_indeg dst i))

theorem val1_eq : val1K x W1 b1 g bt W2 b2 src dst rmin rmax = val1R x W1 b1 g bt W2 b2 src dst rmin rmax := by
  funext i k
  unfold val1K agg1K hs1 val1R agg1R nrm1
  rw [dis1_eq, h1_eq, maskK_eq]
  obtain ⟨h0, ht⟩ := dis1R_nonneg_fin x W1 b1 g bt src dst rmin rmax i
  rw [layer_eq (hits dst i) (fun e => mm (h1R x W1 b1 g bt src dst) W2 (gsel (src e)) k)
    (fun e => dis1R x W1 b1 g bt src dst rmin rmax (gsel (src e))) (dis1R x W1 b1 g bt src dst rmin rmax i)
    (maskOf rmin rmax (sR x W1 b1 g bt src dst) i) (mm (h1R x W1 b1 g bt src dst) W2 i k) (b2 k) h0 ht
    (isNat_maskOf rmin rmax _ i).nonneg (isNat_maskOf rmin rmax _ i).ne_top]
  refine congrArg (fun t => (t + mm (h1R x W1 b1 g bt src dst) W2 i k
    * (dis1R x W1 b1 g bt src dst rmin rmax i * dis1R x W1 b1 g bt src dst rmin rmax i)) + b2 k) ?_
  exact Finset.sum_congr rfl fun e he => by
    rw [gsel_of_hit (dst e) i (mem_hits he), maskE_of_hit x W1 b1 g bt src dst rmin rmax i e he]

/-- THE TWO ARRANGEMENTS ARE ONE FUNCTION. -/
theorem out_eq : outK x W1 b1 g bt W2 b2 src dst rmin rmax = outR x W1 b1 g bt W2 b2 src dst rmin rmax := by
  funext i; unfold outK outR; rw [val1_eq]

end

end Cert.Gcn

end
-- ==== Proof.KRun.lean ====
/-
  The kernel program's run with its result named.

  The program is eight segments: four stretches of host operations and four kernel launches. The contents of every
  buffer at each segment boundary are a fold from the launch memory: a stretch applies its operations in order, a
  launch replaces its windows' arrays by what its write-backs leave and keeps the rest. The run ends with every
  unscoped buffer at the last boundary's contents; the result buffer is one of them, and the eight argument arrays
  read back through the fold to their launch contents.
-/
import proofs.«122454_j84129819394303_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.KRegion0.lean ====
/-
  The first matrix-product kernel as one function of the arrays it reads.

  The kernel walks 25 blocks of 4000 rows. At block t it reads rows 4000 t … 4000 t + 3999 of the left matrix, the
  whole right matrix and the same rows of the weight column, and writes rows 4000 t … 4000 t + 3999 of the output:
  entry (p, q) of the block is (∑ j, x (p, j) * w (j, q)) * d (p, 0). Row r of the output is written by block
  r / 4000 alone, so the output array ends holding, at (i, k), the matrix product's entry (i, k) times the weight
  of row i.
-/
import proofs.«122454_j84129819394303_2_alg».proof.Proof.Gen.KernelIdeal.Frame
import proofs.«122454_j84129819394303_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## The body's arithmetic at an entry of the block -/

/-- The left operand's row, for any term of the product, is the entry's row. -/
theorem dot0_lhs_row (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column is the term. -/
theorem dot0_lhs_col (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row is the term. -/
theorem dot0_rhs_row (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column, for any term of the product, is the entry's column. -/
theorem dot0_rhs_col (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The left operand's index of the product's term j at entry (p, q) is (p, j). -/
theorem dot0_lhs (p : Fin 4000) (q : Fin 64) (j : Fin 128) :
    dot_S4000x128_S128x64_S4000x64_1_0_0_1_n_n.lhsIdx (ix2 p q) ((contrEquiv1 dot_S4000x128_S128x64_S4000x64_1_0_0_1_n_n 128 rfl rfl).symm j) = ix2 p j := by
  have hk := contrEquiv1_symm_val dot_S4000x128_S128x64_S4000x64_1_0_0_1_n_n 128 rfl rfl j
  refine funext fun a => Fin.ext ?_
  match a with
  | ⟨0, _⟩ => exact dot0_lhs_row _ _
  | ⟨1, _⟩ => exact (dot0_lhs_col _ _).trans hk

/-- The right operand's index of the product's term j at entry (p, q) is (j, q). -/
theorem dot0_rhs (p : Fin 4000) (q : Fin 64) (j : Fin 128) :
    dot_S4000x128_S128x64_S4000x64_1_0_0_1_n_n.rhsIdx (ix2 p q) ((contrEquiv1 dot_S4000x128_S128x64_S4000x64_1_0_0_1_n_n 128 rfl rfl).symm j) = ix2 j q := by
  have hk := contrEquiv1_symm_val dot_S4000x128_S128x64_S4000x64_1_0_0_1_n_n 128 rfl rfl j
  refine funext fun a => Fin.ext ?_
  match a with
  | ⟨0, _⟩ => exact (dot0_rhs_row _ _).trans hk
  | ⟨1, _⟩ => exact dot0_rhs_col _ _

/-- A column [4000, 1] spread along 64 lanes, read at (p, q), is the column at (p, 0). -/
theorem spread0_apply (x : FVec Ideal S4000x1 .f32) (p : Fin 4000) (q : Fin 64) :
    broadcastTo S4000x64 x broadcasts_S4000x1_S4000x64 (ix2 p q) = x (ix2 p 0) :=
  broadcastTo_apply x broadcasts_S4000x1_S4000x64 (ix2 p q) (ix2 p 0) (fun a => by
    match a with
    | ⟨0, _⟩ => rfl
    | ⟨1, _⟩ => rfl)

/-- Entry (p, q) of what the body stores: row p of the left block times column q of the right matrix, times the
    weight of row p. -/
theorem pay0_apply (x0 : Vec Ideal S4000x128 .f32) (x1 : Vec Ideal S128x64 .f32) (x2 : Vec Ideal S4000x1 .f32)
    (p : Fin 4000) (q : Fin 64) :
    k0_pay1 (F := Ideal) x0 x1 x2 (ix2 p q) = (∑ j : Fin 128, x0 (ix2 p j) * x1 (ix2 j q)) * x2 (ix2 p 0) := by
  unfold k0_pay1
  refine (mulf_apply _ _ _).trans ?_
  refine congrArg₂ (· * ·) ?_ ?_
  · refine (Ideal.matmul_constant_zero_apply dot_S4000x128_S128x64_S4000x64_1_0_0_1_n_n (some .fp32) x0 x1 (ix2 p q)).trans ?_
    rw [← Equiv.sum_comp (contrEquiv1 dot_S4000x128_S128x64_S4000x64_1_0_0_1_n_n 128 rfl rfl).symm]
    refine Finset.sum_congr rfl fun j _ => ?_
    rw [dot0_lhs, dot0_rhs]
  · refine (spread0_apply _ p q).trans ?_
    rw [shapeCast_self]

/-! ## One block as rows of one whole-array function -/

/-- The array the kernel leaves: at (i, k), entry (i, k) of the product of the two matrices, times the weight of
    row i. -/
def whole0 (a0 : S100000x128.Idx → EReal) (a1 : S128x64.Idx → EReal) (a2 : S100000x1.Idx → EReal) :
    S100000x64.Idx → EReal :=
  fun y => Cert.Gcn.mm (fun i j => a0 (ix2 i j)) (fun j k => a1 (ix2 j k)) (y 0) (y 1) * a2 (ix2 (y 0) 0)

theorem zeros2 : (![0, 0] : Fin 2 → Nat) = fun _ => 0 := funext fun a => by fin_cases a <;> rfl

/-- If the blocks the body reads are rows 4000 b … 4000 b + 3999 of the left matrix and of the weight column, and
    the whole right matrix, then entry y of what it stores is the whole-array function at row 4000 b + y 0, column
    y 1. -/
theorem point0 (x0 : Vec Ideal S4000x128 .f32) (x1 : Vec Ideal S128x64 .f32) (x2 : Vec Ideal S4000x1 .f32)
    (a0 : S100000x128.Idx → EReal) (a1 : S128x64.Idx → EReal) (a2 : S100000x1.Idx → EReal)
    (y : S4000x64.Idx) (i : S100000x64.Idx) (b : Nat)
    (h0 : ∀ (p : Fin 4000) (j : Fin 128) (r : Fin 100000), r.val = b * 4000 + p.val → x0 (ix2 p j) = a0 (ix2 r j))
    (h1 : ∀ (j : Fin 128) (k : Fin 64), x1 (ix2 j k) = a1 (ix2 j k))
    (h2 : ∀ (p : Fin 4000) (r : Fin 100000), r.val = b * 4000 + p.val → x2 (ix2 p 0) = a2 (ix2 r 0))
    (hi0 : (i 0).val = b * 4000 + (y 0).val) (hi1 : (i 1).val = (y 1).val) :
    k0_pay1 (F := Ideal) x0 x1 x2 y = whole0 a0 a1 a2 i := by
  obtain ⟨p, q, rfl⟩ : ∃ (p : Fin 4000) (q : Fin 64), y = ix2 p q := ⟨y 0, y 1, eq_ix2 y⟩
  obtain ⟨r, k, rfl⟩ : ∃ (r : Fin 100000) (k : Fin 64), i = ix2 r k := ⟨i 0, i 1, eq_ix2 i⟩
  have hk : k = q := Fin.ext hi1
  subst hk
  rw [pay0_apply]
  unfold whole0 Cert.Gcn.mm
  refine congrArg₂ (· * ·) (Finset.sum_congr rfl fun j _ => ?_) (h2 p r hi0)
  rw [h0 p j r hi0, h1]

/-- The index maps over the 25 grid points: the output's block index is (t, 0), the row blocks move with it, the
    right matrix stays at block (0, 0). -/
theorem index0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole-array function of the arrays the region finds. -/
theorem flushed0_eq (c : Dev nD) (t : Fin cfg0.N) :
    (dat0 (F := Ideal) V c).flushed 3 t
      = ((cfg0.win 3).blk t).view.read (Elt Ideal) (whole0 (V c main_arg0) (V c main_arg1) (V c main_v11)) := by
  show (cfg0.win 3).cut (grid0.coords t) ((dat0 V c).after 3 t) = _
  rw [after0_3]
  unfold out0_3
  rw [View.canon_unit_zero zeros2]
  simp only [View.ld_unit_zero (S := S4000x128) zeros2, View.ld_unit_zero (S := S128x64) zeros2, View.ld_unit_zero (S := S4000x1) zeros2]
  obtain ⟨e30, e31, e00, e01, e10, e11, e20, e21⟩ := index0 t
  funext y
  show k0_pay1 (F := Ideal) (iblk0 V c 0 t) (iblk0 V c 1 t) (iblk0 V c 2 t) y
    = whole0 (V c main_arg0) (V c main_arg1) (V c main_v11) (((cfg0.win 3).blk t).view.emb y)
  refine point0 (iblk0 V c 0 t) (iblk0 V c 1 t) (iblk0 V c 2 t) (V c main_arg0) (V c main_arg1) (V c main_v11) y
    (((cfg0.win 3).blk t).view.emb y) t.val ?_ ?_ ?_ ?_ ?_
  · intro p j r hr
    show V c main_arg0 (((cfg0.win 0).blk t).view.emb (ix2 p j)) = V c main_arg0 (ix2 r j)
    refine congrArg _ (funext fun a => Fin.ext ?_)
    match a with
    | ⟨0, _⟩ => show win0_0.index t (0 : Fin 2) * 4000 + 1 * p.val = r.val; rw [e00, hr]; omega
    | ⟨1, _⟩ => show win0_0.index t (1 : Fin 2) * 128 + 1 * j.val = j.val; rw [e01]; omega
  · intro j k
    show V c main_arg1 (((cfg0.win 1).blk t).view.emb (ix2 j k)) = V c main_arg1 (ix2 j k)
    refine congrArg _ (funext fun a => Fin.ext ?_)
    match a with
    | ⟨0, _⟩ => show win0_1.index t (0 : Fin 2) * 128 + 1 * j.val = j.val; rw [e10]; omega
    | ⟨1, _⟩ => show win0_1.index t (1 : Fin 2) * 64 + 1 * k.val = k.val; rw [e11]; omega
  · intro p r hr
    show V c main_v11 (((cfg0.win 2).blk t).view.emb (ix2 p 0)) = V c main_v11 (ix2 r 0)
    refine congrArg _ (funext fun a => Fin.ext ?_)
    match a with
    | ⟨0, _⟩ => show win0_2.index t (0 : Fin 2) * 4000 + 1 * p.val = r.val; rw [e20, hr]; omega
    | ⟨1, _⟩ => show win0_2.index t (1 : Fin 2) * 1 + 1 * 0 = 0; rw [e21]
  · show win0_3.index t (0 : Fin 2) * 4000 + 1 * (y 0).val = t.val * 4000 + (y 0).val; rw [e30]; omega
  · show win0_3.index t (1 : Fin 2) * 64 + 1 * (y 1).val = (y 1).val; rw [e31]; omega

/-! ## The blocks cover the array -/

/-- An index of the output array is in grid point t's block iff each coordinate is in the block's range. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v12).slice (win0_3.rect t)).set ↔ _
  rw [View.set_slice_whole, Rect.mem_set_unit]
  exact Iff.rfl

/-- Row r of the output is in the block of grid point r / 4000, which writes its block back. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 4000 < cfg0.N := by show (i 0).val / 4000 < 25; omega
  obtain ⟨e30, e31, -⟩ := index0 ⟨(i 0).val / 4000, ht⟩
  refine ⟨⟨(i 0).val / 4000, ht⟩, flush0_3 _, ?_⟩
  rw [mem_blk0]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 64 ≤ (i 1).val
      ∧ (i 1).val < win0_3.index ⟨(i 0).val / 4000, ht⟩ (1 : Fin 2) * 64 + 64
    rw [e31]; omega

/-! ## The array after the region -/

/-- The output array after the 25 grid points, as the whole-array function of the arrays the region finds. -/
theorem final0_whole (c : Dev nD) :
    (dat0 (F := Ideal) V c).arrAt 3 cfg0.N = whole0 (V c main_arg0) (V c main_arg1) (V c main_v11) :=
  (dat0 (F := Ideal) V c).arrAt_eq_of_cover 3 (whole0 (V c main_arg0) (V c main_arg1) (V c main_v11))
    (fun t _ => flushed0_eq V c t) cover0

/-- The same, written out: entry (i, k) is the matrix product's entry (i, k) times the weight of row i. -/
theorem final0 (c : Dev nD) :
    (dat0 (F := Ideal) V c).arrAt 3 cfg0.N = fun y : S100000x64.Idx =>
      Cert.Gcn.mm (fun i j => V c main_arg0 (ix2 i j)) (fun j k => V c main_arg1 (ix2 j k)) (y 0) (y 1)
        * V c main_v11 (ix2 (y 0) 0) :=
  final0_whole V c

end Cert.KernelIdeal.RegionValue

end
-- ==== Proof.KRegion1.lean ====
/-
  The first row-wise kernel (layer one's finalize, normalise, positive part and row norm), as whole-array functions.

  Every grid point works on 4000 consecutive rows. For a row it forms val = D * (A + H) + B over the 64 lanes,
  subtracts the lane mean, divides by the square root of the lane variance plus a small constant, scales and
  shifts lane by lane and keeps the positive part; the second output is the Euclidean norm of that row. Both are
  functions of the row alone, so the 25 blocks are the restrictions of one function of the whole arrays.
-/
import proofs.«122454_j84129819394303_2_alg».proof.Proof.Gen.KernelIdeal.Frame
import proofs.«122454_j84129819394303_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Layout operations read at an index -/

/-- A column `[a]` cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the lane axis inserts: row `p`, lane `k`. -/
private theorem lift_lane (h : S4000x64.Reduces [1] S4000) (p : Fin 4000) (k : Fin 64) :
    h.lift (ix1 p) k = ix2 p k :=
  funext fun c => Fin.ext (by match c with | ⟨0, _⟩ => rfl | ⟨1, _⟩ => rfl)

/-- A sum over the 64 lanes of a block, at row `p`. -/
private theorem laneSum_apply (src : FVec Ideal S4000x64 .f32) (h : S4000x64.Reduces [1] S4000) (hφ : FTy.f32 = FTy.f32 ∨ FTy.f32 = FTy.bf16)
    (hacc : (0x00000000#32 : BitVec 32) = 0x00000000#32) (p : Fin 4000) :
    multiReduction (F := Ideal) .add [1] S4000 src 0x00000000#32 h hφ hacc (ix1 p) = ∑ k : Fin 64, src (ix2 p k) := by
  refine (Ideal.multiReduction_add_single src 0x00000000#32 h hφ hacc (ix1 p)).trans ?_
  exact Finset.sum_congr rfl fun k _ => congrArg src (lift_lane h p k)

/-! ## Pointwise operations the index lemmas of the library do not list -/

private theorem rsqrt_apply {s : Shape} {φ : FTy} (a : FVec Ideal s φ) (i : s.Idx) : rsqrt a i = Ideal.rsqrt (a i) := rfl
private theorem sqrt_apply {s : Shape} {φ : FTy} (a : FVec Ideal s φ) (i : s.Idx) : sqrt a i = Ideal.sqrt (a i) := rfl
private theorem scalar_ofBits (w : BitVec 32) : (Scalar.ofBits (F := Ideal) .f32 w : Ideal .f32) = Ideal.ofBits .f32 w := rfl

/-! ## The body's first payload at a row and a lane -/

/-- The positive part of the normalised row: the payload of the first store, at row `p` and lane `q` of the
    block, from the blocks it loads. -/
theorem rowPay_apply (v0 : Vec Ideal S4000x1 .f32) (v2 v4 : Vec Ideal S4000x64 .f32) (v9 v31 v35 : Vec Ideal S1x64 .f32)
    (p : Fin 4000) (q : Fin 64) :
    k1_pay2 (F := Ideal) v0 v2 v4 v9 v31 v35 (ix2 p q)
      = Cert.Gcn.lnrelu (fun k => v0 (ix2 p (0 : Fin 1)) * (v2 (ix2 p k) + v4 (ix2 p k)) + v9 (ix2 (0 : Fin 1) k))
          (fun k => v31 (ix2 (0 : Fin 1) k)) (fun k => v35 (ix2 (0 : Fin 1) k)) q := by
  unfold k1_pay2 Cert.Gcn.lnrelu Cert.Gcn.c64 Cert.Gcn.ceps
  simp only [maximumf_apply, addf_apply, mulf_apply, subf_apply, divf_apply, broadcast_apply, rsqrt_apply,
    shapeCast_self, broadcastTo_a1_ab_apply, broadcastTo_1b_ab_apply, shapeCast_a_a1_apply, laneSum_apply,
    scalar_ofBits, Ideal.ofBits_zero_f32]
  rw [laneSum_apply, laneSum_apply]
  simp only [maximumf_apply, addf_apply, mulf_apply, subf_apply, divf_apply, broadcast_apply, rsqrt_apply,
    shapeCast_self, broadcastTo_a1_ab_apply, broadcastTo_1b_ab_apply, shapeCast_a_a1_apply]
  rw [laneSum_apply]
  simp only [addf_apply, mulf_apply, broadcastTo_a1_ab_apply, broadcastTo_1b_ab_apply]

/-- The Euclidean norm of a row: the payload of the second store, at row `p`, from the first payload. -/
theorem pay1_apply (v40 : FVec Ideal S4000x64 .f32) (p : Fin 4000) (u : Fin 1) :
    k1_pay1 (F := Ideal) v40 (ix2 p u) = Cert.Gcn.rownorm (fun k => v40 (ix2 p k)) := by
  unfold k1_pay1 Cert.Gcn.rownorm
  simp only [sqrt_apply, shapeCast_a_a1_apply]
  rw [laneSum_apply]
  simp only [mulf_apply]

/-! ## The arrays the region finds, and the two whole-array results -/

section Arrays

variable (V : (c : Dev nD) → (b : Ref sig .tc) → Buf (Elt Ideal) ((c : Thread nD τ).loc b)) (c : Dev nD)

/-- The six arrays the region reads, as functions of an index into extended reals: the edge sum, the scaled rows,
    the node weight (one column), the bias, the scale and the shift (one row each). -/
abbrev arrA : S100000x64.Idx → EReal := V c main_v22
abbrev arrH : S100000x64.Idx → EReal := V c main_v12
abbrev arrD : S100000x1.Idx → EReal := V c main_v26
abbrev arrB : S1x64.Idx → EReal := V c main_v23
abbrev arrG : S1x64.Idx → EReal := V c main_v24
abbrev arrBt : S1x64.Idx → EReal := V c main_v25

/-- Row `i` before normalisation: the node weight times the edge sum plus the scaled row, plus the bias. -/
def val1 (i : Fin 100000) (k : Fin 64) : EReal :=
  arrD V c (ix2 i (0 : Fin 1)) * (arrA V c (ix2 i k) + arrH V c (ix2 i k)) + arrB V c (ix2 (0 : Fin 1) k)

/-- The scale and the shift of the normalisation, lane by lane. -/
def gam1 (k : Fin 64) : EReal := arrG V c (ix2 (0 : Fin 1) k)
def bet1 (k : Fin 64) : EReal := arrBt V c (ix2 (0 : Fin 1) k)

/-- The first output: every row normalised, scaled, shifted, its positive part. -/
def G1_6 : S100000x64.Idx → EReal := fun y =>
  Cert.Gcn.lnrelu (val1 V c (y 0)) (gam1 V c) (bet1 V c) (y 1)

/-- The second output: every row's Euclidean norm. -/
def G1_7 : S100000x1.Idx → EReal := fun y =>
  Cert.Gcn.rownorm (Cert.Gcn.lnrelu (val1 V c (y 0)) (gam1 V c) (bet1 V c))

private theorem hz : (![0, 0] : Fin 2 → Nat) = fun _ => 0 := funext fun a => by fin_cases a <;> rfl

/-- The printed index maps, decided over the 25 grid points: on the row axis every blocked window is at the
    point's own number, every whole window at zero; on the lane axis every window is at zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The row of the arrays that point `t`'s block holds at its row `p`. -/
def rowOf1 (t : Fin cfg1.N) (p : Fin 4000) : Fin 100000 :=
  ⟨t.val * 4000 + p.val, by have := t.isLt; have hN : cfg1.N = 25 := N_1; have := p.isLt; omega⟩

/-! ### Each window's block at a point, read off its array: index × size + coordinate inside the block -/

theorem emb1_6 (t : Fin cfg1.N) (p : Fin 4000) (q : Fin 64) :
    ((cfg1.win 6).blk t).view.emb (ix2 p q) = (ix2 (rowOf1 t p) q : S100000x64.Idx) := by
  obtain ⟨e00, e01, e10, e11, e20, e21, e30, e31, e40, e41, e50, e51, e60, e61, e70, e71⟩ := idx_facts1 t
  funext a; apply Fin.ext
  match a with
  | ⟨0, _⟩ => show win1_6.index t (0 : Fin 2) * 4000 + 1 * p.val = t.val * 4000 + p.val; omega
  | ⟨1, _⟩ => show win1_6.index t (1 : Fin 2) * 64 + 1 * q.val = q.val; omega

theorem emb1_7 (t : Fin cfg1.N) (p : Fin 4000) (u : Fin 1) :
    ((cfg1.win 7).blk t).view.emb (ix2 p u) = (ix2 (rowOf1 t p) u : S100000x1.Idx) := by
  obtain ⟨e00, e01, e10, e11, e20, e21, e30, e31, e40, e41, e50, e51, e60, e61, e70, e71⟩ := idx_facts1 t
  funext a; apply Fin.ext
  match a with
  | ⟨0, _⟩ => show win1_7.index t (0 : Fin 2) * 4000 + 1 * p.val = t.val * 4000 + p.val; omega
  | ⟨1, _⟩ => show win1_7.index t (1 : Fin 2) * 1 + 1 * u.val = u.val; omega

theorem blk1_0 (t : Fin cfg1.N) (p : Fin 4000) (k : Fin 64) :
    iblk1 V c 0 t (ix2 p k) = arrA V c (ix2 (rowOf1 t p) k) := by
  obtain ⟨e00, e01, e10, e11, e20, e21, e30, e31, e40, e41, e50, e51, e60, e61, e70, e71⟩ := idx_facts1 t
  show arrA V c (((cfg1.win 0).blk t).view.emb (ix2 p k)) = _
  refine congrArg (arrA V c) (funext fun a => Fin.ext ?_)
  match a with
  | ⟨0, _⟩ => show win1_0.index t (0 : Fin 2) * 4000 + 1 * p.val = t.val * 4000 + p.val; omega
  | ⟨1, _⟩ => show win1_0.index t (1 : Fin 2) * 64 + 1 * k.val = k.val; omega

theorem blk1_1 (t : Fin cfg1.N) (p : Fin 4000) (k : Fin 64) :
    iblk1 V c 1 t (ix2 p k) = arrH V c (ix2 (rowOf1 t p) k) := by
  obtain ⟨e00, e01, e10, e11, e20, e21, e30, e31, e40, e41, e50, e51, e60, e61, e70, e71⟩ := idx_facts1 t
  show arrH V c (((cfg1.win 1).blk t).view.emb (ix2 p k)) = _
  refine congrArg (arrH V c) (funext fun a => Fin.ext ?_)
  match a with
  | ⟨0, _⟩ => show win1_1.index t (0 : Fin 2) * 4000 + 1 * p.val = t.val * 4000 + p.val; omega
  | ⟨1, _⟩ => show win1_1.index t (1 : Fin 2) * 64 + 1 * k.val = k.val; omega

theorem blk1_2 (t : Fin cfg1.N) (p : Fin 4000) (u : Fin 1) :
    iblk1 V c 2 t (ix2 p u) = arrD V c (ix2 (rowOf1 t p) (0 : Fin 1)) := by
  obtain ⟨e00, e01, e10, e11, e20, e21, e30, e31, e40, e41, e50, e51, e60, e61, e70, e71⟩ := idx_facts1 t
  show arrD V c (((cfg1.win 2).blk t).view.emb (ix2 p u)) = _
  refine congrArg (arrD V c) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * u.val = 0; omega

theorem blk1_3 (t : Fin cfg1.N) (u : Fin 1) (k : Fin 64) :
    iblk1 V c 3 t (ix2 u k) = arrB V c (ix2 (0 : Fin 1) k) := by
  obtain ⟨e00, e01, e10, e11, e20, e21, e30, e31, e40, e41, e50, e51, e60, e61, e70, e71⟩ := idx_facts1 t
  show arrB V c (((cfg1.win 3).blk t).view.emb (ix2 u k)) = _
  refine congrArg (arrB V c) (funext fun a => Fin.ext ?_)
  match a with
  | ⟨0, _⟩ => show win1_3.index t (0 : Fin 2) * 1 + 1 * u.val = 0; omega
  | ⟨1, _⟩ => show win1_3.index t (1 : Fin 2) * 64 + 1 * k.val = k.val; omega

theorem blk1_4 (t : Fin cfg1.N) (u : Fin 1) (k : Fin 64) :
    iblk1 V c 4 t (ix2 u k) = arrG V c (ix2 (0 : Fin 1) k) := by
  obtain ⟨e00, e01, e10, e11, e20, e21, e30, e31, e40, e41, e50, e51, e60, e61, e70, e71⟩ := idx_facts1 t
  show arrG V c (((cfg1.win 4).blk t).view.emb (ix2 u k)) = _
  refine congrArg (arrG V c) (funext fun a => Fin.ext ?_)
  match a with
  | ⟨0, _⟩ => show win1_4.index t (0 : Fin 2) * 1 + 1 * u.val = 0; omega
  | ⟨1, _⟩ => show win1_4.index t (1 : Fin 2) * 64 + 1 * k.val = k.val; omega

theorem blk1_5 (t : Fin cfg1.N) (u : Fin 1) (k : Fin 64) :
    iblk1 V c 5 t (ix2 u k) = arrBt V c (ix2 (0 : Fin 1) k) := by
  obtain ⟨e00, e01, e10, e11, e20, e21, e30, e31, e40, e41, e50, e51, e60, e61, e70, e71⟩ := idx_facts1 t
  show arrBt V c (((cfg1.win 5).blk t).view.emb (ix2 u k)) = _
  refine congrArg (arrBt V c) (funext fun a => Fin.ext ?_)
  match a with
  | ⟨0, _⟩ => show win1_5.index t (0 : Fin 2) * 1 + 1 * u.val = 0; omega
  | ⟨1, _⟩ => show win1_5.index t (1 : Fin 2) * 64 + 1 * k.val = k.val; omega

/-- The first payload over any blocks whose row `p` holds row `i` of the arrays (and whose one-row blocks hold
    the one-row arrays): the normalised row `i`. -/
theorem pay2_of_rows (x0 x1 : Vec Ideal S4000x64 .f32) (x2 : Vec Ideal S4000x1 .f32) (x3 x4 x5 : Vec Ideal S1x64 .f32)
    (p : Fin 4000) (q : Fin 64) (i : Fin 100000)
    (h0 : ∀ k : Fin 64, x0 (ix2 p k) = arrA V c (ix2 i k)) (h1 : ∀ k : Fin 64, x1 (ix2 p k) = arrH V c (ix2 i k))
    (h2 : x2 (ix2 p (0 : Fin 1)) = arrD V c (ix2 i (0 : Fin 1)))
    (h3 : ∀ k : Fin 64, x3 (ix2 (0 : Fin 1) k) = arrB V c (ix2 (0 : Fin 1) k))
    (h4 : ∀ k : Fin 64, x4 (ix2 (0 : Fin 1) k) = arrG V c (ix2 (0 : Fin 1) k))
    (h5 : ∀ k : Fin 64, x5 (ix2 (0 : Fin 1) k) = arrBt V c (ix2 (0 : Fin 1) k)) :
    k1_pay2 (F := Ideal) x2 x0 x1 x3 x4 x5 (ix2 p q) = Cert.Gcn.lnrelu (val1 V c i) (gam1 V c) (bet1 V c) q := by
  rw [rowPay_apply]
  simp only [h0, h1, h2, h3, h4, h5]
  rfl

/-- The first payload over a point's blocks, at row `p` of the block: the normalised row `rowOf1 t p` of the arrays. -/
theorem pay2_blocks (t : Fin cfg1.N) (p : Fin 4000) (q : Fin 64) :
    k1_pay2 (F := Ideal) (iblk1 V c 2 t) (iblk1 V c 0 t) (iblk1 V c 1 t) (iblk1 V c 3 t) (iblk1 V c 4 t) (iblk1 V c 5 t) (ix2 p q)
      = Cert.Gcn.lnrelu (val1 V c (rowOf1 t p)) (gam1 V c) (bet1 V c) q :=
  pay2_of_rows V c _ _ _ _ _ _ p q (rowOf1 t p) (blk1_0 V c t p) (blk1_1 V c t p) (blk1_2 V c t p 0)
    (blk1_3 V c t 0) (blk1_4 V c t 0) (blk1_5 V c t 0)

/-- What point `t` writes back to the first output is block `t` of `G1_6`. -/
theorem flushed1_6_eq (t : Fin cfg1.N) :
    (dat1 (F := Ideal) V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz, View.ld_unit_zero (S := S1x64) hz]
  funext j
  obtain ⟨p, q, rfl⟩ : ∃ (p : Fin 4000) (q : Fin 64), j = ix2 p q := ⟨j 0, j 1, eq_ix2 j⟩
  show k1_pay2 (F := Ideal) (iblk1 V c 2 t) (iblk1 V c 0 t) (iblk1 V c 1 t) (iblk1 V c 3 t) (iblk1 V c 4 t) (iblk1 V c 5 t) (ix2 p q)
    = G1_6 V c (((cfg1.win 6).blk t).view.emb (ix2 p q))
  rw [emb1_6, pay2_blocks]
  rfl

/-- An index of the first output is in point `t`'s block iff each coordinate is in the block's range on its axis. -/
theorem mem_blk1_6 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v27_0).slice (win1_6.rect t)).set ↔ _
  rw [View.set_slice_whole, Rect.mem_set_unit]
  exact Iff.rfl

/-- Row `r` of the first output is in the block of point `r / 4000`. -/
theorem covered1_6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  have ht : (i 0).val / 4000 < cfg1.N := by omega
  obtain ⟨e00, e01, e10, e11, e20, e21, e30, e31, e40, e41, e50, e51, e60, e61, e70, e71⟩ := idx_facts1 ⟨(i 0).val / 4000, ht⟩
  have e60' : win1_6.index ⟨(i 0).val / 4000, ht⟩ (0 : Fin 2) = (i 0).val / 4000 := e60
  refine ⟨⟨(i 0).val / 4000, ht⟩, flush1_6 _, ?_⟩
  rw [mem_blk1_6]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    omega
  | ⟨1, _⟩ =>
    show win1_6.index ⟨(i 0).val / 4000, ht⟩ (1 : Fin 2) * 64 ≤ (i 1).val ∧ (i 1).val < win1_6.index ⟨(i 0).val / 4000, ht⟩ (1 : Fin 2) * 64 + 64
    omega

/-- The first output after the region: every row of the arrays it finds, normalised, scaled, shifted, its positive part. -/
theorem final1_6 : (dat1 (F := Ideal) V c).arrAt 6 cfg1.N = G1_6 V c :=
  (dat1 (F := Ideal) V c).arrAt_eq_of_cover 6 (G1_6 V c) (fun t _ => flushed1_6_eq V c t) (covered1_6)

/-- What point `t` writes back to the second output is block `t` of `G1_7`. -/
theorem flushed1_7_eq (t : Fin cfg1.N) :
    (dat1 (F := Ideal) V c).flushed 7 t = ((cfg1.win 7).blk t).view.read (Elt Ideal) (G1_7 V c) := by
  show (cfg1.win 7).cut (grid1.coords t) ((dat1 V c).after 7 t) = _
  rw [after1_7]
  unfold out1_7
  rw [View.canon_unit_zero hz]
  simp only [View.ld_unit_zero (S := S4000x64) hz, View.ld_unit_zero (S := S4000x1) hz, View.ld_unit_zero (S := S1x64) hz]
  funext j
  obtain ⟨p, u, rfl⟩ : ∃ (p : Fin 4000) (u : Fin 1), j = ix2 p u := ⟨j 0, j 1, eq_ix2 j⟩
  show k1_pay1 (F := Ideal) (k1_pay2 (F := Ideal) (iblk1 V c 2 t) (iblk1 V c 0 t) (iblk1 V c 1 t) (iblk1 V c 3 t) (iblk1 V c 4 t) (iblk1 V c 5 t)) (ix2 p u)
    = G1_7 V c (((cfg1.win 7).blk t).view.emb (ix2 p u))
  rw [emb1_7]
  refine (pay1_apply _ p u).trans ?_
  exact congrArg Cert.Gcn.rownorm (funext fun k => pay2_blocks V c t p k)

/-- An index of the second output is in point `t`'s block iff each coordinate is in the block's range on its axis. -/
theorem mem_blk1_7 (t : Fin cfg1.N) (i : S100000x1.Idx) :
    i ∈ ((cfg1.win 7).blk t).view.set ↔ ∀ a : Fin 2, win1_7.index t a * S4000x1.size a ≤ (i a).val ∧ (i a).val < win1_7.index t a * S4000x1.size a + S4000x1.size a := by
  show i ∈ ((View.whole main_v27_1).slice (win1_7.rect t)).set ↔ _
  rw [View.set_slice_whole, Rect.mem_set_unit]
  exact Iff.rfl

/-- Row `r` of the second output is in the block of point `r / 4000`. -/
theorem covered1_7 (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 25 := N_1
  have ht : (i 0).val / 4000 < cfg1.N := by omega
  obtain ⟨e00, e01, e10, e11, e20, e21, e30, e31, e40, e41, e50, e51, e60, e61, e70, e71⟩ := idx_facts1 ⟨(i 0).val / 4000, ht⟩
  have e70' : win1_7.index ⟨(i 0).val / 4000, ht⟩ (0 : Fin 2) = (i 0).val / 4000 := e70
  refine ⟨⟨(i 0).val / 4000, ht⟩, flush1_7 _, ?_⟩
  rw [mem_blk1_7]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    omega
  | ⟨1, _⟩ =>
    show win1_7.index ⟨(i 0).val / 4000, ht⟩ (1 : Fin 2) * 1 ≤ (i 1).val ∧ (i 1).val < win1_7.index ⟨(i 0).val / 4000, ht⟩ (1 : Fin 2) * 1 + 1
    omega

/-- The second output after the region: the Euclidean norm of every row of the first. -/
theorem final1_7 : (dat1 (F := Ideal) V c).arrAt 7 cfg1.N = G1_7 V c :=
  (dat1 (F := Ideal) V c).arrAt_eq_of_cover 7 (G1_7 V c) (fun t _ => flushed1_7_eq V c t) (covered1_7)

end Arrays

end Cert.KernelIdeal.RegionValue

end
-- ==== Proof.KRegion2.lean ====
/-
  The second matrix-product kernel as one function of the arrays it reads.

  The kernel walks 25 blocks of 4000 rows. At block t it reads rows 4000 t … 4000 t + 3999 of the hidden-layer
  matrix, the whole 64 by 64 weight matrix and the same rows of the node-weight column, narrows both operands to
  the 16-bit format, multiplies, scales row p by its weight and narrows the result. Over the extended reals a
  narrowing is the identity, so entry (p, q) of the block is (∑ j, h (p, j) * w (j, q)) * d (p, 0). Row r of the
  output is written by block r / 4000 alone, so the output array ends holding, at (i, k), the matrix product's
  entry (i, k) times the weight of row i.
-/
import proofs.«122454_j84129819394303_2_alg».proof.Proof.Gen.KernelIdeal.Frame
import proofs.«122454_j84129819394303_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## The body's arithmetic at an entry of the block -/

/-- The left operand's row, for any term of the product, is the entry's row. -/
theorem dot2_lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- The left operand's column is the term. -/
theorem dot2_lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- The right operand's row is the term. -/
theorem dot2_rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- The right operand's column, for any term of the product, is the entry's column. -/
theorem dot2_rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The left operand's index of the product's term j at entry (p, q) is (p, j). -/
theorem dot2_lhs (p : Fin 4000) (q : Fin 64) (j : Fin 64) :
    dot_S4000x64_S64x64_S4000x64_1_0_0_1_n_n.lhsIdx (ix2 p q) ((contrEquiv1 dot_S4000x64_S64x64_S4000x64_1_0_0_1_n_n 64 rfl rfl).symm j) = ix2 p j := by
  have hk := contrEquiv1_symm_val dot_S4000x64_S64x64_S4000x64_1_0_0_1_n_n 64 rfl rfl j
  refine funext fun a => Fin.ext ?_
  match a with
  | ⟨0, _⟩ => exact dot2_lhs_row _ _
  | ⟨1, _⟩ => exact (dot2_lhs_col _ _).trans hk

/-- The right operand's index of the product's term j at entry (p, q) is (j, q). -/
theorem dot2_rhs (p : Fin 4000) (q : Fin 64) (j : Fin 64) :
    dot_S4000x64_S64x64_S4000x64_1_0_0_1_n_n.rhsIdx (ix2 p q) ((contrEquiv1 dot_S4000x64_S64x64_S4000x64_1_0_0_1_n_n 64 rfl rfl).symm j) = ix2 j q := by
  have hk := contrEquiv1_symm_val dot_S4000x64_S64x64_S4000x64_1_0_0_1_n_n 64 rfl rfl j
  refine funext fun a => Fin.ext ?_
  match a with
  | ⟨0, _⟩ => exact (dot2_rhs_row _ _).trans hk
  | ⟨1, _⟩ => exact dot2_rhs_col _ _

/-- A column [4000, 1] spread along 64 lanes, read at (p, q), is the column at (p, 0). -/
theorem spread2_apply (x : FVec Ideal S4000x1 .f32) (p : Fin 4000) (q : Fin 64) :
    broadcastTo S4000x64 x broadcasts_S4000x1_S4000x64 (ix2 p q) = x (ix2 p 0) :=
  broadcastTo_apply x broadcasts_S4000x1_S4000x64 (ix2 p q) (ix2 p 0) (fun a => by
    match a with
    | ⟨0, _⟩ => rfl
    | ⟨1, _⟩ => rfl)

/-- Entry (p, q) of what the body stores: row p of the left block times column q of the weight matrix, times the
    weight of row p; the three narrowings to 16 bits are the identity over the extended reals. -/
theorem pay2_apply (x0 : Vec Ideal S4000x64 .f32) (x1 : Vec Ideal S64x64 .f32) (x2 : Vec Ideal S4000x1 .f32)
    (p : Fin 4000) (q : Fin 64) :
    k2_pay1 (F := Ideal) x0 x1 x2 (ix2 p q) = (∑ j : Fin 64, x0 (ix2 p j) * x1 (ix2 j q)) * x2 (ix2 p 0) := by
  unfold k2_pay1
  refine Eq.trans (truncf_apply (φ := .f32) (ψ := .bf16) _ bitsLt_bf16_f32 (ix2 p q)) ?_
  refine (mulf_apply _ _ _).trans ?_
  refine congrArg₂ (· * ·) ?_ ?_
  · refine (Ideal.matmul_constant_zero_apply dot_S4000x64_S64x64_S4000x64_1_0_0_1_n_n none _ _ (ix2 p q)).trans ?_
    rw [← Equiv.sum_comp (contrEquiv1 dot_S4000x64_S64x64_S4000x64_1_0_0_1_n_n 64 rfl rfl).symm]
    refine Finset.sum_congr rfl fun j _ => ?_
    rw [dot2_lhs, dot2_rhs, truncf_apply, truncf_apply, shapeCast_self]
  · refine (spread2_apply _ p q).trans ?_
    rw [shapeCast_self]

/-! ## One block as rows of one whole-array function -/

/-- The array the kernel leaves: at (i, k), entry (i, k) of the product of the hidden-layer matrix and the weight matrix, times the weight of
    row i. -/
def whole2 (a0 : S100000x64.Idx → EReal) (a1 : S64x64.Idx → EReal) (a2 : S100000x1.Idx → EReal) :
    S100000x64.Idx → EReal :=
  fun y => Cert.Gcn.mm (fun i j => a0 (ix2 i j)) (fun j k => a1 (ix2 j k)) (y 0) (y 1) * a2 (ix2 (y 0) 0)

theorem zeroOffsets2 : (![0, 0] : Fin 2 → Nat) = fun _ => 0 := funext fun a => by fin_cases a <;> rfl

/-- If the blocks the body reads are rows 4000 b … 4000 b + 3999 of the left matrix and of the weight column, and
    the whole right matrix, then entry y of what it stores is the whole-array function at row 4000 b + y 0, column
    y 1. -/
theorem point2 (x0 : Vec Ideal S4000x64 .f32) (x1 : Vec Ideal S64x64 .f32) (x2 : Vec Ideal S4000x1 .f32)
    (a0 : S100000x64.Idx → EReal) (a1 : S64x64.Idx → EReal) (a2 : S100000x1.Idx → EReal)
    (y : S4000x64.Idx) (i : S100000x64.Idx) (b : Nat)
    (h0 : ∀ (p : Fin 4000) (j : Fin 64) (r : Fin 100000), r.val = b * 4000 + p.val → x0 (ix2 p j) = a0 (ix2 r j))
    (h1 : ∀ (j : Fin 64) (k : Fin 64), x1 (ix2 j k) = a1 (ix2 j k))
    (h2 : ∀ (p : Fin 4000) (r : Fin 100000), r.val = b * 4000 + p.val → x2 (ix2 p 0) = a2 (ix2 r 0))
    (hi0 : (i 0).val = b * 4000 + (y 0).val) (hi1 : (i 1).val = (y 1).val) :
    k2_pay1 (F := Ideal) x0 x1 x2 y = whole2 a0 a1 a2 i := by
  obtain ⟨p, q, rfl⟩ : ∃ (p : Fin 4000) (q : Fin 64), y = ix2 p q := ⟨y 0, y 1, eq_ix2 y⟩
  obtain ⟨r, k, rfl⟩ : ∃ (r : Fin 100000) (k : Fin 64), i = ix2 r k := ⟨i 0, i 1, eq_ix2 i⟩
  have hk : k = q := Fin.ext hi1
  subst hk
  rw [pay2_apply]
  unfold whole2 Cert.Gcn.mm
  refine congrArg₂ (· * ·) (Finset.sum_congr rfl fun j _ => ?_) (h2 p r hi0)
  rw [h0 p j r hi0, h1]

/-- The index maps over the 25 grid points: the output's block index is (t, 0), the row blocks move with it, the
    right matrix stays at block (0, 0). -/
theorem index2 : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole-array function of the arrays the region finds. -/
theorem flushed2_eq (c : Dev nD) (t : Fin cfg2.N) :
    (dat2 (F := Ideal) V c).flushed 3 t
      = ((cfg2.win 3).blk t).view.read (Elt Ideal) (whole2 (V c main_v27_0) (V c main_arg3) (V c main_v44)) := by
  show (cfg2.win 3).cut (grid2.coords t) ((dat2 V c).after 3 t) = _
  rw [after2_3]
  unfold out2_3
  rw [View.canon_unit_zero zeroOffsets2]
  simp only [View.ld_unit_zero (S := S4000x64) zeroOffsets2, View.ld_unit_zero (S := S64x64) zeroOffsets2, View.ld_unit_zero (S := S4000x1) zeroOffsets2]
  obtain ⟨e30, e31, e00, e01, e10, e11, e20, e21⟩ := index2 t
  funext y
  show k2_pay1 (F := Ideal) (iblk2 V c 0 t) (iblk2 V c 1 t) (iblk2 V c 2 t) y
    = whole2 (V c main_v27_0) (V c main_arg3) (V c main_v44) (((cfg2.win 3).blk t).view.emb y)
  refine point2 (iblk2 V c 0 t) (iblk2 V c 1 t) (iblk2 V c 2 t) (V c main_v27_0) (V c main_arg3) (V c main_v44) y
    (((cfg2.win 3).blk t).view.emb y) t.val ?_ ?_ ?_ ?_ ?_
  · intro p j r hr
    show V c main_v27_0 (((cfg2.win 0).blk t).view.emb (ix2 p j)) = V c main_v27_0 (ix2 r j)
    refine congrArg _ (funext fun a => Fin.ext ?_)
    match a with
    | ⟨0, _⟩ => show win2_0.index t (0 : Fin 2) * 4000 + 1 * p.val = r.val; rw [e00, hr]; omega
    | ⟨1, _⟩ => show win2_0.index t (1 : Fin 2) * 64 + 1 * j.val = j.val; rw [e01]; omega
  · intro j k
    show V c main_arg3 (((cfg2.win 1).blk t).view.emb (ix2 j k)) = V c main_arg3 (ix2 j k)
    refine congrArg _ (funext fun a => Fin.ext ?_)
    match a with
    | ⟨0, _⟩ => show win2_1.index t (0 : Fin 2) * 64 + 1 * j.val = j.val; rw [e10]; omega
    | ⟨1, _⟩ => show win2_1.index t (1 : Fin 2) * 64 + 1 * k.val = k.val; rw [e11]; omega
  · intro p r hr
    show V c main_v44 (((cfg2.win 2).blk t).view.emb (ix2 p 0)) = V c main_v44 (ix2 r 0)
    refine congrArg _ (funext fun a => Fin.ext ?_)
    match a with
    | ⟨0, _⟩ => show win2_2.index t (0 : Fin 2) * 4000 + 1 * p.val = r.val; rw [e20, hr]; omega
    | ⟨1, _⟩ => show win2_2.index t (1 : Fin 2) * 1 + 1 * 0 = 0; rw [e21]
  · show win2_3.index t (0 : Fin 2) * 4000 + 1 * (y 0).val = t.val * 4000 + (y 0).val; rw [e30]; omega
  · show win2_3.index t (1 : Fin 2) * 64 + 1 * (y 1).val = (y 1).val; rw [e31]; omega

/-! ## The blocks cover the array -/

/-- An index of the output array is in grid point t's block iff each coordinate is in the block's range. -/
theorem mem_blk2 (t : Fin cfg2.N) (i : S100000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v45).slice (win2_3.rect t)).set ↔ _
  rw [View.set_slice_whole, Rect.mem_set_unit]
  exact Iff.rfl

/-- Row r of the output is in the block of grid point r / 4000, which writes its block back. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 4000 < cfg2.N := by show (i 0).val / 4000 < 25; omega
  obtain ⟨e30, e31, -⟩ := index2 ⟨(i 0).val / 4000, ht⟩
  refine ⟨⟨(i 0).val / 4000, ht⟩, flush2_3 _, ?_⟩
  rw [mem_blk2]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win2_3.index ⟨(i 0).val / 4000, ht⟩ (1 : Fin 2) * 64 ≤ (i 1).val
      ∧ (i 1).val < win2_3.index ⟨(i 0).val / 4000, ht⟩ (1 : Fin 2) * 64 + 64
    rw [e31]; omega

/-! ## The array after the region -/

/-- The output array after the 25 grid points, as the whole-array function of the arrays the region finds. -/
theorem final2_whole (c : Dev nD) :
    (dat2 (F := Ideal) V c).arrAt 3 cfg2.N = whole2 (V c main_v27_0) (V c main_arg3) (V c main_v44) :=
  (dat2 (F := Ideal) V c).arrAt_eq_of_cover 3 (whole2 (V c main_v27_0) (V c main_arg3) (V c main_v44))
    (fun t _ => flushed2_eq V c t) cover2

/-- The same, written out: entry (i, k) is the matrix product's entry (i, k) times the weight of row i. -/
theorem final2 (c : Dev nD) :
    (dat2 (F := Ideal) V c).arrAt 3 cfg2.N = fun y : S100000x64.Idx =>
      Cert.Gcn.mm (fun i j => V c main_v27_0 (ix2 i j)) (fun j k => V c main_arg3 (ix2 j k)) (y 0) (y 1)
        * V c main_v44 (ix2 (y 0) 0) :=
  final2_whole V c

end Cert.KernelIdeal.RegionValue

end
-- ==== Proof.KRegion3.lean ====
/-
  The second row-wise kernel (layer two's finalize and the row-wise log-softmax), as one whole-array function.

  Every grid point works on 4000 consecutive rows. For a row it forms val = (D * M) * A + Hs * D + B over the 64
  lanes (D the node weight, M the node mask, A the edge sum, Hs the scaled rows, B the bias), subtracts the row's
  maximum, and subtracts the logarithm of the lane sum of the exponentials of that. It is a function of the row
  alone, so the 25 blocks are the restrictions of one function of the whole arrays.
-/
import proofs.«122454_j84129819394303_2_alg».proof.Proof.Gen.KernelIdeal.Frame
import proofs.«122454_j84129819394303_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Layout operations and lane reductions read at an index -/

/-- A column `[a]` cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the lane axis inserts: row `p`, lane `k`. -/
private theorem lift_lane (h : S4000x64.Reduces [1] S4000) (p : Fin 4000) (k : Fin 64) :
    h.lift (ix1 p) k = ix2 p k :=
  funext fun c => Fin.ext (by match c with | ⟨0, _⟩ => rfl | ⟨1, _⟩ => rfl)

/-- A sum over the 64 lanes of a block, at row `p`. -/
private theorem laneSum_apply (src : FVec Ideal S4000x64 .f32) (h : S4000x64.Reduces [1] S4000) (hφ : FTy.f32 = FTy.f32 ∨ FTy.f32 = FTy.bf16)
    (hacc : (0x00000000#32 : BitVec 32) = 0x00000000#32) (p : Fin 4000) :
    multiReduction (F := Ideal) .add [1] S4000 src 0x00000000#32 h hφ hacc (ix1 p) = ∑ k : Fin 64, src (ix2 p k) := by
  refine (Ideal.multiReduction_add_single src 0x00000000#32 h hφ hacc (ix1 p)).trans ?_
  exact Finset.sum_congr rfl fun k _ => congrArg src (lift_lane h p k)

/-- A maximum over the 64 lanes of a block, at row `p`: the fold of `max` from minus infinity's word. -/
private theorem laneMax_apply (src : FVec Ideal S4000x64 .f32) (h : S4000x64.Reduces [1] S4000) (hφ : FTy.f32 = FTy.f32 ∨ FTy.f32 = FTy.bf16)
    (hacc : (0xFF800000#32 : BitVec 32) = 0xFF800000#32) (p : Fin 4000) :
    multiReduction (F := Ideal) .maximumf [1] S4000 src 0xFF800000#32 h hφ hacc (ix1 p)
      = (Finset.univ : Finset (Fin 64)).fold max Cert.Gcn.cninf (fun k => src (ix2 p k)) := by
  refine (Ideal.multiReduction_maximumf_single src 0xFF800000#32 h hφ hacc (ix1 p)).trans ?_
  have e : (src ∘ h.lift (ix1 p)) = fun k => src (ix2 p k) := funext fun k => congrArg src (lift_lane h p k)
  rw [e]
  rfl

private theorem exp_apply {s : Shape} {φ : FTy} (a : FVec Ideal s φ) (i : s.Idx) : exp a i = Ideal.exp (a i) := rfl
private theorem log_apply {s : Shape} {φ : FTy} (a : FVec Ideal s φ) (i : s.Idx) : log a i = Ideal.log (a i) := rfl

/-! ## The body's payload at a row and a lane -/

/-- The log-softmax of the row: the payload of the one store, at row `p` and lane `q` of the block, from the
    blocks it loads (the 16-bit block widened, which keeps every value). -/
theorem pay3_apply (v0 v2 : Vec Ideal S4000x1 .f32) (v4 : Vec Ideal S4000x64 .bf16) (v8 : Vec Ideal S4000x64 .f32) (v15 : Vec Ideal S1x64 .f32)
    (p : Fin 4000) (q : Fin 64) :
    k3_pay1 (F := Ideal) v0 v2 v4 v8 v15 (ix2 p q)
      = Cert.Gcn.lsm (fun k => (v0 (ix2 p (0 : Fin 1)) * v2 (ix2 p (0 : Fin 1))) * v8 (ix2 p k) + v4 (ix2 p k) * v0 (ix2 p (0 : Fin 1)) + v15 (ix2 (0 : Fin 1) k)) q := by
  unfold k3_pay1 Cert.Gcn.lsm
  simp only [addf_apply, mulf_apply, subf_apply, extf_apply, exp_apply, log_apply,
    shapeCast_self, broadcastTo_a1_ab_apply, broadcastTo_1b_ab_apply, shapeCast_a_a1_apply]
  rw [laneMax_apply, laneSum_apply]
  simp only [addf_apply, mulf_apply, subf_apply, extf_apply, exp_apply,
    broadcastTo_a1_ab_apply, broadcastTo_1b_ab_apply, shapeCast_a_a1_apply]
  rw [laneMax_apply]
  simp only [addf_apply, mulf_apply, extf_apply, broadcastTo_a1_ab_apply, broadcastTo_1b_ab_apply]

/-! ## The arrays the region finds, and the whole-array result -/

section Arrays

variable (V : (c : Dev nD) → (b : Ref sig .tc) → Buf (Elt Ideal) ((c : Thread nD τ).loc b)) (c : Dev nD)

/-- The five arrays the region reads, as functions of an index into extended reals: the edge sum, the scaled rows
    (stored in 16 bits), the node weight and the node mask (one column each), the bias (one row). -/
abbrev arrA3 : S100000x64.Idx → EReal := V c main_v56
abbrev arrHs3 : S100000x64.Idx → EReal := V c main_v45
abbrev arrD3 : S100000x1.Idx → EReal := V c main_v58
abbrev arrM3 : S100000x1.Idx → EReal := V c main_v59
abbrev arrB3 : S1x64.Idx → EReal := V c main_v57

/-- Row `i` before the log-softmax: weight times mask times the edge sum, plus the scaled row times the weight,
    plus the bias. -/
def val3 (i : Fin 100000) (k : Fin 64) : EReal :=
  (arrD3 V c (ix2 i (0 : Fin 1)) * arrM3 V c (ix2 i (0 : Fin 1))) * arrA3 V c (ix2 i k)
    + arrHs3 V c (ix2 i k) * arrD3 V c (ix2 i (0 : Fin 1)) + arrB3 V c (ix2 (0 : Fin 1) k)

/-- The output: every row's log-softmax. -/
def G3_5 : S100000x64.Idx → EReal := fun y => Cert.Gcn.lsm (val3 V c (y 0)) (y 1)

private theorem hz : (![0, 0] : Fin 2 → Nat) = fun _ => 0 := funext fun a => by fin_cases a <;> rfl

/-- The printed index maps, decided over the 25 grid points: on the row axis every blocked window is at the
    point's own number, the one-row window at zero; on the lane axis every window is at zero. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The row of the arrays that point `t`'s block holds at its row `p`. -/
def rowOf3 (t : Fin cfg3.N) (p : Fin 4000) : Fin 100000 :=
  ⟨t.val * 4000 + p.val, by have := t.isLt; have hN : cfg3.N = 25 := N_3; have := p.isLt; omega⟩

/-! ### Each window's block at a point, read off its array: index × size + coordinate inside the block -/

theorem emb3_5 (t : Fin cfg3.N) (p : Fin 4000) (q : Fin 64) :
    ((cfg3.win 5).blk t).view.emb (ix2 p q) = (ix2 (rowOf3 t p) q : S100000x64.Idx) := by
  obtain ⟨e00, e01, e10, e11, e20, e21, e30, e31, e40, e41, e50, e51⟩ := idx_facts3 t
  funext a; apply Fin.ext
  match a with
  | ⟨0, _⟩ => show win3_5.index t (0 : Fin 2) * 4000 + 1 * p.val = t.val * 4000 + p.val; omega
  | ⟨1, _⟩ => show win3_5.index t (1 : Fin 2) * 64 + 1 * q.val = q.val; omega

theorem blk3_0 (t : Fin cfg3.N) (p : Fin 4000) (k : Fin 64) :
    iblk3 V c 0 t (ix2 p k) = arrA3 V c (ix2 (rowOf3 t p) k) := by
  obtain ⟨e00, e01, e10, e11, e20, e21, e30, e31, e40, e41, e50, e51⟩ := idx_facts3 t
  show arrA3 V c (((cfg3.win 0).blk t).view.emb (ix2 p k)) = _
  refine congrArg (arrA3 V c) (funext fun a => Fin.ext ?_)
  match a with
  | ⟨0, _⟩ => show win3_0.index t (0 : Fin 2) * 4000 + 1 * p.val = t.val * 4000 + p.val; omega
  | ⟨1, _⟩ => show win3_0.index t (1 : Fin 2) * 64 + 1 * k.val = k.val; omega

theorem blk3_1 (t : Fin cfg3.N) (p : Fin 4000) (k : Fin 64) :
    iblk3 V c 1 t (ix2 p k) = arrHs3 V c (ix2 (rowOf3 t p) k) := by
  obtain ⟨e00, e01, e10, e11, e20, e21, e30, e31, e40, e41, e50, e51⟩ := idx_facts3 t
  show arrHs3 V c (((cfg3.win 1).blk t).view.emb (ix2 p k)) = _
  refine congrArg (arrHs3 V c) (funext fun a => Fin.ext ?_)
  match a with
  | ⟨0, _⟩ => show win3_1.index t (0 : Fin 2) * 4000 + 1 * p.val = t.val * 4000 + p.val; omega
  | ⟨1, _⟩ => show win3_1.index t (1 : Fin 2) * 64 + 1 * k.val = k.val; omega

theorem blk3_2 (t : Fin cfg3.N) (p : Fin 4000) (u : Fin 1) :
    iblk3 V c 2 t (ix2 p u) = arrD3 V c (ix2 (rowOf3 t p) (0 : Fin 1)) := by
  obtain ⟨e00, e01, e10, e11, e20, e21, e30, e31, e40, e41, e50, e51⟩ := idx_facts3 t
  show arrD3 V c (((cfg3.win 2).blk t).view.emb (ix2 p u)) = _
  refine congrArg (arrD3 V c) (funext fun a => Fin.ext ?_)
  match a with
  | ⟨0, _⟩ => show win3_2.index t (0 : Fin 2) * 4000 + 1 * p.val = t.val * 4000 + p.val; omega
  | ⟨1, _⟩ => show win3_2.index t (1 : Fin 2) * 1 + 1 * u.val = 0; omega

theorem blk3_3 (t : Fin cfg3.N) (p : Fin 4000) (u : Fin 1) :
    iblk3 V c 3 t (ix2 p u) = arrM3 V c (ix2 (rowOf3 t p) (0 : Fin 1)) := by
  obtain ⟨e00, e01, e10, e11, e20, e21, e30, e31, e40, e41, e50, e51⟩ := idx_facts3 t
  show arrM3 V c (((cfg3.win 3).blk t).view.emb (ix2 p u)) = _
  refine congrArg (arrM3 V c) (funext fun a => Fin.ext ?_)
  match a with
  | ⟨0, _⟩ => show win3_3.index t (0 : Fin 2) * 4000 + 1 * p.val = t.val * 4000 + p.val; omega
  | ⟨1, _⟩ => show win3_3.index t (1 : Fin 2) * 1 + 1 * u.val = 0; omega

theorem blk3_4 (t : Fin cfg3.N) (u : Fin 1) (k : Fin 64) :
    iblk3 V c 4 t (ix2 u k) = arrB3 V c (ix2 (0 : Fin 1) k) := by
  obtain ⟨e00, e01, e10, e11, e20, e21, e30, e31, e40, e41, e50, e51⟩ := idx_facts3 t
  show arrB3 V c (((cfg3.win 4).blk t).view.emb (ix2 u k)) = _
  refine congrArg (arrB3 V c) (funext fun a => Fin.ext ?_)
  match a with
  | ⟨0, _⟩ => show win3_4.index t (0 : Fin 2) * 1 + 1 * u.val = 0; omega
  | ⟨1, _⟩ => show win3_4.index t (1 : Fin 2) * 64 + 1 * k.val = k.val; omega

/-- The payload over any blocks whose row `p` holds row `i` of the arrays (and whose one-row block holds the
    one-row array): the log-softmax of row `i`. -/
theorem pay3_of_rows (x0 : Vec Ideal S4000x64 .f32) (x1 : Vec Ideal S4000x64 .bf16) (x2 x3 : Vec Ideal S4000x1 .f32) (x4 : Vec Ideal S1x64 .f32)
    (p : Fin 4000) (q : Fin 64) (i : Fin 100000)
    (h0 : ∀ k : Fin 64, x0 (ix2 p k) = arrA3 V c (ix2 i k)) (h1 : ∀ k : Fin 64, x1 (ix2 p k) = arrHs3 V c (ix2 i k))
    (h2 : x2 (ix2 p (0 : Fin 1)) = arrD3 V c (ix2 i (0 : Fin 1))) (h3 : x3 (ix2 p (0 : Fin 1)) = arrM3 V c (ix2 i (0 : Fin 1)))
    (h4 : ∀ k : Fin 64, x4 (ix2 (0 : Fin 1) k) = arrB3 V c (ix2 (0 : Fin 1) k)) :
    k3_pay1 (F := Ideal) x2 x3 x1 x0 x4 (ix2 p q) = Cert.Gcn.lsm (val3 V c i) q := by
  rw [pay3_apply]
  simp only [h0, h1, h2, h3, h4]
  rfl

/-- What point `t` writes back to the output is block `t` of `G3_5`. -/
theorem flushed3_5_eq (t : Fin cfg3.N) :
    (dat3 (F := Ideal) V c).flushed 5 t = ((cfg3.win 5).blk t).view.read (Elt Ideal) (G3_5 V c) := by
  show (cfg3.win 5).cut (grid3.coords t) ((dat3 V c).after 5 t) = _
  rw [after3_5]
  unfold out3_5
  rw [View.canon_unit_zero hz]
  simp only [View.ld_unit_zero (S := S4000x64) hz, View.ld_unit_zero (S := S4000x1) hz, View.ld_unit_zero (S := S1x64) hz]
  funext j
  obtain ⟨p, q, rfl⟩ : ∃ (p : Fin 4000) (q : Fin 64), j = ix2 p q := ⟨j 0, j 1, eq_ix2 j⟩
  show k3_pay1 (F := Ideal) (iblk3 V c 2 t) (iblk3 V c 3 t) (iblk3 V c 1 t) (iblk3 V c 0 t) (iblk3 V c 4 t) (ix2 p q)
    = G3_5 V c (((cfg3.win 5).blk t).view.emb (ix2 p q))
  rw [emb3_5]
  exact pay3_of_rows V c _ _ _ _ _ p q (rowOf3 t p) (blk3_0 V c t p) (blk3_1 V c t p) (blk3_2 V c t p 0) (blk3_3 V c t p 0) (blk3_4 V c t 0)

/-- An index of the output is in point `t`'s block iff each coordinate is in the block's range on its axis. -/
theorem mem_blk3_5 (t : Fin cfg3.N) (i : S100000x64.Idx) :
    i ∈ ((cfg3.win 5).blk t).view.set ↔ ∀ a : Fin 2, win3_5.index t a * S4000x64.size a ≤ (i a).val ∧ (i a).val < win3_5.index t a * S4000x64.size a + S4000x64.size a := by
  show i ∈ ((View.whole main_v60).slice (win3_5.rect t)).set ↔ _
  rw [View.set_slice_whole, Rect.mem_set_unit]
  exact Iff.rfl

/-- Row `r` of the output is in the block of point `r / 4000`. -/
theorem covered3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 25 := N_3
  have ht : (i 0).val / 4000 < cfg3.N := by omega
  obtain ⟨e00, e01, e10, e11, e20, e21, e30, e31, e40, e41, e50, e51⟩ := idx_facts3 ⟨(i 0).val / 4000, ht⟩
  have e50' : win3_5.index ⟨(i 0).val / 4000, ht⟩ (0 : Fin 2) = (i 0).val / 4000 := e50
  refine ⟨⟨(i 0).val / 4000, ht⟩, flush3_5 _, ?_⟩
  rw [mem_blk3_5]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    omega
  | ⟨1, _⟩ =>
    show win3_5.index ⟨(i 0).val / 4000, ht⟩ (1 : Fin 2) * 64 ≤ (i 1).val ∧ (i 1).val < win3_5.index ⟨(i 0).val / 4000, ht⟩ (1 : Fin 2) * 64 + 64
    omega

/-- The output after the region: the log-softmax of every row of the arrays it finds. -/
theorem final3 : (dat3 (F := Ideal) V c).arrAt 5 cfg3.N = G3_5 V c :=
  (dat3 (F := Ideal) V c).arrAt_eq_of_cover 5 (G3_5 V c) (fun t _ => flushed3_5_eq V c t) (covered3_5)

end Arrays

end Cert.KernelIdeal.RegionValue

end
-- ==== Proof.HostIdx.lean ====
/-
  The host's indexed sums and reads over the edge list, read at an index.

  A scatter-add of one update per edge (or one row of 64 per edge) into a node array, by a column of signed
  32-bit destination words: node i receives the updates of exactly the edges whose word, read signed, is i; a word
  outside the node range lands nowhere. A gather of one entry (or one row) per edge, by a column of words: edge e reads
  the node its word, read signed, names, clamped into the node range. The minimum and the maximum over all nodes are
  folds from plus and minus infinity.
-/
import Idealize.ShloMosaic.PureOps.Ideal
import Idealize.ShloMosaic.PureOps.Ideal.Laws
import Idealize.ShloMosaic.PureOps.Reduce
import Idealize.ShloMosaic.Lib.ValueIdx
import proofs.«122454_j84129819394303_2_alg».proof.Proof.GcnSpec

noncomputable section

namespace Cert.Gcn.HostIdx

open Idealize.ShloMosaic Idealize.ShloMosaic.ValueIdx

abbrev SN : Shape := ⟨1, ![100000]⟩
abbrev SE : Shape := ⟨1, ![1000000]⟩
abbrev SE1 : Shape := ⟨2, ![1000000, 1]⟩
abbrev SN64 : Shape := ⟨2, ![100000, 64]⟩
abbrev SE64 : Shape := ⟨2, ![1000000, 64]⟩
abbrev S0 : Shape := ⟨0, ![]⟩

/-- The word a negative index is replaced by, as the programs spell it. -/
theorem select_slt_add (v : BitVec 32) :
    Scalar.select (IntOp.cmpi .slt v 0#32) (IntOp.addi v 100000#32) v = Cert.Gcn.norm32 v := by
  unfold Scalar.select IntOp.cmpi IntOp.addi Cert.Gcn.norm32
  cases h : v.slt 0#32 <;> simp [h]

/-- An edge's update lands on node i exactly when its destination word, read signed, is i: the start index is the
    word, the window coordinate is zero, and the landing index must lie inside the node range. -/
private theorem resultIdx_vec (wf : ScatterDims.WF SN SE1 SE [] [0] [0] 1) (idx : IVec SE1 32) (j : SE.Idx) (i : Fin 100000) :
    ScatterDims.resultIdx? (s := SN) (si := SE1) (u := SE) ⟨[], [0], [0], 1, wf⟩ j idx = some (ix1 i)
      ↔ (idx (ix2 (j 0) 0)).toInt = (i.val : Int) := by
  have hsi : ∀ c, ScatterDims.siIdx (s := SN) (si := SE1) (u := SE) ⟨[], [0], [0], 1, wf⟩ j c = ix2 (j 0) 0 := by
    intro c; funext b; refine Fin.ext ?_
    match b with
    | ⟨0, _⟩ => rfl
    | ⟨1, _⟩ => exact Nat.lt_one_iff.mp c.isLt
  have hst : ∀ a, ScatterDims.start (s := SN) (si := SE1) (u := SE) ⟨[], [0], [0], 1, wf⟩ j idx a = (idx (ix2 (j 0) 0)).toInt := by
    intro a
    obtain rfl : a = 0 := Subsingleton.elim _ _
    unfold ScatterDims.start
    rw [dif_pos (List.mem_singleton.mpr rfl), hsi]
    rfl
  have hw : ∀ a, ScatterDims.window (s := SN) (si := SE1) (u := SE) ⟨[], [0], [0], 1, wf⟩ j a = 0 := by
    intro a
    obtain rfl : a = 0 := Subsingleton.elim _ _
    unfold ScatterDims.window
    exact dif_neg (show (0 : Fin 1) ∉ SN.kept [0] by decide)
  have hi := i.isLt
  unfold ScatterDims.resultIdx?
  constructor
  · intro H
    split at H
    · rename_i h
      have h0 := h 0
      have e := congrArg (fun f : SN.Idx => (f 0).val) (Option.some.inj H)
      change (ScatterDims.start _ j idx 0 + ((ScatterDims.window _ j 0 : Nat) : Int)).toNat = i.val at e
      rw [hst, hw] at e h0
      omega
    · exact absurd H (by simp)
  · intro H
    have h : ∀ a : Fin SN.rank, 0 ≤ ScatterDims.start (s := SN) (si := SE1) (u := SE) ⟨[], [0], [0], 1, wf⟩ j idx a
          + ((ScatterDims.window (s := SN) (si := SE1) (u := SE) ⟨[], [0], [0], 1, wf⟩ j a : Nat) : Int)
        ∧ ScatterDims.start (s := SN) (si := SE1) (u := SE) ⟨[], [0], [0], 1, wf⟩ j idx a
          + ((ScatterDims.window (s := SN) (si := SE1) (u := SE) ⟨[], [0], [0], 1, wf⟩ j a : Nat) : Int) < ((SN.size a : Nat) : Int) := by
      intro a
      rw [hst, hw]
      obtain rfl : a = 0 := Subsingleton.elim _ _
      show _ ∧ _ < ((100000 : Nat) : Int)
      omega
    rw [dif_pos h]
    congr 1
    funext a
    obtain rfl : a = 0 := Subsingleton.elim _ _
    refine Fin.ext ?_
    show (ScatterDims.start _ j idx 0 + ((ScatterDims.window _ j 0 : Nat) : Int)).toNat = i.val
    rw [hst, hw]
    omega

/-- One update per edge summed into the nodes. -/
theorem scatterAdd_vec_apply (d : ScatterDims SN SE1 SE) (h1 : d.updateWindowDims = []) (h2 : d.insertedWindowDims = [0])
    (h3 : d.scatterDimsToOperandDims = [0]) (h4 : d.indexVectorDim = 1)
    (x : FVec Ideal SN .f32) (idx : IVec SE1 32) (upd : FVec Ideal SE .f32) (i : Fin 100000) :
    Host.scatterAdd d x idx upd (ix1 i)
      = x (ix1 i) + ∑ e ∈ Finset.univ.filter (fun e : Fin 1000000 => (idx (ix2 e 0)).toInt = (i.val : Int)), upd (ix1 e) := by
  obtain ⟨uw, iw, sd, iv, wf⟩ := d
  subst h1 h2 h3 h4
  show x (ix1 i) + ∑ j ∈ Finset.univ.filter (fun j : SE.Idx =>
      ScatterDims.resultIdx? (s := SN) (si := SE1) (u := SE) ⟨[], [0], [0], 1, wf⟩ j idx = some (ix1 i)), upd j = _
  refine congrArg (fun t => x (ix1 i) + t) ?_
  refine Finset.sum_nbij' (fun j : SE.Idx => (j 0 : Fin 1000000)) (fun e => ix1 e) ?_ ?_ ?_ ?_ ?_
  · intro j hj
    exact Finset.mem_filter.2 ⟨Finset.mem_univ _, (resultIdx_vec wf idx j i).1 (Finset.mem_filter.1 hj).2⟩
  · intro e he
    exact Finset.mem_filter.2 ⟨Finset.mem_univ _, (resultIdx_vec wf idx (ix1 e) i).2 (Finset.mem_filter.1 he).2⟩
  · intro j _
    funext a
    obtain rfl : a = 0 := Subsingleton.elim _ _
    rfl
  · intro e _; rfl
  · intro j _
    congr 1
    funext a
    obtain rfl : a = 0 := Subsingleton.elim _ _
    rfl

/-- The dimension numbers of the row scatter. -/
private abbrev dR (wf : ScatterDims.WF SN64 SE1 SE64 [1] [0] [0] 1) : ScatterDims SN64 SE1 SE64 := ⟨[1], [0], [0], 1, wf⟩

/-- An edge's update in column c lands on entry (i, k) exactly when its destination word, read signed, is i and c = k:
    on the node axis the start index is the word and the window coordinate zero, on the column axis the start is zero
    and the window coordinate is the column. -/
private theorem resultIdx_rows (wf : ScatterDims.WF SN64 SE1 SE64 [1] [0] [0] 1) (idx : IVec SE1 32) (j : SE64.Idx)
    (i : Fin 100000) (k : Fin 64) :
    ScatterDims.resultIdx? (s := SN64) (si := SE1) (u := SE64) ⟨[1], [0], [0], 1, wf⟩ j idx = some (ix2 i k)
      ↔ (idx (ix2 (j 0) 0)).toInt = (i.val : Int) ∧ j 1 = k := by
  have hsi : ∀ c, ScatterDims.siIdx (s := SN64) (si := SE1) (u := SE64) ⟨[1], [0], [0], 1, wf⟩ j c = ix2 (j 0) 0 := by
    intro c; funext b; refine Fin.ext ?_
    match b with
    | ⟨0, _⟩ => rfl
    | ⟨1, _⟩ => exact Nat.lt_one_iff.mp c.isLt
  have hst0 : ScatterDims.start (s := SN64) (si := SE1) (u := SE64) ⟨[1], [0], [0], 1, wf⟩ j idx 0 = (idx (ix2 (j 0) 0)).toInt := by
    unfold ScatterDims.start
    rw [dif_pos (List.mem_singleton.mpr rfl), hsi]
    rfl
  have hst1 : ScatterDims.start (s := SN64) (si := SE1) (u := SE64) ⟨[1], [0], [0], 1, wf⟩ j idx 1 = 0 := by
    unfold ScatterDims.start
    exact dif_neg (show (1 : Fin 2) ∉ [(0 : Fin 2)] by decide)
  have hw0 : ScatterDims.window (s := SN64) (si := SE1) (u := SE64) ⟨[1], [0], [0], 1, wf⟩ j 0 = 0 := by
    unfold ScatterDims.window
    exact dif_neg (show (0 : Fin 2) ∉ SN64.kept [0] by decide)
  have hw1 : ScatterDims.window (s := SN64) (si := SE1) (u := SE64) ⟨[1], [0], [0], 1, wf⟩ j 1 = (j 1).val := by
    unfold ScatterDims.window
    rw [dif_pos (show (1 : Fin 2) ∈ SN64.kept [0] by decide)]
    rfl
  have hi := i.isLt
  have hk := k.isLt
  have hj1 : (j 1).val < 64 := (j 1).isLt
  unfold ScatterDims.resultIdx?
  constructor
  · intro H
    split at H
    · rename_i h
      have h0 := h 0
      have e := Option.some.inj H
      have e0 := congrArg (fun f : SN64.Idx => (f 0).val) e
      have e1 := congrArg (fun f : SN64.Idx => (f 1).val) e
      change ((dR wf).start j idx 0 + (((dR wf).window j 0 : Nat) : Int)).toNat = i.val at e0
      change ((dR wf).start j idx 1 + (((dR wf).window j 1 : Nat) : Int)).toNat = k.val at e1
      rw [hst0, hw0] at e0 h0
      rw [hst1, hw1] at e1
      refine ⟨by omega, Fin.ext ?_⟩
      omega
    · exact absurd H (by simp)
  · rintro ⟨H, H1⟩
    have h1v : (j 1).val = k.val := congrArg Fin.val H1
    have h : ∀ a : Fin SN64.rank, 0 ≤ ScatterDims.start (s := SN64) (si := SE1) (u := SE64) ⟨[1], [0], [0], 1, wf⟩ j idx a
          + ((ScatterDims.window (s := SN64) (si := SE1) (u := SE64) ⟨[1], [0], [0], 1, wf⟩ j a : Nat) : Int)
        ∧ ScatterDims.start (s := SN64) (si := SE1) (u := SE64) ⟨[1], [0], [0], 1, wf⟩ j idx a
          + ((ScatterDims.window (s := SN64) (si := SE1) (u := SE64) ⟨[1], [0], [0], 1, wf⟩ j a : Nat) : Int) < ((SN64.size a : Nat) : Int) := by
      intro a
      match a with
      | ⟨0, _⟩ =>
        change 0 ≤ (dR wf).start j idx 0 + (((dR wf).window j 0 : Nat) : Int)
          ∧ (dR wf).start j idx 0 + (((dR wf).window j 0 : Nat) : Int) < ((100000 : Nat) : Int)
        rw [hst0, hw0]
        omega
      | ⟨1, _⟩ =>
        change 0 ≤ (dR wf).start j idx 1 + (((dR wf).window j 1 : Nat) : Int)
          ∧ (dR wf).start j idx 1 + (((dR wf).window j 1 : Nat) : Int) < ((64 : Nat) : Int)
        rw [hst1, hw1]
        omega
    rw [dif_pos h]
    congr 1
    funext a
    refine Fin.ext ?_
    match a with
    | ⟨0, _⟩ =>
      change ((dR wf).start j idx 0 + (((dR wf).window j 0 : Nat) : Int)).toNat = i.val
      rw [hst0, hw0]
      omega
    | ⟨1, _⟩ =>
      change ((dR wf).start j idx 1 + (((dR wf).window j 1 : Nat) : Int)).toNat = k.val
      rw [hst1, hw1]
      omega

/-- One row per edge summed into the nodes' rows, column by column. -/
theorem scatterAdd_rows_apply (d : ScatterDims SN64 SE1 SE64) (h1 : d.updateWindowDims = [1]) (h2 : d.insertedWindowDims = [0])
    (h3 : d.scatterDimsToOperandDims = [0]) (h4 : d.indexVectorDim = 1)
    (x : FVec Ideal SN64 .f32) (idx : IVec SE1 32) (upd : FVec Ideal SE64 .f32) (i : Fin 100000) (k : Fin 64) :
    Host.scatterAdd d x idx upd (ix2 i k)
      = x (ix2 i k) + ∑ e ∈ Finset.univ.filter (fun e : Fin 1000000 => (idx (ix2 e 0)).toInt = (i.val : Int)), upd (ix2 e k) := by
  obtain ⟨uw, iw, sd, iv, wf⟩ := d
  subst h1 h2 h3 h4
  show x (ix2 i k) + ∑ j ∈ Finset.univ.filter (fun j : SE64.Idx =>
      ScatterDims.resultIdx? (s := SN64) (si := SE1) (u := SE64) ⟨[1], [0], [0], 1, wf⟩ j idx = some (ix2 i k)), upd j = _
  refine congrArg (fun t => x (ix2 i k) + t) ?_
  refine Finset.sum_nbij' (fun j : SE64.Idx => (j 0 : Fin 1000000)) (fun e => ix2 e k) ?_ ?_ ?_ ?_ ?_
  · intro j hj
    exact Finset.mem_filter.2 ⟨Finset.mem_univ _, ((resultIdx_rows wf idx j i k).1 (Finset.mem_filter.1 hj).2).1⟩
  · intro e he
    exact Finset.mem_filter.2 ⟨Finset.mem_univ _, (resultIdx_rows wf idx (ix2 e k) i k).2 ⟨(Finset.mem_filter.1 he).2, rfl⟩⟩
  · intro j hj
    have hk := ((resultIdx_rows wf idx j i k).1 (Finset.mem_filter.1 hj).2).2
    subst hk
    exact (eq_ix2 j).symm
  · intro e _; rfl
  · intro j hj
    have hk := ((resultIdx_rows wf idx j i k).1 (Finset.mem_filter.1 hj).2).2
    subst hk
    exact congrArg upd (eq_ix2 j)

/-- One entry per edge read from the nodes. -/
theorem gather_vec_apply {α : Type} (d : GatherDims SN SE1 SE) (h1 : d.offsetDims = []) (h2 : d.collapsedSliceDims = [0])
    (h3 : d.operandBatchingDims = []) (h4 : d.startIndicesBatchingDims = []) (h5 : d.startIndexMap = [0]) (h6 : d.indexVectorDim = 1)
    (h7 : d.sliceSizes = ![1]) (x : SN.Idx → α) (idx : IVec SE1 32) (e : Fin 1000000) :
    Host.gather d x idx (ix1 e) = x (ix1 (Cert.Gcn.pick (idx (ix2 e 0)))) := by
  obtain ⟨od, cd, ob, sb, sm, iv, ss, wf⟩ := d
  subst h1 h2 h3 h4 h5 h6 h7
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ c, GatherDims.siIdx (s := SN) (si := SE1) (t := SE) ⟨[], [0], [], [], [0], 1, ![1], wf⟩ (ix1 e) c = ix2 e 0 := by
    intro c
    funext b; refine Fin.ext ?_
    match b with
    | ⟨0, _⟩ => rfl
    | ⟨1, _⟩ => exact Nat.lt_one_iff.mp c.isLt
  rw [hsi]
  rfl

/-- One row per edge read from the nodes' rows. -/
theorem gather_rows_apply {α : Type} (d : GatherDims SN64 SE1 SE64) (h1 : d.offsetDims = [1]) (h2 : d.collapsedSliceDims = [0])
    (h3 : d.operandBatchingDims = []) (h4 : d.startIndicesBatchingDims = []) (h5 : d.startIndexMap = [0]) (h6 : d.indexVectorDim = 1)
    (h7 : d.sliceSizes = ![1, 64]) (x : SN64.Idx → α) (idx : IVec SE1 32) (e : Fin 1000000) (k : Fin 64) :
    Host.gather d x idx (ix2 e k) = x (ix2 (Cert.Gcn.pick (idx (ix2 e 0))) k) := by
  obtain ⟨od, cd, ob, sb, sm, iv, ss, wf⟩ := d
  subst h1 h2 h3 h4 h5 h6 h7
  unfold Host.gather
  congr 1
  funext a
  refine Fin.ext ?_
  show GatherDims.start _ (ix2 e k) idx a + GatherDims.batchCoord _ (ix2 e k) a + GatherDims.offCoord _ (ix2 e k) a = _
  rw [GatherDims.batchCoord_eq_zero _ _ _ List.not_mem_nil]
  have hsi : ∀ c, GatherDims.siIdx (s := SN64) (si := SE1) (t := SE64) ⟨[1], [0], [], [], [0], 1, ![1, 64], wf⟩ (ix2 e k) c = ix2 e 0 := by
    intro c
    funext b; refine Fin.ext ?_
    match b with
    | ⟨0, _⟩ => rfl
    | ⟨1, _⟩ => exact Nat.lt_one_iff.mp c.isLt
  match a with
  | ⟨0, _⟩ =>
    change GatherDims.start _ (ix2 e k) idx 0 + 0 + GatherDims.offCoord _ (ix2 e k) 0 = _
    rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl), hsi]
    rfl
  | ⟨1, _⟩ =>
    change GatherDims.start _ (ix2 e k) idx 1 + 0 + GatherDims.offCoord _ (ix2 e k) 1 = _
    have hs : GatherDims.start (s := SN64) (si := SE1) (t := SE64) ⟨[1], [0], [], [], [0], 1, ![1, 64], wf⟩ (ix2 e k) idx 1 = 0 := by
      unfold GatherDims.start
      exact dif_neg (show (1 : Fin 2) ∉ [(0 : Fin 2)] by decide)
    rw [hs]
    simp only [Nat.zero_add, Nat.add_zero]
    unfold GatherDims.offCoord
    rw [dif_pos (show (1 : Fin 2) ∈ SN64.kept ([0] ++ []) by decide)]
    rfl

/-- A fold over all rank-one indices is the fold over their single coordinate. -/
private theorem fold_univ_SN (op : EReal → EReal → EReal) [Std.Commutative op] [Std.Associative op] (c : EReal) (x : SN.Idx → EReal) :
    (Finset.univ : Finset SN.Idx).fold op c x = (Finset.univ : Finset (Fin 100000)).fold op c (fun i => x (ix1 i)) := by
  have himg : (Finset.univ : Finset SN.Idx) = (Finset.univ : Finset (Fin 100000)).image ix1 := by
    ext y
    simp only [Finset.mem_univ, Finset.mem_image, true_and, true_iff]
    exact ⟨y 0, (eq_ix1 y).symm⟩
  rw [himg, Finset.fold_image (fun a _ b _ e => congrFun e 0)]
  rfl

/-- The minimum over all nodes, from plus infinity. -/
theorem reduce_min_apply (x : FVec Ideal SN .f32) (h' : SN.ReducesTo [0] S0) (hu : 0 < S0.numel) (j : S0.Idx) :
    Host.reduce FloatOps.minimumf x (constant (F := Ideal) S0 .f32 0x7F800000#32) h' hu j = Cert.Gcn.rminF (fun i => x (ix1 i)) := by
  rw [Host.reduce_eq_fold FloatOps.minimumf x _ h' hu]
  have hall : (Finset.univ.filter fun i : SN.Idx => h'.drop i = j) = Finset.univ :=
    Finset.filter_true_of_mem fun i _ => funext fun b => b.elim0
  rw [hall]
  unfold Cert.Gcn.rminF Cert.Gcn.cpinf
  exact fold_univ_SN min _ x

/-- The maximum over all nodes, from minus infinity. -/
theorem reduce_max_apply (x : FVec Ideal SN .f32) (h' : SN.ReducesTo [0] S0) (hu : 0 < S0.numel) (j : S0.Idx) :
    Host.reduce FloatOps.maximumf x (constant (F := Ideal) S0 .f32 0xFF800000#32) h' hu j = Cert.Gcn.rmaxF (fun i => x (ix1 i)) := by
  rw [Host.reduce_eq_fold FloatOps.maximumf x _ h' hu]
  have hall : (Finset.univ.filter fun i : SN.Idx => h'.drop i = j) = Finset.univ :=
    Finset.filter_true_of_mem fun i _ => funext fun b => b.elim0
  rw [hall]
  unfold Cert.Gcn.rmaxF Cert.Gcn.cninf
  exact fold_univ_SN max _ x

/-- A row's maximum, from minus infinity. -/
theorem reduce_rowmax_apply (x : FVec Ideal SN64 .f32) (h' : SN64.ReducesTo [1] SN) (hu : 0 < S0.numel) (i : Fin 100000) :
    Host.reduce FloatOps.maximumf x (constant (F := Ideal) S0 .f32 0xFF800000#32) h' hu (ix1 i)
      = (Finset.univ : Finset (Fin 64)).fold max Cert.Gcn.cninf (fun k => x (ix2 i k)) := by
  have h : SN64.Reduces [1] SN := by decide
  rw [Host.reduce_eq_fold_single FloatOps.maximumf x _ h' h hu]
  have hf : (x ∘ h.lift (ix1 i)) = fun k : Fin 64 => x (ix2 i k) :=
    funext fun k => congrArg x (by funext c; apply Fin.ext; fin_cases c <;> rfl)
  unfold Cert.Gcn.cninf
  exact congrArg (fun f => Finset.fold max (Ideal.ofBits .f32 0xFF800000#32) f (Finset.univ : Finset (Fin 64))) hf

end Cert.Gcn.HostIdx

end
-- ==== Proof.HostRead.lean ====
/-
  Layout operations of the host programs read at an index, over the literal shapes of this graph: a scalar splat, a
  vector turned into a column, a column or a row reshaped to and from a vector, and one row of the 2 x 1000000 table of
  edge words taken out as a vector.
-/
import Idealize.ShloMosaic.Lib.Pipeline.Value
import Idealize.ShloMosaic.Lib.ValueIdx
import proofs.«122454_j84129819394303_2_alg».proof.Proof.HostIdx

noncomputable section

namespace Cert.Gcn.HostRead

open Idealize.ShloMosaic Idealize.ShloMosaic.ValueIdx Cert.Gcn.HostIdx

abbrev SN1 : Shape := ⟨2, ![100000, 1]⟩
abbrev S64 : Shape := ⟨1, ![64]⟩
abbrev S1x64 : Shape := ⟨2, ![1, 64]⟩
abbrev S1xE : Shape := ⟨2, ![1, 1000000]⟩
abbrev S2xE : Shape := ⟨2, ![2, 1000000]⟩

variable {α : Type}

/-- The one index of a rank-0 array. -/
abbrev i0 : S0.Idx := fun a => a.elim0

theorem idx0_eq (j : S0.Idx) : j = i0 := funext fun a => a.elim0

/-- A scalar splat to any shape reads the scalar. -/
theorem splat_apply (t : Shape) (h : S0.BroadcastsInDim t ![]) (x : S0.Idx → α) (j : t.Idx) :
    broadcastInDim t ![] h x j = x i0 :=
  broadcastInDim_apply _ h x j i0 (fun a => a.elim0)

/-- A vector over the edges turned into a column reads the vector. -/
theorem col_apply (h : SE.BroadcastsInDim SE1 ![0]) (v : SE.Idx → α) (e : Fin 1000000) (z : Fin 1) :
    broadcastInDim SE1 ![0] h v (ix2 e z) = v (ix1 e) :=
  broadcastInDim_apply _ h v (ix2 e z) (ix1 e) (fun a => match a with
    | ⟨0, _⟩ => by show e.val = if (1000000 : Nat) = 1 then 0 else e.val; rw [if_neg (by decide)])

/-- A vector over the nodes reshaped to a column. -/
theorem reshape_col (h : SN.ShapeCasts SN1) (v : SN.Idx → α) (i : Fin 100000) (z : Fin 1) :
    shapeCast SN1 v h (ix2 i z) = v (ix1 i) :=
  shapeCast_apply v h (ix2 i z) (ix1 i) (by
    rw [Shape.rowMajor_val_one, Shape.rowMajor_val_two]
    show i.val = i.val * 1 + z.val
    have := z.isLt; omega)

/-- A column over the nodes reshaped to a vector. -/
theorem reshape_uncol (h : SN1.ShapeCasts SN) (v : SN1.Idx → α) (i : Fin 100000) :
    shapeCast SN v h (ix1 i) = v (ix2 i 0) :=
  shapeCast_apply v h (ix1 i) (ix2 i 0) (by
    rw [Shape.rowMajor_val_one, Shape.rowMajor_val_two]
    show i.val * 1 + 0 = i.val
    omega)

/-- A vector of 64 reshaped to one row. -/
theorem reshape_row (h : S64.ShapeCasts S1x64) (v : S64.Idx → α) (z : Fin 1) (k : Fin 64) :
    shapeCast S1x64 v h (ix2 z k) = v (ix1 k) :=
  shapeCast_apply v h (ix2 z k) (ix1 k) (by
    rw [Shape.rowMajor_val_one, Shape.rowMajor_val_two]
    show k.val = z.val * 64 + k.val
    have := z.isLt; omega)

/-- Row r of the table of edge words, as a vector over the edges. -/
theorem words_row (r : Fin 2) (hs : S2xE.Slices ![r.val, 0] S1xE) (hc : S1xE.ShapeCasts SE) (a7 : S2xE.Idx → α) (e : Fin 1000000) :
    shapeCast SE (extractStridedSlice S1xE ![r.val, 0] a7 hs) hc (ix1 e) = a7 (ix2 r e) := by
  rw [shapeCast_apply (extractStridedSlice S1xE ![r.val, 0] a7 hs) hc (ix1 e) (ix2 0 e) (by
    rw [Shape.rowMajor_val_one, Shape.rowMajor_val_two]
    show 0 * 1000000 + e.val = e.val
    omega)]
  exact extractStridedSlice_apply ![r.val, 0] a7 hs (ix2 0 e) (ix2 r e) (fun a => match a with
    | ⟨0, _⟩ => by show r.val = r.val + 0; omega
    | ⟨1, _⟩ => by show e.val = 0 + e.val; omega)

end Cert.Gcn.HostRead

end
-- ==== Proof.KValue1.lean ====
/-
  The first half of the tiled program's host glue: from the launch memory to the exit of its second pipelined region.

  The host operations between the regions are read one buffer at a time. Each buffer a later step needs is first
  identified with a small closed term over the launch memory (or over the previous boundary's contents), and the term is
  then read at an index: the rows of the table of edge words, the in-degree (one per arriving edge), the node weights and
  their column, the sum of the gathered scaled rows over the arriving edges, the parameter vectors as single rows. The two
  regions' results are taken as hypotheses, and with the host buffers they read identified they are the factored
  arrangement's scaled product, its first layer's rows and their Euclidean norms.
-/
import proofs.«122454_j84129819394303_2_alg».proof.Proof.Gen.KernelIdeal.Frame
import proofs.«122454_j84129819394303_2_alg».proof.Proof.GcnSpec
import proofs.«122454_j84129819394303_2_alg».proof.Proof.HostIdx
import proofs.«122454_j84129819394303_2_alg».proof.Proof.HostRead
import Idealize.ShloMosaic.Lib.StableHlo.Run

noncomputable section

namespace Cert.KernelIdeal.KValue1

open Cert.KernelIdeal Cert.KernelIdeal.Gen Idealize.ShloMosaic Idealize.ShloMosaic.TcCoe Idealize.SL.Sem Idealize.ShloMosaic.StableHlo
open Idealize.ShloMosaic.ValueIdx Cert.Gcn.HostRead Cert.Gcn.HostIdx

/-! ## The host terms, over the contents they read -/

section Terms

variable (a7 : IVec S2x1000000 32)

/-- The source words: row 0 of the table. -/
def tSrc : IVec S1000000 32 :=
  shapeCast S1000000 (extractStridedSlice S1x1000000 ![0, 0] a7 slices_S2x1000000_S1x1000000_0_0) shapeCasts_S1x1000000_S1000000

/-- The destination words: row 1 of the table. -/
def tDst : IVec S1000000 32 :=
  shapeCast S1000000 (extractStridedSlice S1x1000000 ![1, 0] a7 slices_S2x1000000_S1x1000000_1_0) shapeCasts_S1x1000000_S1000000

/-- One per edge, summed into the nodes by the destination words. -/
def tIndeg : FVec Ideal S100000 .f32 :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 (tDst a7))
    (broadcastInDim S1000000 ![] bcast_S_S1000000 (constant (F := Ideal) S_ .f32 0x3F800000#32))

/-- The inverse square root of the in-degree plus one. -/
def tDis0 : FVec Ideal S100000 .f32 :=
  Host.rsqrt (addf (tIndeg a7) (broadcastInDim S100000 ![] bcast_S_S100000 (constant (F := Ideal) S_ .f32 0x3F800000#32)))

/-- A vector over the nodes as a column. -/
def tCol (v : FVec Ideal S100000 .f32) : FVec Ideal S100000x1 .f32 :=
  shapeCast S100000x1 v shapeCasts_S100000_S100000x1

/-- A vector of 64 as one row. -/
def tRow (v : FVec Ideal S64 .f32) : FVec Ideal S1x64 .f32 :=
  shapeCast S1x64 v shapeCasts_S64_S1x64

/-- The rows the normalised source words read, summed into the nodes' rows by the destination words. -/
def tAgg (s d : IVec S1000000 32) (h : FVec Ideal S100000x64 .f32) :
    FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0
        (select (cmpi .slt s (broadcastInDim S1000000 ![] bcast_S_S1000000 (constantI S_ 32 0#32)))
          (addi s (broadcastInDim S1000000 ![] bcast_S_S1000000 (constantI S_ 32 100000#32))) s)))

theorem tSrc_apply (e : Fin 1000000) : tSrc a7 (ix1 e) = a7 (ix2 (0 : Fin 2) e) :=
  words_row 0 _ _ a7 e

theorem tDst_apply (e : Fin 1000000) : tDst a7 (ix1 e) = a7 (ix2 (1 : Fin 2) e) :=
  words_row 1 _ _ a7 e

theorem tIndeg_apply (i : Fin 100000) : tIndeg a7 (ix1 i) = Gcn.indeg (fun e => a7 (ix2 (1 : Fin 2) e)) i := by
  unfold tIndeg
  refine (scatterAdd_vec_apply scatter_S100000_S1000000x1_S1000000_n_0_0_1 rfl rfl rfl rfl _ _ _ i).trans ?_
  rw [splat_apply]
  have hz : constant (F := Ideal) S_ .f32 0x00000000#32 i0 = 0 := Ideal.ofBits_zero_f32
  rw [hz, zero_add]
  show _ = ∑ _e ∈ Gcn.hits (fun e => a7 (ix2 (1 : Fin 2) e)) i, Gcn.one
  unfold Gcn.hits
  refine Finset.sum_congr (Finset.filter_congr fun e _ => ?_) fun e _ => ?_
  · rw [col_apply, tDst_apply]
  · rw [splat_apply]; rfl

/-- The host's inverse square root, read at an index. -/
theorem hrsqrt_at (v : FVec Ideal S100000 .f32) (j : S100000.Idx) : Host.rsqrt v j = FloatOps.hostUnary .rsqrt (v j) := rfl

theorem tDis0_apply (i : Fin 100000) : tDis0 a7 (ix1 i) = Gcn.dis0 (fun e => a7 (ix2 (1 : Fin 2) e)) i := by
  unfold tDis0
  refine (hrsqrt_at _ _).trans ?_
  rw [Ideal.hostUnary_rsqrt_def, addf_apply, tIndeg_apply, splat_apply]
  unfold Gcn.dis0
  rfl

theorem tCol_apply (v : FVec Ideal S100000 .f32) (i : Fin 100000) (z : Fin 1) :
    tCol v (ix2 i z) = v (ix1 i) :=
  reshape_col _ v i z

theorem tRow_apply (v : FVec Ideal S64 .f32) (z : Fin 1) (k : Fin 64) :
    tRow v (ix2 z k) = v (ix1 k) :=
  reshape_row _ v z k

theorem tAgg_apply (s d : IVec S1000000 32) (h : FVec Ideal S100000x64 .f32)
    (i : Fin 100000) (k : Fin 64) :
    tAgg s d h (ix2 i k)
      = ∑ e ∈ Gcn.hits (fun e => d (ix1 e)) i, h (ix2 (Gcn.gsel (s (ix1 e))) k) := by
  unfold tAgg
  refine (scatterAdd_rows_apply scatter_S100000x64_S1000000x1_S1000000x64_1_0_0_1 rfl rfl rfl rfl _ _ _ i k).trans ?_
  rw [splat_apply]
  have hz : constant (F := Ideal) S_ .f32 0x00000000#32 i0 = 0 := Ideal.ofBits_zero_f32
  rw [hz, zero_add]
  unfold Gcn.hits
  refine Finset.sum_congr (Finset.filter_congr fun e _ => ?_) fun e _ => ?_
  · rw [col_apply]
  · refine (gather_rows_apply gather_S100000x64_S1000000x1_S1000000x64_1_0_n_n_0_1_164 rfl rfl rfl rfl rfl rfl rfl h _ e k).trans ?_
    rw [col_apply]
    show h (ix2 (Gcn.pick (Scalar.select (IntOp.cmpi .slt (s (ix1 e))
        (broadcastInDim S1000000 ![] bcast_S_S1000000 (constantI S_ 32 0#32) (ix1 e)))
      (IntOp.addi (s (ix1 e)) (broadcastInDim S1000000 ![] bcast_S_S1000000 (constantI S_ 32 100000#32) (ix1 e))) (s (ix1 e)))) k) = _
    rw [splat_apply, splat_apply]
    show h (ix2 (Gcn.pick (Scalar.select (IntOp.cmpi .slt (s (ix1 e)) 0#32) (IntOp.addi (s (ix1 e)) 100000#32) (s (ix1 e)))) k) = _
    rw [select_slt_add]
    rfl

end Terms

/-! ### The arrays the second region reads, as functions of an index into the extended reals -/

section Accessors
variable (V : (c : Dev nD) → (b : Ref sig .tc) → Buf (Elt Ideal) ((c : Thread nD τ).loc b)) (c : Dev nD)
/-- The edge sum, the scaled rows, the node weight (one column), the bias, the scale and the shift (one row each). -/
abbrev aA : S100000x64.Idx → EReal := V c main_v22
abbrev aH : S100000x64.Idx → EReal := V c main_v12
abbrev aD : S100000x1.Idx → EReal := V c main_v26
abbrev aB : S1x64.Idx → EReal := V c main_v23
abbrev aG : S1x64.Idx → EReal := V c main_v24
abbrev aBt : S1x64.Idx → EReal := V c main_v25
/-- Node i's row before the normalisation, as the second region computes it from its arrays. -/
abbrev aRow (i : Fin 100000) : Fin 64 → EReal := fun k =>
  aD V c (ix2 i (0 : Fin 1)) * (aA V c (ix2 i k) + aH V c (ix2 i k)) + aB V c (ix2 (0 : Fin 1) k)
abbrev aScale : Fin 64 → EReal := fun k => aG V c (ix2 (0 : Fin 1) k)
abbrev aShift : Fin 64 → EReal := fun k => aBt V c (ix2 (0 : Fin 1) k)
end Accessors

/-! ## The boundaries of the run -/

section Run

variable (m : (ℓ : Loc nD τ sig) → Buf (Elt Ideal) ℓ) (ρ : Dev nD → PrngReg) (c : Dev nD)

/-- The launch memory's arguments, curried. -/
abbrev kx : Fin 100000 → Fin 128 → EReal := fun i j => m ((c : Thread nD τ).loc main_arg0) (ix2 i j)
abbrev kw1 : Fin 128 → Fin 64 → EReal := fun j k => m ((c : Thread nD τ).loc main_arg1) (ix2 j k)
abbrev kb1 : Fin 64 → EReal := fun k => m ((c : Thread nD τ).loc main_arg2) (ix1 k)
abbrev kg : Fin 64 → EReal := fun k => m ((c : Thread nD τ).loc main_arg5) (ix1 k)
abbrev kbt : Fin 64 → EReal := fun k => m ((c : Thread nD τ).loc main_arg6) (ix1 k)
abbrev ksrc : Fin 1000000 → BitVec 32 := fun e => m ((c : Thread nD τ).loc main_arg7) (ix2 (0 : Fin 2) e)
abbrev kdst : Fin 1000000 → BitVec 32 := fun e => m ((c : Thread nD τ).loc main_arg7) (ix2 (1 : Fin 2) e)

/-! ### After the first host stretch -/

/-- The source words. -/
theorem W1_v1 : W1 m ρ c (Proc.devRef .tc main_v1) = tSrc (m ((c : Thread nD τ).loc main_arg7)) := by
  show StableHlo.after hostOps0 (W0 m ρ c) (Proc.devRef .tc main_v1) = _
  after_results
  first | done | rfl

/-- The destination words. -/
theorem W1_v3 : W1 m ρ c (Proc.devRef .tc main_v3) = tDst (m ((c : Thread nD τ).loc main_arg7)) := by
  show StableHlo.after hostOps0 (W0 m ρ c) (Proc.devRef .tc main_v3) = _
  after_results
  first | done | rfl

/-- The in-degree. -/
theorem W1_v7 : W1 m ρ c (Proc.devRef .tc main_v7) = tIndeg (m ((c : Thread nD τ).loc main_arg7)) := by
  show StableHlo.after hostOps0 (W0 m ρ c) (Proc.devRef .tc main_v7) = _
  after_results
  first | done | rfl

/-- The node weights. -/
theorem W1_v10 : W1 m ρ c (Proc.devRef .tc main_v10) = tDis0 (m ((c : Thread nD τ).loc main_arg7)) := by
  show StableHlo.after hostOps0 (W0 m ρ c) (Proc.devRef .tc main_v10) = _
  after_results
  first | done | rfl

/-- The node weights as a column. -/
theorem W1_v11 : W1 m ρ c (Proc.devRef .tc main_v11) = tCol (tDis0 (m ((c : Thread nD τ).loc main_arg7))) := by
  show StableHlo.after hostOps0 (W0 m ρ c) (Proc.devRef .tc main_v11) = _
  after_results
  first | done | rfl

/-- The arguments are not written. -/
theorem W1_arg0 : W1 m ρ c (Proc.devRef .tc main_arg0) = (m ((c : Thread nD τ).loc main_arg0)) := by
  show StableHlo.after hostOps0 (W0 m ρ c) (Proc.devRef .tc main_arg0) = _
  after_results
  first | done | rfl

theorem W1_arg1 : W1 m ρ c (Proc.devRef .tc main_arg1) = (m ((c : Thread nD τ).loc main_arg1)) := by
  show StableHlo.after hostOps0 (W0 m ρ c) (Proc.devRef .tc main_arg1) = _
  after_results
  first | done | rfl

theorem W1_arg2 : W1 m ρ c (Proc.devRef .tc main_arg2) = (m ((c : Thread nD τ).loc main_arg2)) := by
  show StableHlo.after hostOps0 (W0 m ρ c) (Proc.devRef .tc main_arg2) = _
  after_results
  first | done | rfl

theorem W1_arg3 : W1 m ρ c (Proc.devRef .tc main_arg3) = (m ((c : Thread nD τ).loc main_arg3)) := by
  show StableHlo.after hostOps0 (W0 m ρ c) (Proc.devRef .tc main_arg3) = _
  after_results
  first | done | rfl

theorem W1_arg4 : W1 m ρ c (Proc.devRef .tc main_arg4) = (m ((c : Thread nD τ).loc main_arg4)) := by
  show StableHlo.after hostOps0 (W0 m ρ c) (Proc.devRef .tc main_arg4) = _
  after_results
  first | done | rfl

theorem W1_arg5 : W1 m ρ c (Proc.devRef .tc main_arg5) = (m ((c : Thread nD τ).loc main_arg5)) := by
  show StableHlo.after hostOps0 (W0 m ρ c) (Proc.devRef .tc main_arg5) = _
  after_results
  first | done | rfl

theorem W1_arg6 : W1 m ρ c (Proc.devRef .tc main_arg6) = (m ((c : Thread nD τ).loc main_arg6)) := by
  show StableHlo.after hostOps0 (W0 m ρ c) (Proc.devRef .tc main_arg6) = _
  after_results
  first | done | rfl

/-! ### At the first region's exit -/

theorem W2_v1 : W2 m ρ c (Proc.devRef .tc main_v1) = tSrc (m ((c : Thread nD τ).loc main_arg7)) :=
  (W2_of_ne m ρ c main_v1 (by decide)).trans (W1_v1 m ρ c)
theorem W2_v3 : W2 m ρ c (Proc.devRef .tc main_v3) = tDst (m ((c : Thread nD τ).loc main_arg7)) :=
  (W2_of_ne m ρ c main_v3 (by decide)).trans (W1_v3 m ρ c)
theorem W2_v7 : W2 m ρ c (Proc.devRef .tc main_v7) = tIndeg (m ((c : Thread nD τ).loc main_arg7)) :=
  (W2_of_ne m ρ c main_v7 (by decide)).trans (W1_v7 m ρ c)
theorem W2_v10 : W2 m ρ c (Proc.devRef .tc main_v10) = tDis0 (m ((c : Thread nD τ).loc main_arg7)) :=
  (W2_of_ne m ρ c main_v10 (by decide)).trans (W1_v10 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-- The first region's result: the product scaled by the node weights, entry (i, k). -/
theorem W2_v12_at
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (i : Fin 100000) (k : Fin 64) :
    W2 m ρ c (Proc.devRef .tc main_v12) (ix2 i k) = Gcn.hs0 (kx m c) (kw1 m c) (kdst m c) i k := by
  refine (congrFun ((W2_arr m ρ c 3).trans (hf0 (V1 m ρ))) (ix2 i k)).trans ?_
  show Gcn.mm (fun i j => W1 m ρ c (Proc.devRef .tc main_arg0) (ix2 i j)) (fun j k => W1 m ρ c (Proc.devRef .tc main_arg1) (ix2 j k)) i k
      * W1 m ρ c (Proc.devRef .tc main_v11) (ix2 i (0 : Fin 1)) = _
  rw [W1_arg0, W1_arg1, W1_v11, tCol_apply, tDis0_apply]
  rfl

/-! ### After the second host stretch -/

/-- The scaled rows summed over the arriving edges. -/
theorem W3_v22 : W3 m ρ c (Proc.devRef .tc main_v22) = tAgg (W2 m ρ c (Proc.devRef .tc main_v1)) (W2 m ρ c (Proc.devRef .tc main_v3)) (W2 m ρ c (Proc.devRef .tc main_v12)) := by
  show StableHlo.after hostOps1 (W2 m ρ c) (Proc.devRef .tc main_v22) = _
  after_results
  first | done | rfl

/-- The first bias as a row. -/
theorem W3_v23 : W3 m ρ c (Proc.devRef .tc main_v23) = tRow (W2 m ρ c (Proc.devRef .tc main_arg2)) := by
  show StableHlo.after hostOps1 (W2 m ρ c) (Proc.devRef .tc main_v23) = _
  after_results
  first | done | rfl

/-- The scale as a row. -/
theorem W3_v24 : W3 m ρ c (Proc.devRef .tc main_v24) = tRow (W2 m ρ c (Proc.devRef .tc main_arg5)) := by
  show StableHlo.after hostOps1 (W2 m ρ c) (Proc.devRef .tc main_v24) = _
  after_results
  first | done | rfl

/-- The shift as a row. -/
theorem W3_v25 : W3 m ρ c (Proc.devRef .tc main_v25) = tRow (W2 m ρ c (Proc.devRef .tc main_arg6)) := by
  show StableHlo.after hostOps1 (W2 m ρ c) (Proc.devRef .tc main_v25) = _
  after_results
  first | done | rfl

/-- The node weights as a column, again. -/
theorem W3_v26 : W3 m ρ c (Proc.devRef .tc main_v26) = tCol (W2 m ρ c (Proc.devRef .tc main_v10)) := by
  show StableHlo.after hostOps1 (W2 m ρ c) (Proc.devRef .tc main_v26) = _
  after_results
  first | done | rfl

/-- Buffers the second host stretch does not write. -/
theorem W3_keep_v12 : W3 m ρ c (Proc.devRef .tc main_v12) = W2 m ρ c (Proc.devRef .tc main_v12) := by
  show StableHlo.after hostOps1 (W2 m ρ c) (Proc.devRef .tc main_v12) = _
  after_results
  first | done | rfl

theorem W3_keep_v1 : W3 m ρ c (Proc.devRef .tc main_v1) = W2 m ρ c (Proc.devRef .tc main_v1) := by
  show StableHlo.after hostOps1 (W2 m ρ c) (Proc.devRef .tc main_v1) = _
  after_results
  first | done | rfl

theorem W3_keep_v3 : W3 m ρ c (Proc.devRef .tc main_v3) = W2 m ρ c (Proc.devRef .tc main_v3) := by
  show StableHlo.after hostOps1 (W2 m ρ c) (Proc.devRef .tc main_v3) = _
  after_results
  first | done | rfl

theorem W3_keep_v7 : W3 m ρ c (Proc.devRef .tc main_v7) = W2 m ρ c (Proc.devRef .tc main_v7) := by
  show StableHlo.after hostOps1 (W2 m ρ c) (Proc.devRef .tc main_v7) = _
  after_results
  first | done | rfl

theorem W3_keep_arg3 : W3 m ρ c (Proc.devRef .tc main_arg3) = W2 m ρ c (Proc.devRef .tc main_arg3) := by
  show StableHlo.after hostOps1 (W2 m ρ c) (Proc.devRef .tc main_arg3) = _
  after_results
  first | done | rfl

theorem W3_keep_arg4 : W3 m ρ c (Proc.devRef .tc main_arg4) = W2 m ρ c (Proc.devRef .tc main_arg4) := by
  show StableHlo.after hostOps1 (W2 m ρ c) (Proc.devRef .tc main_arg4) = _
  after_results
  first | done | rfl

theorem W3_v22_at
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (i : Fin 100000) (k : Fin 64) :
    aA (V3 m ρ) c (ix2 i k) = Gcn.agg0K (kx m c) (kw1 m c) (ksrc m c) (kdst m c) i k := by
  show W3 m ρ c (Proc.devRef .tc main_v22) (ix2 i k) = _
  rw [W3_v22, tAgg_apply, W2_v1, W2_v3]
  show _ = ∑ e ∈ Gcn.hits (kdst m c) i, Gcn.hs0 (kx m c) (kw1 m c) (kdst m c) (Gcn.gsel (ksrc m c e)) k
  have hd : (fun e : Fin 1000000 => tDst (m ((c : Thread nD τ).loc main_arg7)) (ix1 e)) = kdst m c :=
    funext fun e => tDst_apply _ e
  rw [hd]
  refine Finset.sum_congr rfl fun e _ => ?_
  rw [tSrc_apply, W2_v12_at m ρ c hf0]

theorem W3_v12_at
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (i : Fin 100000) (k : Fin 64) :
    aH (V3 m ρ) c (ix2 i k) = Gcn.hs0 (kx m c) (kw1 m c) (kdst m c) i k := by
  show W3 m ρ c (Proc.devRef .tc main_v12) (ix2 i k) = _
  rw [W3_keep_v12, W2_v12_at m ρ c hf0]

theorem W3_v23_at (z : Fin 1) (k : Fin 64) : aB (V3 m ρ) c (ix2 z k) = kb1 m c k := by
  show W3 m ρ c (Proc.devRef .tc main_v23) (ix2 z k) = _
  rw [W3_v23, tRow_apply, W2_arg2]

theorem W3_v24_at (z : Fin 1) (k : Fin 64) : aG (V3 m ρ) c (ix2 z k) = kg m c k := by
  show W3 m ρ c (Proc.devRef .tc main_v24) (ix2 z k) = _
  rw [W3_v24, tRow_apply, W2_arg5]

theorem W3_v25_at (z : Fin 1) (k : Fin 64) : aBt (V3 m ρ) c (ix2 z k) = kbt m c k := by
  show W3 m ρ c (Proc.devRef .tc main_v25) (ix2 z k) = _
  rw [W3_v25, tRow_apply, W2_arg6]

theorem W3_v26_at (i : Fin 100000) (z : Fin 1) : aD (V3 m ρ) c (ix2 i z) = Gcn.dis0 (kdst m c) i := by
  show W3 m ρ c (Proc.devRef .tc main_v26) (ix2 i z) = _
  rw [W3_v26, tCol_apply, W2_v10, tDis0_apply]

/-! ### At the second region's exit -/

/-- Node i's row before the normalisation, as the second region reads it. -/
theorem row_eq
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (i : Fin 100000) :
    aRow (V3 m ρ) c i = Gcn.val0K (kx m c) (kw1 m c) (kb1 m c) (ksrc m c) (kdst m c) i :=
  funext fun k => by
    show aD (V3 m ρ) c (ix2 i (0 : Fin 1)) * (aA (V3 m ρ) c (ix2 i k) + aH (V3 m ρ) c (ix2 i k)) + aB (V3 m ρ) c (ix2 (0 : Fin 1) k) = _
    rw [W3_v26_at, W3_v22_at m ρ c hf0, W3_v12_at m ρ c hf0, W3_v23_at]
    rfl

theorem scale_eq : aScale (V3 m ρ) c = kg m c :=
  funext fun k => W3_v24_at m ρ c 0 k

theorem shift_eq : aShift (V3 m ρ) c = kbt m c :=
  funext fun k => W3_v25_at m ρ c 0 k

/-- The first layer's rows. -/
theorem W4_v27_0
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (hf16 : ∀ V : (c : Dev nD) → (b : Ref sig .tc) → Buf (Elt Ideal) ((c : Thread nD τ).loc b),
      (dat1 (F := Ideal) V c).arrAt 6 cfg1.N = fun y : S100000x64.Idx =>
        Cert.Gcn.lnrelu (aRow V c (y 0)) (aScale V c) (aShift V c) (y 1)) :
    W4 m ρ c (Proc.devRef .tc main_v27_0) = fun y : S100000x64.Idx =>
      Cert.Gcn.h1K (kx m c) (kw1 m c) (kb1 m c) (kg m c) (kbt m c) (ksrc m c) (kdst m c) (y 0) (y 1) := by
  refine (W4_arr m ρ c 6).trans ((hf16 (V3 m ρ)).trans ?_)
  funext y
  exact congrFun (congr (congr (congrArg Gcn.lnrelu (row_eq m ρ c hf0 (y 0))) (scale_eq m ρ c)) (shift_eq m ρ c)) (y 1)

/-- The first layer's row norms. -/
theorem W4_v27_1
    (hf0 : ∀ V : (c : Dev nD) → (b : Ref sig .tc) → Buf (Elt Ideal) ((c : Thread nD τ).loc b),
      (dat0 (F := Ideal) V c).arrAt 3 cfg0.N = fun y : S100000x64.Idx =>
        Cert.Gcn.mm (fun i j => V c main_arg0 (ix2 i j)) (fun j k => V c main_arg1 (ix2 j k)) (y 0) (y 1) * V c main_v11 (ix2 (y 0) 0))
    (hf17 : ∀ V : (c : Dev nD) → (b : Ref sig .tc) → Buf (Elt Ideal) ((c : Thread nD τ).loc b),
      (dat1 (F := Ideal) V c).arrAt 7 cfg1.N = fun y : S100000x1.Idx =>
        Cert.Gcn.rownorm (Cert.Gcn.lnrelu (aRow V c (y 0)) (aScale V c) (aShift V c))) :
    W4 m ρ c (Proc.devRef .tc main_v27_1) = fun y : S100000x1.Idx =>
      Cert.Gcn.sK (kx m c) (kw1 m c) (kb1 m c) (kg m c) (kbt m c) (ksrc m c) (kdst m c) (y 0) := by
  refine (W4_arr m ρ c 7).trans ((hf17 (V3 m ρ)).trans ?_)
  funext y
  exact congrArg Gcn.rownorm (congr (congr (congrArg Gcn.lnrelu (row_eq m ρ c hf0 (y 0))) (scale_eq m ρ c)) (shift_eq m ρ c))

/-- The source words are still there. -/
theorem W4_v1 : W4 m ρ c (Proc.devRef .tc main_v1) = fun y : S1000000.Idx => ksrc m c (y 0) := by
  refine (W4_of_ne m ρ c main_v1 (by decide)).trans ((W3_keep_v1 m ρ c).trans ((W2_v1 m ρ c).trans ?_))
  funext y
  exact (congrArg _ (eq_ix1 y)).trans (tSrc_apply _ (y 0))

/-- The destination words are still there. -/
theorem W4_v3 : W4 m ρ c (Proc.devRef .tc main_v3) = fun y : S1000000.Idx => kdst m c (y 0) := by
  refine (W4_of_ne m ρ c main_v3 (by decide)).trans ((W3_keep_v3 m ρ c).trans ((W2_v3 m ρ c).trans ?_))
  funext y
  exact (congrArg _ (eq_ix1 y)).trans (tDst_apply _ (y 0))

/-- The in-degree is still there. -/
theorem W4_v7 : W4 m ρ c (Proc.devRef .tc main_v7) = fun y : S100000.Idx => Cert.Gcn.indeg (kdst m c) (y 0) := by
  refine (W4_of_ne m ρ c main_v7 (by decide)).trans ((W3_keep_v7 m ρ c).trans ((W2_v7 m ρ c).trans ?_))
  funext y
  exact (congrArg _ (eq_ix1 y)).trans (tIndeg_apply _ (y 0))

/-- The second weight matrix is as launched. -/
theorem W4_arg3 : W4 m ρ c (Proc.devRef .tc main_arg3) = m ((c : Thread nD τ).loc main_arg3) :=
  (W4_of_ne m ρ c main_arg3 (by decide)).trans ((W3_keep_arg3 m ρ c).trans (W2_arg3 m ρ c))

/-- The second bias is as launched. -/
theorem W4_arg4 : W4 m ρ c (Proc.devRef .tc main_arg4) = m ((c : Thread nD τ).loc main_arg4) :=
  (W4_of_ne m ρ c main_arg4 (by decide)).trans ((W3_keep_arg4 m ρ c).trans (W2_arg4 m ρ c))

end Run

end Cert.KernelIdeal.KValue1

end
-- ==== Proof.KValue2.lean ====
/-
  The second half of the kernel program between its launches, read as the graph convolution's second layer.

  After the first two launches the program holds the hidden layer h1 (one row of 64 per node) and the Euclidean norm
  s of each of its rows. The host then rescales the norms between their minimum and maximum, thresholds them into a
  0/1 mask per node, and from the mask and the in-degrees makes the second layer's node weights
  d = rsqrt(mask * indeg + 1). The third launch leaves (h1 W2)(i, k) * d(i) in a 16-bit array (the narrowing is the
  identity over the extended reals). The host then gathers, for every edge, the row of that array its source word
  reads, and sums these rows into the node each destination word names; the fourth launch scales the sum by
  d(i) * mask(i), adds the node's own row times d(i) and the bias, and takes the row's log-softmax. Each buffer is
  read at an index as the function of the graph convolution's specification it holds.
-/
import proofs.«122454_j84129819394303_2_alg».proof.Proof.Gen.KernelIdeal.Frame
import proofs.«122454_j84129819394303_2_alg».proof.Proof.GcnSpec
import proofs.«122454_j84129819394303_2_alg».proof.Proof.HostIdx
import proofs.«122454_j84129819394303_2_alg».proof.Proof.HostRead
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open Idealize.ShloMosaic.StableHlo

namespace Cert.KernelIdeal.KValue2

open Cert.KernelIdeal Cert.KernelIdeal.Gen Cert.Gcn.HostIdx Cert.Gcn.HostRead

variable (m : (ℓ : Loc nD τ sig) → Buf (Elt Ideal) ℓ) (ρ : Dev nD → PrngReg) (c : Dev nD)

/-! ## The host's operations between the second and the third launch, as functions of the norms and the degrees -/

section Pure

variable (N : FVec Ideal S100000 .f32) (D : S100000.Idx → EReal) (s deg : Fin 100000 → EReal)

/-- The minimum and the maximum of the vector of norms, each a rank-0 array. -/
def minV : FVec Ideal S_ .f32 :=
  Host.reduce FloatOps.minimumf N (constant (F := Ideal) S_ .f32 0x7F800000#32) reducesTo_S100000_S_d0 h_S_
def maxV : FVec Ideal S_ .f32 :=
  Host.reduce FloatOps.maximumf N (constant (F := Ideal) S_ .f32 0xFF800000#32) reducesTo_S100000_S_d0 h_S_

/-- The norms less their minimum, over the range plus the small constant. -/
def rescaledV : FVec Ideal S100000 .f32 :=
  Host.divf (subf N (broadcastInDim S100000 ![] bcast_S_S100000 (minV N)))
    (broadcastInDim S100000 ![] bcast_S_S100000
      (addf (subf (maxV N) (minV N)) (constant (F := Ideal) S_ .f32 0x322BCC77#32)))

/-- The mask: 1 where the rescaled norm exceeds the threshold, 0 elsewhere. -/
def maskV : FVec Ideal S100000 .f32 :=
  uitofp .f32 (cmpf .ogt (rescaledV N)
    (broadcastInDim S100000 ![] bcast_S_S100000 (constant (F := Ideal) S_ .f32 0x3DCCCCCD#32)))

/-- The second layer's node weights: the inverse square root of mask times in-degree plus one. -/
def disV : FVec Ideal S100000 .f32 :=
  Host.rsqrt (addf (mulf (maskV N) D)
    (broadcastInDim S100000 ![] bcast_S_S100000 (constant (F := Ideal) S_ .f32 0x3F800000#32)))

variable {N D s deg}

/-- The host's quotient, inverse square root and thresholding read at an index. -/
theorem hostDivf_apply {sh : Shape} {φ : FTy} (a b : FVec Ideal sh φ) (j : sh.Idx) :
    Host.divf a b j = Ideal.div (a j) (b j) := rfl
theorem hostRsqrt_apply {sh : Shape} {φ : FTy} (a : FVec Ideal sh φ) (j : sh.Idx) :
    Host.rsqrt a j = Ideal.rsqrt (a j) := rfl
theorem indicator_apply {sh : Shape} {φ : FTy} (p : CmpFPredicate) (a b : FVec Ideal sh φ) (j : sh.Idx) :
    uitofp (F := Ideal) .f32 (cmpf p a b) j = FloatOps.uitofp (F := Ideal) .f32 (Ideal.cmp p (a j) (b j)) := rfl

theorem norms_fun (hN : ∀ i : Fin 100000, N (ix1 i) = s i) : (fun i : Fin 100000 => N (ix1 i)) = s :=
  funext hN

theorem minV_apply (hN : ∀ i : Fin 100000, N (ix1 i) = s i) (j : S_.Idx) : minV N j = Cert.Gcn.rminF s := by
  unfold minV
  rw [reduce_min_apply, norms_fun hN]

theorem maxV_apply (hN : ∀ i : Fin 100000, N (ix1 i) = s i) (j : S_.Idx) : maxV N j = Cert.Gcn.rmaxF s := by
  unfold maxV
  rw [reduce_max_apply, norms_fun hN]

theorem rescaledV_apply (hN : ∀ i : Fin 100000, N (ix1 i) = s i) (i : Fin 100000) :
    rescaledV N (ix1 i)
      = Ideal.div (s i - Cert.Gcn.rminF s) ((Cert.Gcn.rmaxF s - Cert.Gcn.rminF s) + Cert.Gcn.ceps8) := by
  unfold rescaledV Cert.Gcn.ceps8
  rw [hostDivf_apply, subf_apply, splat_apply, splat_apply, addf_apply, subf_apply, constant_apply,
    hN, minV_apply hN, maxV_apply hN]

theorem maskV_apply (hN : ∀ i : Fin 100000, N (ix1 i) = s i) (i : Fin 100000) :
    maskV N (ix1 i) = Cert.Gcn.maskOf Cert.Gcn.rminF Cert.Gcn.rmaxF s i := by
  unfold maskV Cert.Gcn.maskOf Cert.Gcn.cthr
  rw [indicator_apply, splat_apply, constant_apply, rescaledV_apply hN]

theorem disV_apply (hN : ∀ i : Fin 100000, N (ix1 i) = s i) (hD : D = fun y => deg (y 0)) (i : Fin 100000) :
    disV N D (ix1 i) = Ideal.rsqrt (Cert.Gcn.maskOf Cert.Gcn.rminF Cert.Gcn.rmaxF s i * deg i + Cert.Gcn.one) := by
  subst hD
  unfold disV Cert.Gcn.one
  rw [hostRsqrt_apply, addf_apply, mulf_apply, splat_apply, constant_apply, maskV_apply hN]

end Pure

/-! ## The host's gather and sum over the edges, as a function of the rows, the source words and the destination words -/

section PureEdges

variable (H : FVec Ideal S100000x64 .bf16) (Sv Dv : IVec S1000000 32) (src dst : Fin 1000000 → BitVec 32)

/-- The source words, a negative one moved up by the node count. -/
def srcNormV : IVec S1000000 32 :=
  select (cmpi .slt Sv (broadcastInDim S1000000 ![] bcast_S_S1000000 (constantI S_ 32 0#32)))
    (addi Sv (broadcastInDim S1000000 ![] bcast_S_S1000000 (constantI S_ 32 100000#32))) Sv

/-- For every edge the row its source word reads, widened; all summed into the rows their destination words name,
    from zero. -/
def aggV : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 Dv)
    (extf .f32 (Host.gather gather_S100000x64_S1000000x1_S1000000x64_1_0_n_n_0_1_164 H
      (broadcastInDim S1000000x1 ![0] bcast_S1000000_S1000000x1_0 (srcNormV Sv))) bitsLt_bf16_f32)

variable {H Sv Dv src dst}

theorem srcNormV_apply (hS : Sv = fun y => src (y 0)) (e : Fin 1000000) :
    srcNormV Sv (ix1 e) = Cert.Gcn.norm32 (src e) := by
  subst hS
  exact select_slt_add (src e)

theorem aggV_apply (hS : Sv = fun y => src (y 0)) (hD : Dv = fun y => dst (y 0)) (i : Fin 100000) (k : Fin 64) :
    aggV H Sv Dv (ix2 i k) = ∑ e ∈ Cert.Gcn.hits dst i, H (ix2 (Cert.Gcn.gsel (src e)) k) := by
  unfold aggV
  rw [scatterAdd_rows_apply _ rfl rfl rfl rfl, splat_apply, constant_apply, Ideal.ofBits_zero_f32, zero_add]
  have hf : (Finset.univ.filter fun e : Fin 1000000 =>
      (broadcastInDim S1000000x1 ![0] bcast_S1000000_S1000000x1_0 Dv (ix2 e 0)).toInt = (i.val : Int))
      = Cert.Gcn.hits dst i := by
    unfold Cert.Gcn.hits
    refine Finset.filter_congr fun e _ => ?_
    rw [col_apply, hD]
  rw [hf]
  refine Finset.sum_congr rfl fun e _ => ?_
  rw [extf_apply, gather_rows_apply _ rfl rfl rfl rfl rfl rfl rfl, col_apply, srcNormV_apply hS]
  rfl

end PureEdges

/-! ## The buffers when the third launch begins -/

section Boundary5

/-- The vector of norms, read at a node, is that node's entry of the column the second launch left. -/
theorem w5_norms (i : Fin 100000) :
    W5 m ρ c (Proc.devRef .tc main_v28) (ix1 i) = W4 m ρ c (Proc.devRef .tc main_v27_1) (ix2 i 0) := by
  show StableHlo.after hostOps2 (W4 m ρ c) (Proc.devRef .tc main_v28) (ix1 i) = _
  after_results
  exact reshape_uncol shapeCasts_S100000x1_S100000 _ i

set_option maxHeartbeats 2000000 in
/-- The mask buffer is the mask of the vector of norms. -/
theorem w5_mask : W5 m ρ c (Proc.devRef .tc main_v39) = maskV (W5 m ρ c (Proc.devRef .tc main_v28)) := by
  show StableHlo.after hostOps2 (W4 m ρ c) (Proc.devRef .tc main_v39)
    = maskV (StableHlo.after hostOps2 (W4 m ρ c) (Proc.devRef .tc main_v28))
  after_results_simp
  rfl

set_option maxHeartbeats 2000000 in
/-- The node-weight buffer is the weights made from the vector of norms and the in-degrees. -/
theorem w5_dis : W5 m ρ c (Proc.devRef .tc main_v43)
    = disV (W5 m ρ c (Proc.devRef .tc main_v28)) (W4 m ρ c (Proc.devRef .tc main_v7)) := by
  show StableHlo.after hostOps2 (W4 m ρ c) (Proc.devRef .tc main_v43)
    = disV (StableHlo.after hostOps2 (W4 m ρ c) (Proc.devRef .tc main_v28)) (W4 m ρ c (Proc.devRef .tc main_v7))
  after_results_simp
  rfl

set_option maxHeartbeats 2000000 in
/-- The node weights as a column. -/
theorem w5_discol (i : Fin 100000) :
    W5 m ρ c (Proc.devRef .tc main_v44) (ix2 i 0) = W5 m ρ c (Proc.devRef .tc main_v43) (ix1 i) := by
  show StableHlo.after hostOps2 (W4 m ρ c) (Proc.devRef .tc main_v44) (ix2 i 0)
    = StableHlo.after hostOps2 (W4 m ρ c) (Proc.devRef .tc main_v43) (ix1 i)
  after_results_simp
  exact reshape_col shapeCasts_S100000_S100000x1 _ i 0

/-- The host's operations before the third launch write none of these. -/
theorem w5_keep_h1 : W5 m ρ c (Proc.devRef .tc main_v27_0) = W4 m ρ c (Proc.devRef .tc main_v27_0) := by
  show StableHlo.after hostOps2 (W4 m ρ c) (Proc.devRef .tc main_v27_0) = _
  after_results
theorem w5_keep_w2 : W5 m ρ c (Proc.devRef .tc main_arg3) = W4 m ρ c (Proc.devRef .tc main_arg3) := by
  show StableHlo.after hostOps2 (W4 m ρ c) (Proc.devRef .tc main_arg3) = _
  after_results
theorem w5_keep_b2 : W5 m ρ c (Proc.devRef .tc main_arg4) = W4 m ρ c (Proc.devRef .tc main_arg4) := by
  show StableHlo.after hostOps2 (W4 m ρ c) (Proc.devRef .tc main_arg4) = _
  after_results
theorem w5_keep_src : W5 m ρ c (Proc.devRef .tc main_v1) = W4 m ρ c (Proc.devRef .tc main_v1) := by
  show StableHlo.after hostOps2 (W4 m ρ c) (Proc.devRef .tc main_v1) = _
  after_results
theorem w5_keep_dst : W5 m ρ c (Proc.devRef .tc main_v3) = W4 m ρ c (Proc.devRef .tc main_v3) := by
  show StableHlo.after hostOps2 (W4 m ρ c) (Proc.devRef .tc main_v3) = _
  after_results

end Boundary5

/-! ## The same buffers as the second layer's quantities -/

section Layer

variable (x : Fin 100000 → Fin 128 → EReal) (w1 : Fin 128 → Fin 64 → EReal) (b1 g bt : Fin 64 → EReal)
  (src dst : Fin 1000000 → BitVec 32)

/-- The second layer's weight matrix and bias, as the program was launched with them. -/
abbrev w2 : Fin 64 → Fin 64 → EReal := fun j k => m ((c : Thread nD τ).loc main_arg3) (ix2 j k)
abbrev b2 : Fin 64 → EReal := fun k => m ((c : Thread nD τ).loc main_arg4) (ix1 k)

variable {x w1 b1 g bt src dst}

/-- The vector of norms holds the row norms of the hidden layer. -/
theorem w5_norms_eq (hs : W4 m ρ c (Proc.devRef .tc main_v27_1) = fun y : S100000x1.Idx => Cert.Gcn.sK x w1 b1 g bt src dst (y 0)) (i : Fin 100000) :
    W5 m ρ c (Proc.devRef .tc main_v28) (ix1 i) = Cert.Gcn.sK x w1 b1 g bt src dst i := by
  rw [w5_norms, hs]

/-- The mask buffer holds the node mask. -/
theorem w5_mask_eq (hs : W4 m ρ c (Proc.devRef .tc main_v27_1) = fun y : S100000x1.Idx => Cert.Gcn.sK x w1 b1 g bt src dst (y 0)) (i : Fin 100000) :
    W5 m ρ c (Proc.devRef .tc main_v39) (ix1 i) = Cert.Gcn.maskK x w1 b1 g bt src dst Cert.Gcn.rminF Cert.Gcn.rmaxF i := by
  rw [w5_mask]
  exact maskV_apply (w5_norms_eq m ρ c hs) i

/-- The node-weight buffer holds the second layer's node weights. -/
theorem w5_dis_eq (hs : W4 m ρ c (Proc.devRef .tc main_v27_1) = fun y : S100000x1.Idx => Cert.Gcn.sK x w1 b1 g bt src dst (y 0)) (hdeg : W4 m ρ c (Proc.devRef .tc main_v7) = fun y : S100000.Idx => Cert.Gcn.indeg dst (y 0)) (i : Fin 100000) :
    W5 m ρ c (Proc.devRef .tc main_v43) (ix1 i) = Cert.Gcn.dis1K x w1 b1 g bt src dst Cert.Gcn.rminF Cert.Gcn.rmaxF i := by
  rw [w5_dis]
  exact disV_apply (w5_norms_eq m ρ c hs) hdeg i

/-! ## After the third launch -/

/-- The third launch leaves the hidden layer times the weight matrix, each row scaled by its node's weight. -/
theorem w6_hs (hh1 : W4 m ρ c (Proc.devRef .tc main_v27_0) = fun y : S100000x64.Idx => Cert.Gcn.h1K x w1 b1 g bt src dst (y 0) (y 1)) (hs : W4 m ρ c (Proc.devRef .tc main_v27_1) = fun y : S100000x1.Idx => Cert.Gcn.sK x w1 b1 g bt src dst (y 0)) (hdeg : W4 m ρ c (Proc.devRef .tc main_v7) = fun y : S100000.Idx => Cert.Gcn.indeg dst (y 0)) (h3 : W4 m ρ c (Proc.devRef .tc main_arg3) = m ((c : Thread nD τ).loc main_arg3)) (hf2 : ∀ V, (dat2 (F := Ideal) V c).arrAt 3 cfg2.N = fun y : S100000x64.Idx => Cert.Gcn.mm (fun i j => V c main_v27_0 (ix2 i j)) (fun j k => V c main_arg3 (ix2 j k)) (y 0) (y 1) * V c main_v44 (ix2 (y 0) 0)) :
    W6 m ρ c (Proc.devRef .tc main_v45)
      = fun y : S100000x64.Idx => Cert.Gcn.hs1 x w1 b1 g bt (w2 m c) src dst Cert.Gcn.rminF Cert.Gcn.rmaxF (y 0) (y 1) := by
  refine (W6_arr m ρ c 3).trans ((hf2 (V5 m ρ)).trans ?_)
  funext y
  unfold Cert.Gcn.hs1
  refine congrArg₂ (· * ·) ?_ ?_
  · refine congrArg₂ (fun (a : Fin 100000 → Fin 64 → EReal) (w : Fin 64 → Fin 64 → EReal) => Cert.Gcn.mm a w (y 0) (y 1))
      (funext fun i => funext fun j => ?_) (funext fun j => funext fun k => ?_)
    · show W5 m ρ c (Proc.devRef .tc main_v27_0) (ix2 i j) = _
      rw [w5_keep_h1, hh1]
    · show W5 m ρ c (Proc.devRef .tc main_arg3) (ix2 j k) = _
      rw [w5_keep_w2, h3]
  · exact (w5_discol m ρ c (y 0)).trans (w5_dis_eq m ρ c hs hdeg (y 0))

end Layer

/-! ## The buffers when the fourth launch begins -/

section Boundary7

/-- The third launch writes none of these. -/
theorem w6_keep_src : W6 m ρ c (Proc.devRef .tc main_v1) = W5 m ρ c (Proc.devRef .tc main_v1) :=
  W6_of_ne m ρ c main_v1 (by decide)
theorem w6_keep_dst : W6 m ρ c (Proc.devRef .tc main_v3) = W5 m ρ c (Proc.devRef .tc main_v3) :=
  W6_of_ne m ρ c main_v3 (by decide)
theorem w6_keep_mask : W6 m ρ c (Proc.devRef .tc main_v39) = W5 m ρ c (Proc.devRef .tc main_v39) :=
  W6_of_ne m ρ c main_v39 (by decide)
theorem w6_keep_dis : W6 m ρ c (Proc.devRef .tc main_v43) = W5 m ρ c (Proc.devRef .tc main_v43) :=
  W6_of_ne m ρ c main_v43 (by decide)
theorem w6_keep_b2 : W6 m ρ c (Proc.devRef .tc main_arg4) = W5 m ρ c (Proc.devRef .tc main_arg4) :=
  W6_of_ne m ρ c main_arg4 (by decide)

/-- The summed buffer is the gather and sum over the edges of the third launch's rows. -/
theorem w7_agg : W7 m ρ c (Proc.devRef .tc main_v56)
    = aggV (W6 m ρ c (Proc.devRef .tc main_v45)) (W6 m ρ c (Proc.devRef .tc main_v1)) (W6 m ρ c (Proc.devRef .tc main_v3)) := by
  show StableHlo.after hostOps3 (W6 m ρ c) (Proc.devRef .tc main_v56) = _
  after_results_simp
  rfl

/-- The bias as one row, the node weights and the mask as columns. -/
theorem w7_bias (k : Fin 64) :
    W7 m ρ c (Proc.devRef .tc main_v57) (ix2 0 k) = W6 m ρ c (Proc.devRef .tc main_arg4) (ix1 k) := by
  show StableHlo.after hostOps3 (W6 m ρ c) (Proc.devRef .tc main_v57) (ix2 0 k) = _
  after_results_simp
  exact reshape_row shapeCasts_S64_S1x64 _ 0 k
theorem w7_dis (i : Fin 100000) :
    W7 m ρ c (Proc.devRef .tc main_v58) (ix2 i 0) = W6 m ρ c (Proc.devRef .tc main_v43) (ix1 i) := by
  show StableHlo.after hostOps3 (W6 m ρ c) (Proc.devRef .tc main_v58) (ix2 i 0) = _
  after_results_simp
  exact reshape_col shapeCasts_S100000_S100000x1 _ i 0
theorem w7_mask (i : Fin 100000) :
    W7 m ρ c (Proc.devRef .tc main_v59) (ix2 i 0) = W6 m ρ c (Proc.devRef .tc main_v39) (ix1 i) := by
  show StableHlo.after hostOps3 (W6 m ρ c) (Proc.devRef .tc main_v59) (ix2 i 0) = _
  after_results_simp
  exact reshape_col shapeCasts_S100000_S100000x1 _ i 0

/-- The host's operations before the fourth launch do not write the third launch's result. -/
theorem w7_keep_hs : W7 m ρ c (Proc.devRef .tc main_v45) = W6 m ρ c (Proc.devRef .tc main_v45) := by
  show StableHlo.after hostOps3 (W6 m ρ c) (Proc.devRef .tc main_v45) = _
  after_results_simp

end Boundary7

/-! ## The result -/

section Result

variable {x : Fin 100000 → Fin 128 → EReal} {w1 : Fin 128 → Fin 64 → EReal} {b1 g bt : Fin 64 → EReal}
  {src dst : Fin 1000000 → BitVec 32}

/-- The five arrays the fourth launch reads, each read at an entry as an extended real: the node weight and the node
    mask (one column each), the edge sum and the scaled rows (one row of 64 per node), the bias (one row). -/
abbrev rdDis (V : (c : Dev nD) → (b : Ref sig .tc) → Buf (Elt Ideal) ((c : Thread nD τ).loc b)) (c : Dev nD) (i : Fin 100000) : EReal := V c main_v58 (ix2 i 0)
abbrev rdMask (V : (c : Dev nD) → (b : Ref sig .tc) → Buf (Elt Ideal) ((c : Thread nD τ).loc b)) (c : Dev nD) (i : Fin 100000) : EReal := V c main_v59 (ix2 i 0)
abbrev rdAgg (V : (c : Dev nD) → (b : Ref sig .tc) → Buf (Elt Ideal) ((c : Thread nD τ).loc b)) (c : Dev nD) (i : Fin 100000) (k : Fin 64) : EReal := V c main_v56 (ix2 i k)
abbrev rdHs (V : (c : Dev nD) → (b : Ref sig .tc) → Buf (Elt Ideal) ((c : Thread nD τ).loc b)) (c : Dev nD) (i : Fin 100000) (k : Fin 64) : EReal := V c main_v45 (ix2 i k)
abbrev rdBias (V : (c : Dev nD) → (b : Ref sig .tc) → Buf (Elt Ideal) ((c : Thread nD τ).loc b)) (c : Dev nD) (k : Fin 64) : EReal := V c main_v57 (ix2 0 k)

/-- The summed buffer holds the second layer's sum over the incoming edges. -/
theorem w7_agg_eq (hh1 : W4 m ρ c (Proc.devRef .tc main_v27_0) = fun y : S100000x64.Idx => Cert.Gcn.h1K x w1 b1 g bt src dst (y 0) (y 1)) (hs : W4 m ρ c (Proc.devRef .tc main_v27_1) = fun y : S100000x1.Idx => Cert.Gcn.sK x w1 b1 g bt src dst (y 0)) (hsrc : W4 m ρ c (Proc.devRef .tc main_v1) = fun y : S1000000.Idx => src (y 0)) (hdst : W4 m ρ c (Proc.devRef .tc main_v3) = fun y : S1000000.Idx => dst (y 0)) (hdeg : W4 m ρ c (Proc.devRef .tc main_v7) = fun y : S100000.Idx => Cert.Gcn.indeg dst (y 0)) (h3 : W4 m ρ c (Proc.devRef .tc main_arg3) = m ((c : Thread nD τ).loc main_arg3)) (hf2 : ∀ V, (dat2 (F := Ideal) V c).arrAt 3 cfg2.N = fun y : S100000x64.Idx => Cert.Gcn.mm (fun i j => V c main_v27_0 (ix2 i j)) (fun j k => V c main_arg3 (ix2 j k)) (y 0) (y 1) * V c main_v44 (ix2 (y 0) 0)) (i : Fin 100000) (k : Fin 64) :
    W7 m ρ c (Proc.devRef .tc main_v56) (ix2 i k) = Cert.Gcn.agg1K x w1 b1 g bt (w2 m c) src dst Cert.Gcn.rminF Cert.Gcn.rmaxF i k := by
  rw [w7_agg, aggV_apply ((w6_keep_src m ρ c).trans ((w5_keep_src m ρ c).trans hsrc))
    ((w6_keep_dst m ρ c).trans ((w5_keep_dst m ρ c).trans hdst)) i k, w6_hs m ρ c hh1 hs hdeg h3 hf2]
  rfl

/-- The program's result: the second layer's output, the log-softmax of each node's row. -/
theorem w8_out (hh1 : W4 m ρ c (Proc.devRef .tc main_v27_0) = fun y : S100000x64.Idx => Cert.Gcn.h1K x w1 b1 g bt src dst (y 0) (y 1))
    (hs : W4 m ρ c (Proc.devRef .tc main_v27_1) = fun y : S100000x1.Idx => Cert.Gcn.sK x w1 b1 g bt src dst (y 0))
    (hsrc : W4 m ρ c (Proc.devRef .tc main_v1) = fun y : S1000000.Idx => src (y 0))
    (hdst : W4 m ρ c (Proc.devRef .tc main_v3) = fun y : S1000000.Idx => dst (y 0))
    (hdeg : W4 m ρ c (Proc.devRef .tc main_v7) = fun y : S100000.Idx => Cert.Gcn.indeg dst (y 0))
    (h3 : W4 m ρ c (Proc.devRef .tc main_arg3) = m ((c : Thread nD τ).loc main_arg3))
    (h4 : W4 m ρ c (Proc.devRef .tc main_arg4) = m ((c : Thread nD τ).loc main_arg4))
    (hf2 : ∀ V, (dat2 (F := Ideal) V c).arrAt 3 cfg2.N = fun y : S100000x64.Idx => Cert.Gcn.mm (fun i j => V c main_v27_0 (ix2 i j)) (fun j k => V c main_arg3 (ix2 j k)) (y 0) (y 1) * V c main_v44 (ix2 (y 0) 0))
    (hf3 : ∀ V, (dat3 (F := Ideal) V c).arrAt 5 cfg3.N = fun y : S100000x64.Idx => Cert.Gcn.lsm (fun k => (rdDis V c (y 0) * rdMask V c (y 0)) * rdAgg V c (y 0) k + rdHs V c (y 0) k * rdDis V c (y 0) + rdBias V c k) (y 1)) :
    W8 m ρ c (Proc.devRef .tc main_v60) = fun y : S100000x64.Idx =>
      Cert.Gcn.outK x w1 b1 g bt (w2 m c) (b2 m c) src dst Cert.Gcn.rminF Cert.Gcn.rmaxF (y 0) (y 1) := by
  refine (W8_arr m ρ c 5).trans ((hf3 (V7 m ρ)).trans ?_)
  funext y
  unfold Cert.Gcn.outK
  refine congrArg (fun v : Fin 64 → EReal => Cert.Gcn.lsm v (y 1)) (funext fun k => ?_)
  unfold Cert.Gcn.val1K
  have e58 : rdDis (V7 m ρ) c (y 0) = Cert.Gcn.dis1K x w1 b1 g bt src dst Cert.Gcn.rminF Cert.Gcn.rmaxF (y 0) :=
    (w7_dis m ρ c (y 0)).trans ((congrFun (w6_keep_dis m ρ c) _).trans (w5_dis_eq m ρ c hs hdeg (y 0)))
  have e59 : rdMask (V7 m ρ) c (y 0) = Cert.Gcn.maskK x w1 b1 g bt src dst Cert.Gcn.rminF Cert.Gcn.rmaxF (y 0) :=
    (w7_mask m ρ c (y 0)).trans ((congrFun (w6_keep_mask m ρ c) _).trans (w5_mask_eq m ρ c hs (y 0)))
  have e56 : rdAgg (V7 m ρ) c (y 0) k = Cert.Gcn.agg1K x w1 b1 g bt (w2 m c) src dst Cert.Gcn.rminF Cert.Gcn.rmaxF (y 0) k :=
    w7_agg_eq m ρ c hh1 hs hsrc hdst hdeg h3 hf2 (y 0) k
  have e45 : rdHs (V7 m ρ) c (y 0) k = Cert.Gcn.hs1 x w1 b1 g bt (w2 m c) src dst Cert.Gcn.rminF Cert.Gcn.rmaxF (y 0) k :=
    (congrFun (w7_keep_hs m ρ c) _).trans (congrFun (w6_hs m ρ c hh1 hs hdeg h3 hf2) _)
  have e57 : rdBias (V7 m ρ) c k = b2 m c k :=
    (w7_bias m ρ c k).trans ((congrFun (w6_keep_b2 m ρ c) _).trans ((congrFun (w5_keep_b2 m ρ c) _).trans (congrFun h4 _)))
  rw [e58, e59, e56, e45, e57]

end Result

end Cert.KernelIdeal.KValue2

end
-- ==== Proof.RefValue0.lean ====
/-
  The reference program's first layer, read at an index.

  Each of its values is written as the edgewise arrangement's function of the inputs: the node weights (the inverse
  square roots of the degrees with the self loop), the aggregated and biased rows, their normalisation with the positive
  part, and the rows' Euclidean norms. An edge's source and destination words are rows 0 and 1 of the edge list.
-/
import proofs.«122454_j84129819394303_2_alg».proof.Proof.RefReadP
import proofs.«122454_j84129819394303_2_alg».proof.Proof.GcnSpec
import proofs.«122454_j84129819394303_2_alg».proof.Proof.HostIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Gcn

variable (x0 : (⟨S100000x128, .f32⟩ : BufTy).Contents (Elt Ideal)) (x1 : (⟨S128x64, .f32⟩ : BufTy).Contents (Elt Ideal))
  (x2 x5 x6 : (⟨S64, .f32⟩ : BufTy).Contents (Elt Ideal)) (x7 : (⟨S2x1000000, .i32⟩ : BufTy).Contents (Elt Ideal))

/-- Two rank-two indices with equal coordinates are equal. -/
local macro "idx2" : tactic =>
  `(tactic| (funext a; refine Fin.ext ?_; match a with | ⟨0, _⟩ => rfl | ⟨1, _⟩ => rfl))
/-- Two rank-one indices with equal coordinates are equal. -/
local macro "idx1" : tactic =>
  `(tactic| (funext a; refine Fin.ext ?_; match a with | ⟨0, _⟩ => rfl))

/-- At the ideal instance each float operation is the extended reals' operation. -/
local macro "ideal_ops" : tactic =>
  `(tactic| (simp only [Ideal.hostUnary_rsqrt_def, Ideal.hostUnary_sqrt_def, Ideal.addf_def, Ideal.subf_def, Ideal.mulf_def,
      Ideal.maximumf_def, Ideal.hostDivf_def, Ideal.ofBits_def]; try rfl))

/-! ## The edge words -/

/-- The flattened row 0 of the edge list at e is the source word of e. -/
theorem v1_at (e : Fin 1000000) : ReadP.val_main_v1 (F := Ideal) x7 (ix1 e) = x7 (ix2 0 e) := by
  rw [ReadP.val_main_v1_apply, ReadP.val_main_v0_apply]
  refine congrArg x7 ?_
  funext a; refine Fin.ext ?_
  match a with
  | ⟨0, _⟩ => rfl
  | ⟨1, _⟩ => exact Nat.mod_eq_of_lt e.isLt

/-- The flattened row 1 of the edge list at e is the destination word of e. -/
theorem v3_at (e : Fin 1000000) : ReadP.val_main_v3 (F := Ideal) x7 (ix1 e) = x7 (ix2 1 e) := by
  rw [ReadP.val_main_v3_apply, ReadP.val_main_v2_apply]
  refine congrArg x7 ?_
  funext a; refine Fin.ext ?_
  match a with
  | ⟨0, _⟩ => rfl
  | ⟨1, _⟩ => exact Nat.mod_eq_of_lt e.isLt

/-- The destination words as a column. -/
theorem v7_at (e : Fin 1000000) : ReadP.val_main_v7 (F := Ideal) x7 (ix2 e 0) = x7 (ix2 1 e) := by
  rw [ReadP.val_main_v7_apply, show ReadP.idx_main_v7 (ix2 e 0) = ix1 e from by idx1, v3_at]

/-- The destination words as a column, second copy. -/
theorem v39_at (e : Fin 1000000) : ReadP.val_main_v39 (F := Ideal) x7 (ix2 e 0) = x7 (ix2 1 e) := by
  rw [ReadP.val_main_v39_apply, show ReadP.idx_main_v39 (ix2 e 0) = ix1 e from by idx1, v3_at]

/-- The source words with a negative one moved up by the node count, as a column. -/
theorem v17_at (e : Fin 1000000) : ReadP.val_main_v17 (F := Ideal) x7 (ix2 e 0) = norm32 (x7 (ix2 0 e)) := by
  rw [ReadP.val_main_v17_apply, show ReadP.idx_main_v17 (ix2 e 0) = ix1 e from by idx1, ReadP.val_main_v16_apply,
    ReadP.val_main_v13_apply, ReadP.val_main_v15_apply, ReadP.val_main_v12_apply, ReadP.val_main_c_apply,
    ReadP.val_main_v14_apply, ReadP.val_main_c_2_apply, v1_at]
  exact HostIdx.select_slt_add _

/-- The destination words with a negative one moved up by the node count, as a column. -/
theorem v24_at (e : Fin 1000000) : ReadP.val_main_v24 (F := Ideal) x7 (ix2 e 0) = norm32 (x7 (ix2 1 e)) := by
  rw [ReadP.val_main_v24_apply, show ReadP.idx_main_v24 (ix2 e 0) = ix1 e from by idx1, ReadP.val_main_v23_apply,
    ReadP.val_main_v20_apply, ReadP.val_main_v22_apply, ReadP.val_main_v19_apply, ReadP.val_main_c_3_apply,
    ReadP.val_main_v21_apply, ReadP.val_main_c_4_apply, v3_at]
  exact HostIdx.select_slt_add _

/-- The source words with a negative one moved up by the node count, as a column, second copy. -/
theorem v33_at (e : Fin 1000000) : ReadP.val_main_v33 (F := Ideal) x7 (ix2 e 0) = norm32 (x7 (ix2 0 e)) := by
  rw [ReadP.val_main_v33_apply, show ReadP.idx_main_v33 (ix2 e 0) = ix1 e from by idx1, ReadP.val_main_v32_apply,
    ReadP.val_main_v29_apply, ReadP.val_main_v31_apply, ReadP.val_main_v28_apply, ReadP.val_main_c_5_apply,
    ReadP.val_main_v30_apply, ReadP.val_main_c_6_apply, v1_at]
  exact HostIdx.select_slt_add _

/-! ## The node weights -/

/-- The in-degree: one per edge whose destination word is the node. -/
theorem v8_at (i : Fin 100000) :
    ReadP.val_main_v8 (F := Ideal) x7 (ix1 i) = indeg (fun e : Fin 1000000 => x7 (ix2 1 e)) i := by
  unfold ReadP.val_main_v8
  refine (HostIdx.scatterAdd_vec_apply scatter_S100000_S1000000x1_S1000000_n_0_0_1 rfl rfl rfl rfl
    (ReadP.val_main_v6 (F := Ideal)) (ReadP.val_main_v7 (F := Ideal) x7) (ReadP.val_main_v4 (F := Ideal)) i).trans ?_
  rw [ReadP.val_main_v6_apply, ReadP.val_main_cst_0_apply, Ideal.ofBits_def, Ideal.ofBits_zero_f32, zero_add]
  unfold indeg
  refine Finset.sum_congr (Finset.filter_congr fun e _ => by rw [v7_at]) fun e _ => ?_
  rw [ReadP.val_main_v4_apply, ReadP.val_main_cst_apply]
  rfl

/-- The node weight at node i. -/
theorem v11_at (i : Fin 100000) : ReadP.val_main_v11 (F := Ideal) x7 (ix1 i) = dis0 (fun e : Fin 1000000 => x7 (ix2 1 e)) i := by
  rw [ReadP.val_main_v11_apply, ReadP.val_main_v10_apply, v8_at, ReadP.val_main_v9_apply, ReadP.val_main_cst_1_apply]
  unfold dis0 one
  ideal_ops

theorem v11_eq : ReadP.val_main_v11 (F := Ideal) x7 = fun y : S100000.Idx => Cert.Gcn.dis0 (fun e : Fin 1000000 => x7 (ix2 1 e)) (y 0) := by
  funext y
  obtain ⟨i, rfl⟩ : ∃ i, y = ix1 i := ⟨y 0, eq_ix1 y⟩
  exact v11_at x7 i

/-- The node weight read at an edge's source. -/
theorem v18_at (e : Fin 1000000) :
    ReadP.val_main_v18 (F := Ideal) x7 (ix1 e) = dis0 (fun e : Fin 1000000 => x7 (ix2 1 e)) (gsel (x7 (ix2 0 e))) := by
  unfold ReadP.val_main_v18
  refine (HostIdx.gather_vec_apply gather_S100000_S1000000x1_S1000000_n_0_n_n_0_1_1 rfl rfl rfl rfl rfl rfl rfl
    (ReadP.val_main_v11 (F := Ideal) x7) (ReadP.val_main_v17 (F := Ideal) x7) e).trans ?_
  rw [v17_at, v11_at]
  rfl

/-- The node weight read at an edge's destination. -/
theorem v25_at (e : Fin 1000000) :
    ReadP.val_main_v25 (F := Ideal) x7 (ix1 e) = dis0 (fun e : Fin 1000000 => x7 (ix2 1 e)) (gsel (x7 (ix2 1 e))) := by
  unfold ReadP.val_main_v25
  refine (HostIdx.gather_vec_apply gather_S100000_S1000000x1_S1000000_n_0_n_n_0_1_1 rfl rfl rfl rfl rfl rfl rfl
    (ReadP.val_main_v11 (F := Ideal) x7) (ReadP.val_main_v24 (F := Ideal) x7) e).trans ?_
  rw [v24_at, v11_at]
  rfl

/-- An edge's weight: the product of the two node weights and the unit mask. -/
theorem v27_at (e : Fin 1000000) :
    ReadP.val_main_v27 (F := Ideal) x7 (ix1 e) = nrm0 (fun e : Fin 1000000 => x7 (ix2 0 e)) (fun e : Fin 1000000 => x7 (ix2 1 e)) e := by
  rw [ReadP.val_main_v27_apply, ReadP.val_main_v26_apply, v18_at, v25_at, ReadP.val_main_v4_apply, ReadP.val_main_cst_apply]
  unfold nrm0 one
  ideal_ops

/-- An edge's weight, repeated along the row. -/
theorem v36_at (e : Fin 1000000) (k : Fin 64) :
    ReadP.val_main_v36 (F := Ideal) x7 (ix2 e k) = nrm0 (fun e : Fin 1000000 => x7 (ix2 0 e)) (fun e : Fin 1000000 => x7 (ix2 1 e)) e := by
  rw [ReadP.val_main_v36_apply, ReadP.val_main_v35_apply,
    show ReadP.idx_main_v35 (ReadP.idx_main_v36 (ix2 e k)) = ix1 e from by idx1, v27_at]

/-! ## The first layer's rows -/

/-- The product of the features with the first weight matrix. -/
theorem v5_at (i : Fin 100000) (k : Fin 64) :
    ReadP.val_main_v5 (F := Ideal) x0 x1 (ix2 i k) = mm (fun (i : Fin 100000) (j : Fin 128) => x0 (ix2 i j)) (fun (j : Fin 128) (k : Fin 64) => x1 (ix2 j k)) i k := by
  rw [ReadP.val_main_v5_apply]
  unfold mm
  refine Finset.sum_congr rfl fun j _ => ?_
  rw [show ReadP.lidx_main_v5 (ix2 i k) j = ix2 i j from by idx2, show ReadP.ridx_main_v5 (ix2 i k) j = ix2 j k from by idx2]

/-- The product's row read at an edge's source. -/
theorem v34_at (e : Fin 1000000) (k : Fin 64) :
    ReadP.val_main_v34 (F := Ideal) x0 x1 x7 (ix2 e k) = mm (fun (i : Fin 100000) (j : Fin 128) => x0 (ix2 i j)) (fun (j : Fin 128) (k : Fin 64) => x1 (ix2 j k)) (gsel (x7 (ix2 0 e))) k := by
  unfold ReadP.val_main_v34
  refine (HostIdx.gather_rows_apply gather_S100000x64_S1000000x1_S1000000x64_1_0_n_n_0_1_164 rfl rfl rfl rfl rfl rfl rfl
    (ReadP.val_main_v5 (F := Ideal) x0 x1) (ReadP.val_main_v33 (F := Ideal) x7) e k).trans ?_
  rw [v33_at, v5_at]
  rfl

/-- An edge's weighted row. -/
theorem v37_at (e : Fin 1000000) (k : Fin 64) :
    ReadP.val_main_v37 (F := Ideal) x0 x1 x7 (ix2 e k)
      = mm (fun (i : Fin 100000) (j : Fin 128) => x0 (ix2 i j)) (fun (j : Fin 128) (k : Fin 64) => x1 (ix2 j k)) (gsel (x7 (ix2 0 e))) k * nrm0 (fun e : Fin 1000000 => x7 (ix2 0 e)) (fun e : Fin 1000000 => x7 (ix2 1 e)) e := by
  rw [ReadP.val_main_v37_apply, v34_at, v36_at]
  ideal_ops

/-- The weighted rows summed over the edges into a node. -/
theorem v40_at (i : Fin 100000) (k : Fin 64) :
    ReadP.val_main_v40 (F := Ideal) x0 x1 x7 (ix2 i k) = agg0R (fun (i : Fin 100000) (j : Fin 128) => x0 (ix2 i j)) (fun (j : Fin 128) (k : Fin 64) => x1 (ix2 j k)) (fun e : Fin 1000000 => x7 (ix2 0 e)) (fun e : Fin 1000000 => x7 (ix2 1 e)) i k := by
  unfold ReadP.val_main_v40
  refine (HostIdx.scatterAdd_rows_apply scatter_S100000x64_S1000000x1_S1000000x64_1_0_0_1 rfl rfl rfl rfl
    (ReadP.val_main_v38 (F := Ideal)) (ReadP.val_main_v39 (F := Ideal) x7) (ReadP.val_main_v37 (F := Ideal) x0 x1 x7) i k).trans ?_
  rw [ReadP.val_main_v38_apply, ReadP.val_main_cst_7_apply, Ideal.ofBits_def, Ideal.ofBits_zero_f32, zero_add]
  unfold agg0R
  refine Finset.sum_congr (Finset.filter_congr fun e _ => by rw [v39_at]) fun e _ => ?_
  rw [v37_at]

/-- The square of the node weight, repeated along the row. -/
theorem v43_at (i : Fin 100000) (k : Fin 64) :
    ReadP.val_main_v43 (F := Ideal) x7 (ix2 i k) = dis0 (fun e : Fin 1000000 => x7 (ix2 1 e)) i * dis0 (fun e : Fin 1000000 => x7 (ix2 1 e)) i := by
  rw [ReadP.val_main_v43_apply, ReadP.val_main_v42_apply,
    show ReadP.idx_main_v42 (ReadP.idx_main_v43 (ix2 i k)) = ix1 i from by idx1, ReadP.val_main_v41_apply, v11_at]
  ideal_ops

/-- The node's own row with the self loop's weight. -/
theorem v44_at (i : Fin 100000) (k : Fin 64) :
    ReadP.val_main_v44 (F := Ideal) x0 x1 x7 (ix2 i k)
      = mm (fun (i : Fin 100000) (j : Fin 128) => x0 (ix2 i j)) (fun (j : Fin 128) (k : Fin 64) => x1 (ix2 j k)) i k * (dis0 (fun e : Fin 1000000 => x7 (ix2 1 e)) i * dis0 (fun e : Fin 1000000 => x7 (ix2 1 e)) i) := by
  rw [ReadP.val_main_v44_apply, v5_at, v43_at]
  ideal_ops

/-- The bias, repeated along the nodes. -/
theorem v47_at (i : Fin 100000) (k : Fin 64) : ReadP.val_main_v47 (F := Ideal) x2 (ix2 i k) = x2 (ix1 k) := by
  rw [ReadP.val_main_v47_apply, ReadP.val_main_v46_apply,
    show ReadP.idx_main_v46 (ReadP.idx_main_v47 (ix2 i k)) = ix1 k from by idx1]

/-- The first layer's row before normalisation. -/
theorem v48_at (i : Fin 100000) (k : Fin 64) :
    ReadP.val_main_v48 (F := Ideal) x0 x1 x2 x7 (ix2 i k)
      = val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i k := by
  rw [ReadP.val_main_v48_apply, ReadP.val_main_v45_apply, v40_at, v44_at, v47_at]
  unfold val0R
  ideal_ops

theorem v48_eq : ReadP.val_main_v48 (F := Ideal) x0 x1 x2 x7
    = fun y : S100000x64.Idx => Cert.Gcn.val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) (y 0) (y 1) := by
  funext y
  obtain ⟨i, k, rfl⟩ : ∃ i k, y = ix2 i k := ⟨y 0, y 1, eq_ix2 y⟩
  exact v48_at x0 x1 x2 x7 i k

/-! ## The normalisation of a row -/

/-- The row's sum. -/
theorem v49_at (i : Fin 100000) :
    ReadP.val_main_v49 (F := Ideal) x0 x1 x2 x7 (ix1 i) = ∑ q : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q := by
  rw [ReadP.val_main_v49_apply, ReadP.val_main_cst_8_apply, Ideal.ofBits_def, Ideal.ofBits_zero_f32, zero_add]
  refine Finset.sum_congr rfl fun q _ => ?_
  rw [show ReadP.idx_main_v49 (ix1 i) q = ix2 i q from by idx2, v48_at]

/-- The row's mean. -/
theorem v52_at (i : Fin 100000) :
    ReadP.val_main_v52 (F := Ideal) x0 x1 x2 x7 (ix2 i 0) = Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64 := by
  rw [ReadP.val_main_v52_apply, ReadP.val_main_v50_apply, show ReadP.idx_main_v50 (ix2 i 0) = ix1 i from by idx1, v49_at,
    ReadP.val_main_v51_apply, ReadP.val_main_cst_9_apply]
  unfold c64
  ideal_ops

/-- The row less its mean. -/
theorem v54_at (i : Fin 100000) (k : Fin 64) :
    ReadP.val_main_v54 (F := Ideal) x0 x1 x2 x7 (ix2 i k) = (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) k - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64 := by
  rw [ReadP.val_main_v54_apply, v48_at, ReadP.val_main_v53_apply, show ReadP.idx_main_v53 (ix2 i k) = ix2 i 0 from by idx2, v52_at]
  ideal_ops

/-- The row less its mean, second copy. -/
theorem v61_at (i : Fin 100000) (k : Fin 64) :
    ReadP.val_main_v61 (F := Ideal) x0 x1 x2 x7 (ix2 i k) = (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) k - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64 := by
  rw [ReadP.val_main_v61_apply, v48_at, ReadP.val_main_v60_apply, show ReadP.idx_main_v60 (ix2 i k) = ix2 i 0 from by idx2, v52_at]
  ideal_ops

/-- The sum of the squared deviations. -/
theorem v56_at (i : Fin 100000) :
    ReadP.val_main_v56 (F := Ideal) x0 x1 x2 x7 (ix1 i)
      = ∑ q : Fin 64, ((val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64) * ((val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64) := by
  rw [ReadP.val_main_v56_apply, ReadP.val_main_cst_10_apply, Ideal.ofBits_def, Ideal.ofBits_zero_f32, zero_add]
  refine Finset.sum_congr rfl fun q _ => ?_
  rw [show ReadP.idx_main_v56 (ix1 i) q = ix2 i q from by idx2, ReadP.val_main_v55_apply, v54_at]
  ideal_ops

/-- The inverse square root of the variance plus the small constant. -/
theorem v64_at (i : Fin 100000) :
    ReadP.val_main_v64 (F := Ideal) x0 x1 x2 x7 (ix2 i 0)
      = Ideal.rsqrt (Ideal.div (∑ q : Fin 64, ((val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64) * ((val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q - Ideal.div (∑ q' : Fin 64, (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) q') c64)) c64 + ceps) := by
  rw [ReadP.val_main_v64_apply, ReadP.val_main_v63_apply, ReadP.val_main_v59_apply, ReadP.val_main_v57_apply,
    show ReadP.idx_main_v57 (ix2 i 0) = ix1 i from by idx1, v56_at, ReadP.val_main_v58_apply, ReadP.val_main_cst_11_apply,
    ReadP.val_main_v62_apply, ReadP.val_main_cst_12_apply]
  unfold c64 ceps
  ideal_ops

/-- The normalised, scaled and shifted row's positive part. -/
theorem v73_at (i : Fin 100000) (k : Fin 64) :
    ReadP.val_main_v73 (F := Ideal) x0 x1 x2 x5 x6 x7 (ix2 i k) = lnrelu (val0R (fun (i : Fin 100000) (j : Fin 128) => x0 (ix2 i j)) (fun (j : Fin 128) (k : Fin 64) => x1 (ix2 j k)) (fun k : Fin 64 => x2 (ix1 k)) (fun e : Fin 1000000 => x7 (ix2 0 e)) (fun e : Fin 1000000 => x7 (ix2 1 e)) i) (fun k : Fin 64 => x5 (ix1 k)) (fun k : Fin 64 => x6 (ix1 k)) k := by
  rw [ReadP.val_main_v73_apply, ReadP.val_main_v72_apply, ReadP.val_main_v69_apply, ReadP.val_main_v66_apply, v61_at,
    ReadP.val_main_v65_apply, show ReadP.idx_main_v65 (ix2 i k) = ix2 i 0 from by idx2, v64_at,
    ReadP.val_main_v68_apply, ReadP.val_main_v67_apply,
    show ReadP.idx_main_v67 (ReadP.idx_main_v68 (ix2 i k)) = ix1 k from by idx1,
    ReadP.val_main_v71_apply, ReadP.val_main_v70_apply,
    show ReadP.idx_main_v70 (ReadP.idx_main_v71 (ix2 i k)) = ix1 k from by idx1,
    ReadP.val_main_call0_v0_apply, ReadP.val_main_call0_cst_apply, Ideal.ofBits_def, Ideal.ofBits_zero_f32]
  unfold lnrelu
  ideal_ops

theorem v73_eq : ReadP.val_main_v73 (F := Ideal) x0 x1 x2 x5 x6 x7
    = fun y : S100000x64.Idx => Cert.Gcn.h1R (fun (i : Fin 100000) (j : Fin 128) => x0 (ix2 i j)) (fun (j : Fin 128) (k : Fin 64) => x1 (ix2 j k)) (fun k : Fin 64 => x2 (ix1 k)) (fun k : Fin 64 => x5 (ix1 k)) (fun k : Fin 64 => x6 (ix1 k)) (fun e : Fin 1000000 => x7 (ix2 0 e)) (fun e : Fin 1000000 => x7 (ix2 1 e)) (y 0) (y 1) := by
  funext y
  obtain ⟨i, k, rfl⟩ : ∃ i k, y = ix2 i k := ⟨y 0, y 1, eq_ix2 y⟩
  exact v73_at x0 x1 x2 x5 x6 x7 i k

/-! ## The rows' norms -/

/-- The sum of a row's squares. -/
theorem call1_v1_at (i : Fin 100000) :
    ReadP.val_main_call1_v1 (F := Ideal) x0 x1 x2 x5 x6 x7 (ix1 i) = ∑ q : Fin 64, (h1R (fun (i : Fin 100000) (j : Fin 128) => x0 (ix2 i j)) (fun (j : Fin 128) (k : Fin 64) => x1 (ix2 j k)) (fun k : Fin 64 => x2 (ix1 k)) (fun k : Fin 64 => x5 (ix1 k)) (fun k : Fin 64 => x6 (ix1 k)) (fun e : Fin 1000000 => x7 (ix2 0 e)) (fun e : Fin 1000000 => x7 (ix2 1 e)) i) q * (h1R (fun (i : Fin 100000) (j : Fin 128) => x0 (ix2 i j)) (fun (j : Fin 128) (k : Fin 64) => x1 (ix2 j k)) (fun k : Fin 64 => x2 (ix1 k)) (fun k : Fin 64 => x5 (ix1 k)) (fun k : Fin 64 => x6 (ix1 k)) (fun e : Fin 1000000 => x7 (ix2 0 e)) (fun e : Fin 1000000 => x7 (ix2 1 e)) i) q := by
  rw [ReadP.val_main_call1_v1_apply, ReadP.val_main_call1_cst_apply, Ideal.ofBits_def, Ideal.ofBits_zero_f32, zero_add]
  refine Finset.sum_congr rfl fun q _ => ?_
  rw [show ReadP.idx_main_call1_v1 (ix1 i) q = ix2 i q from by idx2, ReadP.val_main_call1_v0_apply, v73_at]
  unfold h1R
  ideal_ops

/-- A row's Euclidean norm. -/
theorem v74_at (i : Fin 100000) :
    ReadP.val_main_v74 (F := Ideal) x0 x1 x2 x5 x6 x7 (ix1 i) = sR (fun (i : Fin 100000) (j : Fin 128) => x0 (ix2 i j)) (fun (j : Fin 128) (k : Fin 64) => x1 (ix2 j k)) (fun k : Fin 64 => x2 (ix1 k)) (fun k : Fin 64 => x5 (ix1 k)) (fun k : Fin 64 => x6 (ix1 k)) (fun e : Fin 1000000 => x7 (ix2 0 e)) (fun e : Fin 1000000 => x7 (ix2 1 e)) i := by
  rw [ReadP.val_main_v74_apply, call1_v1_at]
  unfold sR rownorm
  ideal_ops

theorem v74_eq : ReadP.val_main_v74 (F := Ideal) x0 x1 x2 x5 x6 x7
    = fun y : S100000.Idx => Cert.Gcn.sR (fun (i : Fin 100000) (j : Fin 128) => x0 (ix2 i j)) (fun (j : Fin 128) (k : Fin 64) => x1 (ix2 j k)) (fun k : Fin 64 => x2 (ix1 k)) (fun k : Fin 64 => x5 (ix1 k)) (fun k : Fin 64 => x6 (ix1 k)) (fun e : Fin 1000000 => x7 (ix2 0 e)) (fun e : Fin 1000000 => x7 (ix2 1 e)) (y 0) := by
  funext y
  obtain ⟨i, rfl⟩ : ∃ i, y = ix1 i := ⟨y 0, eq_ix1 y⟩
  exact v74_at x0 x1 x2 x5 x6 x7 i

end Cert.ReferenceIdeal.RefValue

end
-- ==== Proof.RefValue1.lean ====
/-
  The second layer of the edge-by-edge program, read one operation at a time.

  Given that the first layer's output rows and their Euclidean norms are the ones of the edgewise arrangement, every later
  stage of the program is the corresponding quantity of that arrangement: the rescaled norms and the edge mask, the masked
  in-degree and the node weights, the product of the rows with the second weight matrix, the edge weights, the sum over the
  edges arriving at a node, the self-loop term and the bias, and finally the row-wise log-softmax.
-/
import proofs.«122454_j84129819394303_2_alg».proof.Proof.RefReadP
import proofs.«122454_j84129819394303_2_alg».proof.Proof.GcnSpec
import proofs.«122454_j84129819394303_2_alg».proof.Proof.HostIdx

noncomputable section

namespace Cert.ReferenceIdeal.RefValue1

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

/-! ## The arguments, curried -/

abbrev cX (x0 : (⟨S100000x128, .f32⟩ : BufTy).Contents (Elt Ideal)) : Fin 100000 → Fin 128 → EReal := fun i j => x0 (ix2 i j)
abbrev cW1 (x1 : (⟨S128x64, .f32⟩ : BufTy).Contents (Elt Ideal)) : Fin 128 → Fin 64 → EReal := fun j k => x1 (ix2 j k)
abbrev cW2 (x3 : (⟨S64x64, .f32⟩ : BufTy).Contents (Elt Ideal)) : Fin 64 → Fin 64 → EReal := fun j k => x3 (ix2 j k)
abbrev cv (x : (⟨S64, .f32⟩ : BufTy).Contents (Elt Ideal)) : Fin 64 → EReal := fun k => x (ix1 k)
abbrev csrc (x7 : (⟨S2x1000000, .i32⟩ : BufTy).Contents (Elt Ideal)) : Fin 1000000 → BitVec 32 := fun e => x7 (ix2 (0 : Fin 2) e)
abbrev cdst (x7 : (⟨S2x1000000, .i32⟩ : BufTy).Contents (Elt Ideal)) : Fin 1000000 → BitVec 32 := fun e => x7 (ix2 (1 : Fin 2) e)

variable (x0 : (⟨S100000x128, .f32⟩ : BufTy).Contents (Elt Ideal)) (x1 : (⟨S128x64, .f32⟩ : BufTy).Contents (Elt Ideal))
  (x2 : (⟨S64, .f32⟩ : BufTy).Contents (Elt Ideal)) (x3 : (⟨S64x64, .f32⟩ : BufTy).Contents (Elt Ideal))
  (x4 x5 x6 : (⟨S64, .f32⟩ : BufTy).Contents (Elt Ideal)) (x7 : (⟨S2x1000000, .i32⟩ : BufTy).Contents (Elt Ideal))

/-! ## The quantities of the edgewise arrangement at these arguments -/

abbrev h1R' : Fin 100000 → Fin 64 → EReal := Gcn.h1R (cX x0) (cW1 x1) (cv x2) (cv x5) (cv x6) (csrc x7) (cdst x7)
abbrev sR' : Fin 100000 → EReal := Gcn.sR (cX x0) (cW1 x1) (cv x2) (cv x5) (cv x6) (csrc x7) (cdst x7)
abbrev maskE' : Fin 1000000 → EReal := Gcn.maskE (cX x0) (cW1 x1) (cv x2) (cv x5) (cv x6) (csrc x7) (cdst x7) Gcn.rminF Gcn.rmaxF
abbrev deg1R' : Fin 100000 → EReal := Gcn.deg1R (cX x0) (cW1 x1) (cv x2) (cv x5) (cv x6) (csrc x7) (cdst x7) Gcn.rminF Gcn.rmaxF
abbrev dis1R' : Fin 100000 → EReal := Gcn.dis1R (cX x0) (cW1 x1) (cv x2) (cv x5) (cv x6) (csrc x7) (cdst x7) Gcn.rminF Gcn.rmaxF
abbrev nrm1' : Fin 1000000 → EReal := Gcn.nrm1 (cX x0) (cW1 x1) (cv x2) (cv x5) (cv x6) (csrc x7) (cdst x7) Gcn.rminF Gcn.rmaxF
abbrev mm1' : Fin 100000 → Fin 64 → EReal := Gcn.mm (h1R' x0 x1 x2 x5 x6 x7) (cW2 x3)
abbrev agg1R' : Fin 100000 → Fin 64 → EReal :=
  Gcn.agg1R (cX x0) (cW1 x1) (cv x2) (cv x5) (cv x6) (cW2 x3) (csrc x7) (cdst x7) Gcn.rminF Gcn.rmaxF
abbrev val1R' : Fin 100000 → Fin 64 → EReal :=
  Gcn.val1R (cX x0) (cW1 x1) (cv x2) (cv x5) (cv x6) (cW2 x3) (cv x4) (csrc x7) (cdst x7) Gcn.rminF Gcn.rmaxF

/-- The first layer's rows are the arrangement's. -/
abbrev H73 : Prop :=
  val_main_v73 (F := Ideal) x0 x1 x2 x5 x6 x7 = fun y : S100000x64.Idx => h1R' x0 x1 x2 x5 x6 x7 (y 0) (y 1)
/-- The first layer's row norms are the arrangement's. -/
abbrev H74 : Prop :=
  val_main_v74 (F := Ideal) x0 x1 x2 x5 x6 x7 = fun y : S100000.Idx => sR' x0 x1 x2 x5 x6 x7 (y 0)

/-! ## The edge words -/

/-- Edge e's source word. -/
theorem src_word (e : Fin 1000000) : val_main_v1 (F := Ideal) x7 (ix1 e) = csrc x7 e := by
  rw [val_main_v1_apply, val_main_v0_apply]
  exact congrArg x7 (funext fun a => Fin.ext (by
    match a with
    | ⟨0, _⟩ => rfl
    | ⟨1, _⟩ => exact Nat.mod_eq_of_lt e.isLt))

/-- Edge e's destination word. -/
theorem dst_word (e : Fin 1000000) : val_main_v3 (F := Ideal) x7 (ix1 e) = cdst x7 e := by
  rw [val_main_v3_apply, val_main_v2_apply]
  exact congrArg x7 (funext fun a => Fin.ext (by
    match a with
    | ⟨0, _⟩ => rfl
    | ⟨1, _⟩ => exact Nat.mod_eq_of_lt e.isLt))

/-- The destination words as a column (the index column of the first scatter). -/
theorem dst_col96 (e : Fin 1000000) : val_main_v96 (F := Ideal) x7 (ix2 e (0 : Fin 1)) = cdst x7 e := by
  rw [val_main_v96_apply]
  have e1 : idx_main_v96 (ix2 e (0 : Fin 1)) = (ix1 e : S1000000.Idx) :=
    funext fun a => Fin.ext (by match a with | ⟨0, _⟩ => rfl)
  exact (congrArg (val_main_v3 (F := Ideal) x7) e1).trans (dst_word x7 e)

/-- The destination words as a column (the index column of the second scatter). -/
theorem dst_col128 (e : Fin 1000000) : val_main_v128 (F := Ideal) x7 (ix2 e (0 : Fin 1)) = cdst x7 e := by
  rw [val_main_v128_apply]
  have e1 : idx_main_v128 (ix2 e (0 : Fin 1)) = (ix1 e : S1000000.Idx) :=
    funext fun a => Fin.ext (by match a with | ⟨0, _⟩ => rfl)
  exact (congrArg (val_main_v3 (F := Ideal) x7) e1).trans (dst_word x7 e)

/-- The normalised destination words (first spelling). -/
theorem dst_norm88 (e : Fin 1000000) : val_main_v88 (F := Ideal) x7 (ix1 e) = Gcn.norm32 (cdst x7 e) := by
  rw [val_main_v88_apply, val_main_v85_apply, val_main_v87_apply, val_main_v84_apply, val_main_c_17_apply,
    val_main_v86_apply, val_main_c_18_apply, dst_word]
  exact Gcn.HostIdx.select_slt_add _

theorem dst_col89 (e : Fin 1000000) : val_main_v89 (F := Ideal) x7 (ix2 e (0 : Fin 1)) = Gcn.norm32 (cdst x7 e) := by
  rw [val_main_v89_apply]
  have e1 : idx_main_v89 (ix2 e (0 : Fin 1)) = (ix1 e : S1000000.Idx) :=
    funext fun a => Fin.ext (by match a with | ⟨0, _⟩ => rfl)
  exact (congrArg (val_main_v88 (F := Ideal) x7) e1).trans (dst_norm88 x7 e)

/-- The normalised source words (first spelling). -/
theorem src_norm105 (e : Fin 1000000) : val_main_v105 (F := Ideal) x7 (ix1 e) = Gcn.norm32 (csrc x7 e) := by
  rw [val_main_v105_apply, val_main_v102_apply, val_main_v104_apply, val_main_v101_apply, val_main_c_22_apply,
    val_main_v103_apply, val_main_c_23_apply, src_word]
  exact Gcn.HostIdx.select_slt_add _

theorem src_col106 (e : Fin 1000000) : val_main_v106 (F := Ideal) x7 (ix2 e (0 : Fin 1)) = Gcn.norm32 (csrc x7 e) := by
  rw [val_main_v106_apply]
  have e1 : idx_main_v106 (ix2 e (0 : Fin 1)) = (ix1 e : S1000000.Idx) :=
    funext fun a => Fin.ext (by match a with | ⟨0, _⟩ => rfl)
  exact (congrArg (val_main_v105 (F := Ideal) x7) e1).trans (src_norm105 x7 e)

/-- The normalised destination words (second spelling). -/
theorem dst_norm112 (e : Fin 1000000) : val_main_v112 (F := Ideal) x7 (ix1 e) = Gcn.norm32 (cdst x7 e) := by
  rw [val_main_v112_apply, val_main_v109_apply, val_main_v111_apply, val_main_v108_apply, val_main_c_24_apply,
    val_main_v110_apply, val_main_c_25_apply, dst_word]
  exact Gcn.HostIdx.select_slt_add _

theorem dst_col113 (e : Fin 1000000) : val_main_v113 (F := Ideal) x7 (ix2 e (0 : Fin 1)) = Gcn.norm32 (cdst x7 e) := by
  rw [val_main_v113_apply]
  have e1 : idx_main_v113 (ix2 e (0 : Fin 1)) = (ix1 e : S1000000.Idx) :=
    funext fun a => Fin.ext (by match a with | ⟨0, _⟩ => rfl)
  exact (congrArg (val_main_v112 (F := Ideal) x7) e1).trans (dst_norm112 x7 e)

/-- The normalised source words (second spelling). -/
theorem src_norm121 (e : Fin 1000000) : val_main_v121 (F := Ideal) x7 (ix1 e) = Gcn.norm32 (csrc x7 e) := by
  rw [val_main_v121_apply, val_main_v118_apply, val_main_v120_apply, val_main_v117_apply, val_main_c_26_apply,
    val_main_v119_apply, val_main_c_27_apply, src_word]
  exact Gcn.HostIdx.select_slt_add _

theorem src_col122 (e : Fin 1000000) : val_main_v122 (F := Ideal) x7 (ix2 e (0 : Fin 1)) = Gcn.norm32 (csrc x7 e) := by
  rw [val_main_v122_apply]
  have e1 : idx_main_v122 (ix2 e (0 : Fin 1)) = (ix1 e : S1000000.Idx) :=
    funext fun a => Fin.ext (by match a with | ⟨0, _⟩ => rfl)
  exact (congrArg (val_main_v121 (F := Ideal) x7) e1).trans (src_norm121 x7 e)

/-! ## The rescaled norms and the edge mask -/

/-- The smallest row norm. -/
theorem rmin75 (h74 : H74 x0 x1 x2 x5 x6 x7) (j : S_.Idx) :
    val_main_v75 (F := Ideal) x0 x1 x2 x5 x6 x7 j = Gcn.rminF (sR' x0 x1 x2 x5 x6 x7) := by
  unfold val_main_v75 val_main_cst_13
  rw [h74]
  exact Gcn.HostIdx.reduce_min_apply _ _ _ _

/-- The smallest row norm, computed a second time. -/
theorem rmin79 (h74 : H74 x0 x1 x2 x5 x6 x7) (j : S_.Idx) :
    val_main_v79 (F := Ideal) x0 x1 x2 x5 x6 x7 j = Gcn.rminF (sR' x0 x1 x2 x5 x6 x7) := by
  unfold val_main_v79 val_main_cst_15
  rw [h74]
  exact Gcn.HostIdx.reduce_min_apply _ _ _ _

/-- The largest row norm. -/
theorem rmax78 (h74 : H74 x0 x1 x2 x5 x6 x7) (j : S_.Idx) :
    val_main_v78 (F := Ideal) x0 x1 x2 x5 x6 x7 j = Gcn.rmaxF (sR' x0 x1 x2 x5 x6 x7) := by
  unfold val_main_v78 val_main_cst_14
  rw [h74]
  exact Gcn.HostIdx.reduce_max_apply _ _ _ _

/-- Node i's rescaled norm. -/
theorem score83 (h74 : H74 x0 x1 x2 x5 x6 x7) (i : Fin 100000) :
    val_main_v83 (F := Ideal) x0 x1 x2 x5 x6 x7 (ix1 i)
      = Ideal.div (sR' x0 x1 x2 x5 x6 x7 i - Gcn.rminF (sR' x0 x1 x2 x5 x6 x7))
          ((Gcn.rmaxF (sR' x0 x1 x2 x5 x6 x7) - Gcn.rminF (sR' x0 x1 x2 x5 x6 x7)) + Gcn.ceps8) := by
  rw [val_main_v83_apply, val_main_v77_apply, val_main_v82_apply, val_main_v76_apply, val_main_v81_apply, val_main_v80_apply,
    val_main_cst_16_apply, rmin75 x0 x1 x2 x5 x6 x7 h74, rmin79 x0 x1 x2 x5 x6 x7 h74, rmax78 x0 x1 x2 x5 x6 x7 h74, h74]
  rfl

/-- The rescaled norm of the node edge e's destination word reads. -/
theorem score90 (h74 : H74 x0 x1 x2 x5 x6 x7) (e : Fin 1000000) :
    val_main_v90 (F := Ideal) x0 x1 x2 x5 x6 x7 (ix1 e)
      = Ideal.div (sR' x0 x1 x2 x5 x6 x7 (Gcn.gsel (cdst x7 e)) - Gcn.rminF (sR' x0 x1 x2 x5 x6 x7))
          ((Gcn.rmaxF (sR' x0 x1 x2 x5 x6 x7) - Gcn.rminF (sR' x0 x1 x2 x5 x6 x7)) + Gcn.ceps8) := by
  unfold val_main_v90
  refine (Gcn.HostIdx.gather_vec_apply gather_S100000_S1000000x1_S1000000_n_0_n_n_0_1_1 rfl rfl rfl rfl rfl rfl rfl
    (val_main_v83 (F := Ideal) x0 x1 x2 x5 x6 x7) (val_main_v89 (F := Ideal) x7) e).trans ?_
  rw [dst_col89]
  exact score83 x0 x1 x2 x5 x6 x7 h74 (Gcn.gsel (cdst x7 e))

/-- Edge e's mask. -/
theorem mask93 (h74 : H74 x0 x1 x2 x5 x6 x7) (e : Fin 1000000) :
    val_main_v93 (F := Ideal) x0 x1 x2 x5 x6 x7 (ix1 e) = maskE' x0 x1 x2 x5 x6 x7 e := by
  rw [val_main_v93_apply, val_main_v92_apply, val_main_v91_apply, val_main_cst_19_apply, score90 x0 x1 x2 x5 x6 x7 h74]
  rfl

/-! ## The masked in-degree and the node weights -/

/-- Node i's masked in-degree. -/
theorem deg97 (h74 : H74 x0 x1 x2 x5 x6 x7) (i : Fin 100000) :
    val_main_v97 (F := Ideal) x0 x1 x2 x5 x6 x7 (ix1 i) = deg1R' x0 x1 x2 x5 x6 x7 i := by
  unfold val_main_v97
  refine (Gcn.HostIdx.scatterAdd_vec_apply scatter_S100000_S1000000x1_S1000000_n_0_0_1 rfl rfl rfl rfl
    (val_main_v95 (F := Ideal)) (val_main_v96 (F := Ideal) x7) (val_main_v93 (F := Ideal) x0 x1 x2 x5 x6 x7) i).trans ?_
  have hz : val_main_v95 (F := Ideal) (ix1 i) = 0 := by
    rw [val_main_v95_apply, val_main_cst_20_apply]; exact Ideal.ofBits_zero_f32
  rw [hz, zero_add]
  show _ = ∑ e ∈ Gcn.hits (cdst x7) i, maskE' x0 x1 x2 x5 x6 x7 e
  unfold Gcn.hits
  refine Finset.sum_congr (Finset.filter_congr fun e _ => ?_) fun e _ => mask93 x0 x1 x2 x5 x6 x7 h74 e
  rw [dst_col96]

/-- Node i's weight. -/
theorem dis100 (h74 : H74 x0 x1 x2 x5 x6 x7) (i : Fin 100000) :
    val_main_v100 (F := Ideal) x0 x1 x2 x5 x6 x7 (ix1 i) = dis1R' x0 x1 x2 x5 x6 x7 i := by
  rw [val_main_v100_apply, val_main_v99_apply, val_main_v98_apply, val_main_cst_21_apply, deg97 x0 x1 x2 x5 x6 x7 h74,
    Ideal.hostUnary_rsqrt_def]
  rfl

/-! ## The rows times the second weight matrix -/

theorem mm94 (h73 : H73 x0 x1 x2 x5 x6 x7) (i : Fin 100000) (k : Fin 64) :
    val_main_v94 (F := Ideal) x0 x1 x2 x3 x5 x6 x7 (ix2 i k) = mm1' x0 x1 x2 x3 x5 x6 x7 i k := by
  rw [val_main_v94_apply, h73]
  show _ = ∑ j : Fin 64, h1R' x0 x1 x2 x5 x6 x7 i j * cW2 x3 j k
  refine Finset.sum_congr rfl fun j _ => ?_
  have e2 : ridx_main_v94 (ix2 i k) j = (ix2 j k : S64x64.Idx) :=
    funext fun a => Fin.ext (by match a with | ⟨0, _⟩ => rfl | ⟨1, _⟩ => rfl)
  exact congrArg (fun t => h1R' x0 x1 x2 x5 x6 x7 i j * x3 t) e2

/-! ## The edge weights -/

/-- The weight of the node edge e's source word reads. -/
theorem dis107 (h74 : H74 x0 x1 x2 x5 x6 x7) (e : Fin 1000000) :
    val_main_v107 (F := Ideal) x0 x1 x2 x5 x6 x7 (ix1 e) = dis1R' x0 x1 x2 x5 x6 x7 (Gcn.gsel (csrc x7 e)) := by
  unfold val_main_v107
  refine (Gcn.HostIdx.gather_vec_apply gather_S100000_S1000000x1_S1000000_n_0_n_n_0_1_1 rfl rfl rfl rfl rfl rfl rfl
    (val_main_v100 (F := Ideal) x0 x1 x2 x5 x6 x7) (val_main_v106 (F := Ideal) x7) e).trans ?_
  rw [src_col106]
  exact dis100 x0 x1 x2 x5 x6 x7 h74 (Gcn.gsel (csrc x7 e))

/-- The weight of the node edge e's destination word reads. -/
theorem dis114 (h74 : H74 x0 x1 x2 x5 x6 x7) (e : Fin 1000000) :
    val_main_v114 (F := Ideal) x0 x1 x2 x5 x6 x7 (ix1 e) = dis1R' x0 x1 x2 x5 x6 x7 (Gcn.gsel (cdst x7 e)) := by
  unfold val_main_v114
  refine (Gcn.HostIdx.gather_vec_apply gather_S100000_S1000000x1_S1000000_n_0_n_n_0_1_1 rfl rfl rfl rfl rfl rfl rfl
    (val_main_v100 (F := Ideal) x0 x1 x2 x5 x6 x7) (val_main_v113 (F := Ideal) x7) e).trans ?_
  rw [dst_col113]
  exact dis100 x0 x1 x2 x5 x6 x7 h74 (Gcn.gsel (cdst x7 e))

/-- Edge e's weight. -/
theorem nrm116 (h74 : H74 x0 x1 x2 x5 x6 x7) (e : Fin 1000000) :
    val_main_v116 (F := Ideal) x0 x1 x2 x5 x6 x7 (ix1 e) = nrm1' x0 x1 x2 x5 x6 x7 e := by
  rw [val_main_v116_apply, val_main_v115_apply, dis107 x0 x1 x2 x5 x6 x7 h74, dis114 x0 x1 x2 x5 x6 x7 h74,
    mask93 x0 x1 x2 x5 x6 x7 h74]
  rfl

/-! ## The sum over the edges arriving at a node -/

/-- The row edge e reads, column k. -/
theorem row123 (h73 : H73 x0 x1 x2 x5 x6 x7) (e : Fin 1000000) (k : Fin 64) :
    val_main_v123 (F := Ideal) x0 x1 x2 x3 x5 x6 x7 (ix2 e k) = mm1' x0 x1 x2 x3 x5 x6 x7 (Gcn.gsel (csrc x7 e)) k := by
  unfold val_main_v123
  refine (Gcn.HostIdx.gather_rows_apply gather_S100000x64_S1000000x1_S1000000x64_1_0_n_n_0_1_164 rfl rfl rfl rfl rfl rfl rfl
    (val_main_v94 (F := Ideal) x0 x1 x2 x3 x5 x6 x7) (val_main_v122 (F := Ideal) x7) e k).trans ?_
  rw [src_col122]
  exact mm94 x0 x1 x2 x3 x5 x6 x7 h73 (Gcn.gsel (csrc x7 e)) k

/-- Edge e's weight, spread along its row. -/
theorem nrm125 (h74 : H74 x0 x1 x2 x5 x6 x7) (e : Fin 1000000) (k : Fin 64) :
    val_main_v125 (F := Ideal) x0 x1 x2 x5 x6 x7 (ix2 e k) = nrm1' x0 x1 x2 x5 x6 x7 e := by
  rw [val_main_v125_apply, val_main_v124_apply]
  have e1 : idx_main_v124 (idx_main_v125 (ix2 e k)) = (ix1 e : S1000000.Idx) :=
    funext fun a => Fin.ext (by match a with | ⟨0, _⟩ => rfl)
  exact (congrArg (val_main_v116 (F := Ideal) x0 x1 x2 x5 x6 x7) e1).trans (nrm116 x0 x1 x2 x5 x6 x7 h74 e)

/-- Edge e's weighted row, column k. -/
theorem upd126 (h73 : H73 x0 x1 x2 x5 x6 x7) (h74 : H74 x0 x1 x2 x5 x6 x7) (e : Fin 1000000) (k : Fin 64) :
    val_main_v126 (F := Ideal) x0 x1 x2 x3 x5 x6 x7 (ix2 e k)
      = mm1' x0 x1 x2 x3 x5 x6 x7 (Gcn.gsel (csrc x7 e)) k * nrm1' x0 x1 x2 x5 x6 x7 e := by
  rw [val_main_v126_apply, row123 x0 x1 x2 x3 x5 x6 x7 h73, nrm125 x0 x1 x2 x5 x6 x7 h74]
  rfl

/-- The weighted rows of the edges arriving at node i, summed, column k. -/
theorem agg129 (h73 : H73 x0 x1 x2 x5 x6 x7) (h74 : H74 x0 x1 x2 x5 x6 x7) (i : Fin 100000) (k : Fin 64) :
    val_main_v129 (F := Ideal) x0 x1 x2 x3 x5 x6 x7 (ix2 i k) = agg1R' x0 x1 x2 x3 x5 x6 x7 i k := by
  unfold val_main_v129
  refine (Gcn.HostIdx.scatterAdd_rows_apply scatter_S100000x64_S1000000x1_S1000000x64_1_0_0_1 rfl rfl rfl rfl
    (val_main_v127 (F := Ideal)) (val_main_v128 (F := Ideal) x7) (val_main_v126 (F := Ideal) x0 x1 x2 x3 x5 x6 x7) i k).trans ?_
  have hz : val_main_v127 (F := Ideal) (ix2 i k) = 0 := by
    rw [val_main_v127_apply, val_main_cst_28_apply]; exact Ideal.ofBits_zero_f32
  rw [hz, zero_add]
  show _ = ∑ e ∈ Gcn.hits (cdst x7) i, mm1' x0 x1 x2 x3 x5 x6 x7 (Gcn.gsel (csrc x7 e)) k * nrm1' x0 x1 x2 x5 x6 x7 e
  unfold Gcn.hits
  refine Finset.sum_congr (Finset.filter_congr fun e _ => ?_) fun e _ => upd126 x0 x1 x2 x3 x5 x6 x7 h73 h74 e k
  rw [dst_col128]

/-! ## The self-loop term and the bias -/

/-- Node i's squared weight, spread along its row. -/
theorem sq132 (h74 : H74 x0 x1 x2 x5 x6 x7) (i : Fin 100000) (k : Fin 64) :
    val_main_v132 (F := Ideal) x0 x1 x2 x5 x6 x7 (ix2 i k) = dis1R' x0 x1 x2 x5 x6 x7 i * dis1R' x0 x1 x2 x5 x6 x7 i := by
  rw [val_main_v132_apply, val_main_v131_apply]
  have e1 : idx_main_v131 (idx_main_v132 (ix2 i k)) = (ix1 i : S100000.Idx) :=
    funext fun a => Fin.ext (by match a with | ⟨0, _⟩ => rfl)
  rw [e1, val_main_v130_apply, dis100 x0 x1 x2 x5 x6 x7 h74]
  rfl

/-- The bias, spread over the rows. -/
theorem bias136 (i : Fin 100000) (k : Fin 64) : val_main_v136 (F := Ideal) x4 (ix2 i k) = cv x4 k := by
  rw [val_main_v136_apply, val_main_v135_apply]
  exact congrArg x4 (funext fun a => Fin.ext (by match a with | ⟨0, _⟩ => rfl))

/-- The second layer's output before the log-softmax, entry (i, k). -/
theorem val137 (h73 : H73 x0 x1 x2 x5 x6 x7) (h74 : H74 x0 x1 x2 x5 x6 x7) (i : Fin 100000) (k : Fin 64) :
    val_main_v137 (F := Ideal) x0 x1 x2 x3 x4 x5 x6 x7 (ix2 i k) = val1R' x0 x1 x2 x3 x4 x5 x6 x7 i k := by
  rw [val_main_v137_apply, val_main_v134_apply, val_main_v133_apply, agg129 x0 x1 x2 x3 x5 x6 x7 h73 h74,
    mm94 x0 x1 x2 x3 x5 x6 x7 h73, sq132 x0 x1 x2 x5 x6 x7 h74, bias136]
  rfl

/-! ## The row-wise log-softmax -/

/-- Row i's maximum, from minus infinity. -/
theorem rowmax0 (h73 : H73 x0 x1 x2 x5 x6 x7) (h74 : H74 x0 x1 x2 x5 x6 x7) (i : Fin 100000) :
    val_main_call2_v0 (F := Ideal) x0 x1 x2 x3 x4 x5 x6 x7 (ix1 i)
      = (Finset.univ : Finset (Fin 64)).fold max Gcn.cninf (val1R' x0 x1 x2 x3 x4 x5 x6 x7 i) := by
  unfold val_main_call2_v0 val_main_call2_cst
  refine (Gcn.HostIdx.reduce_rowmax_apply (val_main_v137 (F := Ideal) x0 x1 x2 x3 x4 x5 x6 x7)
    reducesTo_S100000x64_S100000_d1 h_S_ i).trans ?_
  exact congrArg (fun f : Fin 64 → EReal => (Finset.univ : Finset (Fin 64)).fold max Gcn.cninf f)
    (funext fun k => val137 x0 x1 x2 x3 x4 x5 x6 x7 h73 h74 i k)

/-- The same, taken once more against minus infinity. -/
theorem rowmax2 (h73 : H73 x0 x1 x2 x5 x6 x7) (h74 : H74 x0 x1 x2 x5 x6 x7) (i : Fin 100000) :
    val_main_call2_v2 (F := Ideal) x0 x1 x2 x3 x4 x5 x6 x7 (ix1 i)
      = max Gcn.cninf ((Finset.univ : Finset (Fin 64)).fold max Gcn.cninf (val1R' x0 x1 x2 x3 x4 x5 x6 x7 i)) := by
  rw [val_main_call2_v2_apply, val_main_call2_v1_apply, val_main_call2_cst_0_apply, rowmax0 x0 x1 x2 x3 x4 x5 x6 x7 h73 h74]
  rfl

/-- Entry (i, k) less its row's maximum. -/
theorem shifted5 (h73 : H73 x0 x1 x2 x5 x6 x7) (h74 : H74 x0 x1 x2 x5 x6 x7) (i : Fin 100000) (k : Fin 64) :
    val_main_call2_v5 (F := Ideal) x0 x1 x2 x3 x4 x5 x6 x7 (ix2 i k)
      = val1R' x0 x1 x2 x3 x4 x5 x6 x7 i k
        - max Gcn.cninf ((Finset.univ : Finset (Fin 64)).fold max Gcn.cninf (val1R' x0 x1 x2 x3 x4 x5 x6 x7 i)) := by
  rw [val_main_call2_v5_apply, val_main_call2_v4_apply, val_main_call2_v3_apply]
  have e1 : idx_main_call2_v3 (idx_main_call2_v4 (ix2 i k)) = (ix1 i : S100000.Idx) :=
    funext fun a => Fin.ext (by match a with | ⟨0, _⟩ => rfl)
  rw [e1, rowmax2 x0 x1 x2 x3 x4 x5 x6 x7 h73 h74, val137 x0 x1 x2 x3 x4 x5 x6 x7 h73 h74]
  rfl

/-- Row i's sum of exponentials. -/
theorem sumexp7 (h73 : H73 x0 x1 x2 x5 x6 x7) (h74 : H74 x0 x1 x2 x5 x6 x7) (i : Fin 100000) :
    val_main_call2_v7 (F := Ideal) x0 x1 x2 x3 x4 x5 x6 x7 (ix1 i)
      = ∑ q : Fin 64, Ideal.exp (val1R' x0 x1 x2 x3 x4 x5 x6 x7 i q
          - max Gcn.cninf ((Finset.univ : Finset (Fin 64)).fold max Gcn.cninf (val1R' x0 x1 x2 x3 x4 x5 x6 x7 i))) := by
  rw [val_main_call2_v7_apply]
  have hz : val_main_call2_cst_1 (F := Ideal) (Shape.Idx.first h_S_) = 0 := by
    rw [val_main_call2_cst_1_apply]; exact Ideal.ofBits_zero_f32
  rw [hz, zero_add]
  refine Finset.sum_congr rfl fun q _ => ?_
  have e1 : idx_main_call2_v7 (ix1 i) q = (ix2 i q : S100000x64.Idx) :=
    funext fun a => Fin.ext (by match a with | ⟨0, _⟩ => rfl | ⟨1, _⟩ => rfl)
  rw [e1, val_main_call2_v6_apply, shifted5 x0 x1 x2 x3 x4 x5 x6 x7 h73 h74, Ideal.hostUnary_exp_def]

/-- The logarithm of row i's sum of exponentials, spread along the row. -/
theorem logsum10 (h73 : H73 x0 x1 x2 x5 x6 x7) (h74 : H74 x0 x1 x2 x5 x6 x7) (i : Fin 100000) (k : Fin 64) :
    val_main_call2_v10 (F := Ideal) x0 x1 x2 x3 x4 x5 x6 x7 (ix2 i k)
      = Ideal.log (∑ q : Fin 64, Ideal.exp (val1R' x0 x1 x2 x3 x4 x5 x6 x7 i q
          - max Gcn.cninf ((Finset.univ : Finset (Fin 64)).fold max Gcn.cninf (val1R' x0 x1 x2 x3 x4 x5 x6 x7 i)))) := by
  rw [val_main_call2_v10_apply, val_main_call2_v9_apply, val_main_call2_v8_apply]
  have e1 : idx_main_call2_v8 (idx_main_call2_v10 (ix2 i k)) = (ix1 i : S100000.Idx) :=
    funext fun a => Fin.ext (by match a with | ⟨0, _⟩ => rfl)
  rw [e1, sumexp7 x0 x1 x2 x3 x4 x5 x6 x7 h73 h74, Ideal.hostUnary_log_def]

/-- The program's result, entry (i, k). -/
theorem out138 (h73 : H73 x0 x1 x2 x5 x6 x7) (h74 : H74 x0 x1 x2 x5 x6 x7) (i : Fin 100000) (k : Fin 64) :
    val_main_v138 (F := Ideal) x0 x1 x2 x3 x4 x5 x6 x7 (ix2 i k)
      = Gcn.outR (cX x0) (cW1 x1) (cv x2) (cv x5) (cv x6) (cW2 x3) (cv x4) (csrc x7) (cdst x7) Gcn.rminF Gcn.rmaxF i k := by
  rw [val_main_v138_apply, shifted5 x0 x1 x2 x3 x4 x5 x6 x7 h73 h74, logsum10 x0 x1 x2 x3 x4 x5 x6 x7 h73 h74]
  exact congrFun (Gcn.lsm'_eq (val1R' x0 x1 x2 x3 x4 x5 x6 x7 i)) k

/-- The program's result is the edgewise arrangement's output, given that the first layer's rows and row norms are. -/
theorem v138_eq
    (h73 : val_main_v73 (F := Ideal) x0 x1 x2 x5 x6 x7 = fun y : S100000x64.Idx =>
      Gcn.h1R (cX x0) (cW1 x1) (cv x2) (cv x5) (cv x6) (csrc x7) (cdst x7) (y 0) (y 1))
    (h74 : val_main_v74 (F := Ideal) x0 x1 x2 x5 x6 x7 = fun y : S100000.Idx =>
      Gcn.sR (cX x0) (cW1 x1) (cv x2) (cv x5) (cv x6) (csrc x7) (cdst x7) (y 0)) :
    val_main_v138 (F := Ideal) x0 x1 x2 x3 x4 x5 x6 x7 = fun y : S100000x64.Idx =>
      Gcn.outR (cX x0) (cW1 x1) (cv x2) (cv x5) (cv x6) (cW2 x3) (cv x4) (csrc x7) (cdst x7) Gcn.rminF Gcn.rmaxF (y 0) (y 1) := by
  funext y
  exact (congrArg (val_main_v138 (F := Ideal) x0 x1 x2 x3 x4 x5 x6 x7) (eq_ix2 y)).trans
    (out138 x0 x1 x2 x3 x4 x5 x6 x7 h73 h74 (y 0) (y 1))

end Cert.ReferenceIdeal.RefValue1

end
-- ==== Proof.lean ====
/-
  A two-layer graph convolution with degree normalisation, row normalisation, a score threshold on the nodes and a
  row-wise log-softmax: the kernel program against its reference, equal as extended reals.

  The kernel program is four launches among host operations. Launch 0 and launch 2 are row-blocked matrix products
  scaled row by row by a node weight (KRegion0, KRegion2); launch 1 combines an edge sum with the scaled rows, normalises
  each row, takes its positive part and its Euclidean norm (KRegion1); launch 3 combines the second edge sum with the
  scaled rows and takes the row-wise log-softmax (KRegion3). Each launch's result array is ONE function of the arrays it
  finds, row by row, whatever those arrays are. Between the launches the host sums rows over the edges (a scatter-add by
  destination of rows gathered by source: HostIdx), rescales the norms by their minimum and maximum, thresholds them
  and recomputes the degrees (KValue1, KValue2). Read from the launch memory, the result buffer is the FACTORED
  arrangement of GcnSpec: every row is scaled by its node's weight before the edges are summed, and the sum by the
  receiving node's weight afterwards.

  The reference is host operations only; read one operation at a time (RefValue0, RefValue1) its result is the EDGEWISE
  arrangement: each edge's row is multiplied by the weights of both its ends and by the edge's mask.

  The two arrangements are one function (GcnAlgebra.out_eq): a node weight is the inverse square root of a natural
  number plus one, hence nonnegative and finite, and such a factor distributes over any finite sum of extended reals;
  an edge that contributes to node i reads node i through its destination word. The precondition is not used: no
  finiteness of the inputs enters.

  The ideal pass rewrote nothing in the kernel (its ledger is empty), so the idealisation claim is trivial.
-/
import proofs.«122454_j84129819394303_2_alg».proof.Defs
import proofs.«122454_j84129819394303_2_alg».proof.Proof.Gen.Kernel
import proofs.«122454_j84129819394303_2_alg».proof.Proof.Gen.Kernel.Skeleton
import proofs.«122454_j84129819394303_2_alg».proof.Proof.Gen.Kernel.Launch
import proofs.«122454_j84129819394303_2_alg».proof.Proof.Gen.Kernel.Points
import proofs.«122454_j84129819394303_2_alg».proof.Proof.Gen.Kernel.Frame
import proofs.«122454_j84129819394303_2_alg».proof.Proof.Gen.KernelIdeal
import proofs.«122454_j84129819394303_2_alg».proof.Proof.Gen.KernelIdeal.Skeleton
import proofs.«122454_j84129819394303_2_alg».proof.Proof.Gen.KernelIdeal.Launch
import proofs.«122454_j84129819394303_2_alg».proof.Proof.Gen.KernelIdeal.Points
import proofs.«122454_j84129819394303_2_alg».proof.Proof.Gen.KernelIdeal.Frame
import proofs.«122454_j84129819394303_2_alg».proof.Proof.Gen.ReferenceIdeal
import proofs.«122454_j84129819394303_2_alg».proof.Proof.Gen.Pre_finite_inputs
import proofs.«122454_j84129819394303_2_alg».proof.Proof.RefRunP
import proofs.«122454_j84129819394303_2_alg».proof.Proof.RefRunB
import proofs.«122454_j84129819394303_2_alg».proof.Proof.RefReadP
import proofs.«122454_j84129819394303_2_alg».proof.Proof.GcnSpec
import proofs.«122454_j84129819394303_2_alg».proof.Proof.GcnAlgebra
import proofs.«122454_j84129819394303_2_alg».proof.Proof.KRun
import proofs.«122454_j84129819394303_2_alg».proof.Proof.KRegion0
import proofs.«122454_j84129819394303_2_alg».proof.Proof.KRegion1
import proofs.«122454_j84129819394303_2_alg».proof.Proof.KRegion2
import proofs.«122454_j84129819394303_2_alg».proof.Proof.KRegion3
import proofs.«122454_j84129819394303_2_alg».proof.Proof.KValue1
import proofs.«122454_j84129819394303_2_alg».proof.Proof.KValue2
import proofs.«122454_j84129819394303_2_alg».proof.Proof.RefValue0
import proofs.«122454_j84129819394303_2_alg».proof.Proof.RefValue1
import Idealize.ShloMosaic.Adequacy
import Idealize.ShloMosaic.Init

noncomputable section

namespace Cert.Proof

open Idealize.ShloMosaic Idealize.SL.Sem Idealize.ShloMosaic.ValueIdx

open Cert.Gcn

/-! ## The kernel program's result buffer -/

section Kernel
open Cert.KernelIdeal Cert.KernelIdeal.Gen

variable (m : (ℓ : Loc nD τ sig) → Buf (Elt Ideal) ℓ) (ρ : Dev nD → PrngReg) (c : Dev nD)

/-- Read from the launch memory, the kernel program's result buffer at the last segment boundary is the factored
    arrangement of the launch memory's arguments: the first two launches and the host operations around them give
    the hidden rows and their norms, the last two launches and the host operations around them the result. -/
theorem kernel_value :
    W8 m ρ c (Proc.devRef .tc main_v60) = fun y : S100000x64.Idx =>
      outK (KValue1.kx m c) (KValue1.kw1 m c) (KValue1.kb1 m c) (KValue1.kg m c) (KValue1.kbt m c) (KValue2.w2 m c) (KValue2.b2 m c)
        (KValue1.ksrc m c) (KValue1.kdst m c) rminF rmaxF (y 0) (y 1) :=
  KValue2.w8_out m ρ c
    (KValue1.W4_v27_0 m ρ c (fun V => RegionValue.final0 V c) (fun V => RegionValue.final1_6 V c))
    (KValue1.W4_v27_1 m ρ c (fun V => RegionValue.final0 V c) (fun V => RegionValue.final1_7 V c))
    (KValue1.W4_v1 m ρ c) (KValue1.W4_v3 m ρ c) (KValue1.W4_v7 m ρ c) (KValue1.W4_arg3 m ρ c) (KValue1.W4_arg4 m ρ c)
    (fun V => RegionValue.final2 V c) (fun V => RegionValue.final3 V c)

end Kernel

/-! ## The reference's result -/

section Reference
open Cert.ReferenceIdeal

variable (m' : (ℓ : Loc nD τ sig) → Buf (Elt Ideal) ℓ) (c : Dev nD)

/-- The reference's last stage at a launch memory is the edgewise arrangement of that memory's arguments: its first
    layer read one operation at a time, then its second. -/
theorem ref_value :
    ReadP.val_main_v138 (F := Ideal) (m' ((c.tc : Thread nD τ).loc main_arg0)) (m' ((c.tc : Thread nD τ).loc main_arg1))
        (m' ((c.tc : Thread nD τ).loc main_arg2)) (m' ((c.tc : Thread nD τ).loc main_arg3)) (m' ((c.tc : Thread nD τ).loc main_arg4))
        (m' ((c.tc : Thread nD τ).loc main_arg5)) (m' ((c.tc : Thread nD τ).loc main_arg6)) (m' ((c.tc : Thread nD τ).loc main_arg7))
      = fun y : S100000x64.Idx =>
        outR (fun i j => m' ((c.tc : Thread nD τ).loc main_arg0) (ix2 i j)) (fun j k => m' ((c.tc : Thread nD τ).loc main_arg1) (ix2 j k))
          (fun k => m' ((c.tc : Thread nD τ).loc main_arg2) (ix1 k)) (fun k => m' ((c.tc : Thread nD τ).loc main_arg5) (ix1 k))
          (fun k => m' ((c.tc : Thread nD τ).loc main_arg6) (ix1 k)) (fun j k => m' ((c.tc : Thread nD τ).loc main_arg3) (ix2 j k))
          (fun k => m' ((c.tc : Thread nD τ).loc main_arg4) (ix1 k)) (fun e => m' ((c.tc : Thread nD τ).loc main_arg7) (ix2 0 e))
          (fun e => m' ((c.tc : Thread nD τ).loc main_arg7) (ix2 1 e)) rminF rmaxF (y 0) (y 1) :=
  RefValue1.v138_eq _ _ _ _ _ _ _ _ (RefValue.v73_eq _ _ _ _ _ _) (RefValue.v74_eq _ _ _ _ _ _)

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunB.run (F := Ideal) m ρ)

/-- The ideal pass rewrote no operation of the kernel. -/
theorem preserves : Cert.preserves_Kernel_KernelIdeal := trivial

/-- From memories agreeing on the arguments both programs run; the kernel program ends with its result buffer at the
    factored arrangement of the arguments, the reference at the edgewise arrangement, and the two are one function. -/
theorem algebraic : Cert.algebraic_KernelIdeal_ReferenceIdeal := by
  intro m ρ m' ρ' _ hagree
  refine ⟨fun c => fun y : Cert.KernelIdeal.S100000x64.Idx =>
      outK (Cert.KernelIdeal.KValue1.kx m c) (Cert.KernelIdeal.KValue1.kw1 m c) (Cert.KernelIdeal.KValue1.kb1 m c)
        (Cert.KernelIdeal.KValue1.kg m c) (Cert.KernelIdeal.KValue1.kbt m c) (Cert.KernelIdeal.KValue2.w2 m c)
        (Cert.KernelIdeal.KValue2.b2 m c) (Cert.KernelIdeal.KValue1.ksrc m c) (Cert.KernelIdeal.KValue1.kdst m c)
        rminF rmaxF (y 0) (y 1), ?_, ?_⟩
  · exact (θ_run Cert.KernelIdeal.defs _ _).mono (fun r h c => ⟨(h c).1.trans (kernel_value m ρ c), (h c).2⟩)
      (Cert.KernelIdeal.RunValue.run_value m ρ)
  · refine (θ_run Cert.ReferenceIdeal.defs _ _).mono (fun r h c => ⟨(h c).1.trans ?_, (h c).2⟩)
      (Cert.ReferenceIdeal.RunB.run (F := Ideal) m' ρ')
    rw [ref_value m' c, (hagree c).1, (hagree c).2.1, (hagree c).2.2.1, (hagree c).2.2.2.1, (hagree c).2.2.2.2.1,
      (hagree c).2.2.2.2.2.1, (hagree c).2.2.2.2.2.2.1, (hagree c).2.2.2.2.2.2.2]
    funext y
    exact (congrFun (congrFun (out_eq (Cert.KernelIdeal.KValue1.kx m c) (Cert.KernelIdeal.KValue1.kw1 m c)
      (Cert.KernelIdeal.KValue1.kb1 m c) (Cert.KernelIdeal.KValue1.kg m c) (Cert.KernelIdeal.KValue1.kbt m c)
      (Cert.KernelIdeal.KValue2.w2 m c) (Cert.KernelIdeal.KValue2.b2 m c) (Cert.KernelIdeal.KValue1.ksrc m c)
      (Cert.KernelIdeal.KValue1.kdst m c) rminF rmaxF) (y 0)) (y 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
